-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S4096x16 .f32) (main_arg8 : FVec F S16x4096 .f32) (main_arg9 : FVec F S4096x16 .f32) (main_v33 : IVec S_ 1) : IVec S_ 1 :=
  let main_v34 : FVec F S4096x16 .f32 := Host.absf main_arg7
  let main_cst_12 : FVec F S_ .f32 := constant S_ .f32 0x7F800000#32
  let main_v35 : FVec F S4096x16 .f32 := broadcastInDim S4096x16 ![] bcast_S_S4096x16 main_cst_12
  let main_v36 : IVec S4096x16 1 := cmpf .olt main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  let main_v39 : FVec F S16x4096 .f32 := Host.absf main_arg8
  let main_cst_14 : FVec F S_ .f32 := constant S_ .f32 0x7F800000#32
  let main_v40 : FVec F S16x4096 .f32 := broadcastInDim S16x4096 ![] bcast_S_S16x4096 main_cst_14
  let main_v41 : IVec S16x4096 1 := cmpf .olt main_v39 main_v40
  let main_c_15 : IVec S_ 1 := constantI S_ 1 1#1
  let main_v42 : IVec S_ 1 := (fun x v => Host.reduce IntOp.andi x v reducesTo_S16x4096_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  main_v48

def fn_part1 {F : FTy → Type} [FloatOps F] (main_arg4 : FVec F S16x4096 .f32) (main_arg5 : FVec F S4096x16 .f32) (main_arg6 : FVec F S16x4096 .f32) (main_arg7 : FVec F S4096x16 .f32) (main_arg8 : FVec F S16x4096 .f32) (main_arg9 : FVec F S4096x16 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4096x4096 .f32) (main_arg2 : FVec F S4096x4096 .f32) (main_arg3 : FVec F S4096x4096 .f32) (main_arg4 : FVec F S16x4096 .f32) (main_arg5 : FVec F S4096x16 .f32) (main_arg6 : FVec F S16x4096 .f32) (main_arg7 : FVec F S4096x16 .f32) (main_arg8 : FVec F S16x4096 .f32) (main_arg9 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 51
  | .vmem => 33
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S4096x16, .f32⟩
  | .hbm, ⟨8, _⟩ => ⟨S16x4096, .f32⟩
  | .hbm, ⟨9, _⟩ => ⟨S4096x16, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S8192x4096, .bf16⟩
  | .hbm, ⟨30, _⟩ => ⟨S8192x4096, .f32⟩
  | .hbm, ⟨31, _⟩ => ⟨S8192x4096, .f32⟩
  | .hbm, ⟨32, _⟩ => ⟨S8192x4096, .bf16⟩
  | .hbm, ⟨33, _⟩ => ⟨S4096x4096, .bf16⟩
  | .hbm, ⟨34, _⟩ => ⟨S4096x4096, .f32⟩
  | .hbm, ⟨35, _⟩ => ⟨S4096x4096, .f32⟩
  | .hbm, ⟨36, _⟩ => ⟨S4096x4096, .bf16⟩
  | .hbm, ⟨37, _⟩ => ⟨S4096x4096, .bf16⟩
  | .hbm, ⟨38, _⟩ => ⟨S4096x4096, .f32⟩
  | .hbm, ⟨39, _⟩ => ⟨S4096x4096, .f32⟩
  | .hbm, ⟨40, _⟩ => ⟨S4096x4096, .bf16⟩
  | .hbm, ⟨41, _⟩ => ⟨S4096x4096, .bf16⟩
  | .hbm, ⟨42, _⟩ => ⟨S4096x4096, .f32⟩
  | .hbm, ⟨43, _⟩ => ⟨S4096x4096, .f32⟩
  | .hbm, ⟨44, _⟩ => ⟨S4096x4096, .bf16⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S2048x1024, .f32⟩
  | .local _ .vmem, ⟨20, _⟩ => ⟨S2048x1024, .f32⟩
  | .local _ .vmem, ⟨21, _⟩ => ⟨S2048x1024, .f32⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S2048x1024, .f32⟩
  | .local _ .vmem, ⟨31, _⟩ => ⟨S2048x1024, .f32⟩
  | .local _ .vmem, ⟨32, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_14 : BitVec 32 := 0#32
  let v23 : BitVec 1 := Scalar.cmpi .ne v22 c0_i32_14
  v23

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_14 : BitVec 32 := 0#32
  let v23 : BitVec 1 := Scalar.cmpi .ne v22 c0_i32_14
  v23

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true]

abbrev stage2_4 : Fin 2 → Memref sig .tc .vmem S2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  transposes_S4096x4096_S4096x4096_1_0 : S4096x4096.Transposes [1, 0] S4096x4096
  bcast_S_S4096x4096 : S_.BroadcastsInDim S4096x4096 (![] : Fin 0 → Fin S4096x4096.rank)
  shapeCasts_S4x2048x4096_S8192x4096 : S4x2048x4096.ShapeCasts S8192x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S16x4096_S4096x16_S4096x4096_0_1_1_0_n_n_wf : DotDims.WF S16x4096 S4096x16 S4096x4096 [0] [1] [1] [0] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x4096.size a
  hwx0_1 : ∀ i : grid0.Coords, EltTy.bits .bf16 = 32 ∨ (Rect.block (s := S8192x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x4096.size a
  hwx1_1 : ∀ i : grid1.Coords, EltTy.bits .bf16 = 32 ∨ (Rect.block (s := S8192x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S8192x4096.size a
  hwx1_4 : ∀ i : grid1.Coords, EltTy.bits .f32 = 32 ∨ (Rect.block (s := S8192x4096) S2048x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S8192x4096.size a
  hwx2_1 : ∀ i : grid2.Coords, EltTy.bits .bf16 = 32 ∨ (Rect.block (s := S8192x4096) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .bf16 = 32 ∨ (Rect.block (s := S4096x4096) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .bf16 = 32 ∨ (Rect.block (s := S4096x4096) S1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1024.size a ≤ S8192x4096.size a
  hwx2_4 : ∀ i : grid2.Coords, EltTy.bits .f32 = 32 ∨ (Rect.block (s := S8192x4096) S2048x1024.size (cc2_transform_4 i) (hinb2_4 i)).WholeWords (EltTy.packing .f32)

variable [Facts₀]

def dot_S16x4096_S4096x16_S4096x4096_0_1_1_0_n_n : DotDims S16x4096 S4096x16 S4096x4096 where
  lhsContracting := [0]
  rhsContracting := [1]
  lhsNonContracting := [1]
  rhsNonContracting := [0]
  lhsBatch := []
  rhsBatch := []
  wf := dot_S16x4096_S4096x16_S4096x4096_0_1_1_0_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v16) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v16) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v16) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v34) S2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S4096x16, .f32⟩
  | .hbm, ⟨8, _⟩ => ⟨S16x4096, .f32⟩
  | .hbm, ⟨9, _⟩ => ⟨S4096x16, .f32⟩
  | .hbm, ⟨10, _⟩ => ⟨S4x2048x4096, .f32⟩
  | .hbm, ⟨11, _⟩ => ⟨S4x2048x16, .f32⟩
  | .hbm, ⟨12, _⟩ => ⟨S_, .f32⟩
  | .hbm, ⟨13, _⟩ => ⟨S4096x16, .f32⟩
  | .hbm, ⟨14, _⟩ => ⟨S4096x16, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x16, .f32⟩
  | .hbm, ⟨19, _⟩ => ⟨S_, .f32⟩
  | .hbm, ⟨20, _⟩ => ⟨S4096x16, .f32⟩
  | .hbm, ⟨21, _⟩ => ⟨S4096x16, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x16, .f32⟩
  | .hbm, ⟨26, _⟩ => ⟨S_, .f32⟩
  | .hbm, ⟨27, _⟩ => ⟨S4096x16, .f32⟩
  | .hbm, ⟨28, _⟩ => ⟨S4096x16, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Kernel0Base.lean ====
/-
  Projection 0 of the program Kernel: the grid is 4 × 4 × 4 (row block, column block, contraction block), the last axis fastest.
  A grid point adds its contraction block's three products into a running sum kept in a scratch buffer: the first
  contraction block (points ≡ 0 mod 4) first clears the sum, the last (points ≡ 3 mod 4) copies it to the output block.
  This module fixes what the three cases share: the windows' blocks read off the arrays as the call finds them, the two
  branch conditions decided over the grid, where the output window is idle, and the scratch buffer as an owned memref.
-/
import proofs.«111175_j26250840113720_2_alg».proof.Proof.Gen.Kernel.Launch
import proofs.«111175_j26250840113720_2_alg».proof.Proof.Gen.Kernel.Skeleton
import proofs.«111175_j26250840113720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point: it is fetched at every point and the body leaves it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
end

/-- The first branch's condition: the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch's condition: the contraction coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last contraction block the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last contraction block the body stores into it. -/
theorem liveAt0_4 : ∀ t : Fin cfg0.N, cond0_1 (grid0.coords t) → cfg0.idle 4 (grid0.coords t) = false := by decide +kernel

/-- A staging buffer of the output window and the scratch buffer, as views their contents are stated through. -/
abbrev VO0 : View sig .tc .vmem S2048x1024 .f32 := (Memref.whole cc0_stg4_0 : Memref sig .tc .vmem S2048x1024 .f32).view
abbrev scM0 : Memref sig .tc .vmem S2048x1024 .f32 := Memref.whole cc0_scratch0
abbrev VS0 : View sig .tc .vmem S2048x1024 .f32 := scM0.view

/-- The windows' current staging memrefs at a point, as the pipeline passes them, and their wholeness. -/
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .f32 := win0_4.stage (cfg0.slots t 4)
abbrev hs0_4 (t : Fin cfg0.N) : (ms0_4 t).IsWhole := hstage0_4 ((cfg0.slots t 4).cast nbuf0_4)

/-- The scoped buffers that are neither this call's staging buffers nor its scratch buffer (the other calls'), unopened. -/
abbrev Rest0 (c : Dev nD) : sProp 𝕄 :=
  Pipeline.scopedRestBut (Ix := Unit) (Name := ℕ) (U := UR sig nD τ) (Lvl := ℕ) (Val := Elt F) spec0 c [cc0_scratch0]

/-- The call's scoped rest is its scratch buffer owned at some contents beside the other calls' scoped buffers, and
    the generator register. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA
  rw [Pipeline.scopedRest_split_of_list spec0 c [cc0_scratch0] (by decide) (by decide)]
  simp only [scM0, owns_whole]
  rfl

end Cert.Kernel.Hand

end
-- ==== Proof.Kernel0RunA.lean ====
/-
  Projection 0 of the program Kernel, the case of the FIRST contraction block (the running sum is cleared, then the block's products are added; nothing is stored to the output).
  The body is run symbolically on whole staging memrefs; the pieces the scratch buffer (and, at the last contraction block,
  the output buffer) ends with are found by that run.
-/
import proofs.«111175_j26250840113720_2_alg».proof.Proof.Kernel0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First contraction block: from the inputs' blocks, the output buffer handed back untouched, the scratch buffer at anything,
    the body runs and leaves the scratch buffer with the found pieces written. -/
noncomputable def kernelRun0_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i)
    (x0 : Vec F S2048x1024 .bf16) (x1 : Vec F S2048x1024 .bf16) (x2 : Vec F S1024x1024 .bf16) (x3 : Vec F S1024x1024 .bf16) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__matmul_hilo_kernel i arg3 harg3 arg4 harg4 arg5 harg5 arg6 harg6 arg7 harg7 arg8 harg8) K } := by
  refine ⟨?_, fun xi4 E K => ?run⟩
  case run =>
    simp only [cc0__matmul_hilo_kernel_eq_skeleton]; unfold cc0__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.Kernel0RunB.lean ====
/-
  Projection 0 of the program Kernel, the case of a MIDDLE contraction block (the block's products are added to the running sum the point before left; nothing is stored to the output).
  The body is run symbolically on whole staging memrefs; the pieces the scratch buffer (and, at the last contraction block,
  the output buffer) ends with are found by that run.
-/
import proofs.«111175_j26250840113720_2_alg».proof.Proof.Kernel0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle contraction block: from the inputs' blocks, the output buffer handed back untouched, the scratch buffer at what
    the point before left (`xs`), the body runs and leaves the scratch buffer with the found pieces written. -/
noncomputable def kernelRun0_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i)
    (x0 : Vec F S2048x1024 .bf16) (x1 : Vec F S2048x1024 .bf16) (x2 : Vec F S1024x1024 .bf16) (x3 : Vec F S1024x1024 .bf16) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__matmul_hilo_kernel i arg3 harg3 arg4 harg4 arg5 harg5 arg6 harg6 arg7 harg7 arg8 harg8) K } := by
  refine ⟨?_, fun xi4 E K => ?run⟩
  case run =>
    simp only [cc0__matmul_hilo_kernel_eq_skeleton]; unfold cc0__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.Kernel0RunC.lean ====
/-
  Projection 0 of the program Kernel, the case of the LAST contraction block (the block's products are added to the running sum, and the sum is copied to the output block).
  The body is run symbolically on whole staging memrefs; the pieces the scratch buffer (and, at the last contraction block,
  the output buffer) ends with are found by that run.
-/
import proofs.«111175_j26250840113720_2_alg».proof.Proof.Kernel0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last contraction block: from the inputs' blocks, the output buffer at anything, the scratch buffer at what the point
    before left (`xs`), the body runs and leaves the output buffer and the scratch buffer with the found pieces written. -/
noncomputable def kernelRun0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x1024 .bf16) (x1 : Vec F S2048x1024 .bf16) (x2 : Vec F S1024x1024 .bf16) (x3 : Vec F S1024x1024 .bf16) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__matmul_hilo_kernel i arg3 harg3 arg4 harg4 arg5 harg5 arg6 harg6 arg7 harg7 arg8 harg8) K } := by
  refine ⟨?_, ?_, fun E K => ?run⟩
  case run =>
    simp only [cc0__matmul_hilo_kernel_eq_skeleton]; unfold cc0__matmul_hilo_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.Kernel0Frame.lean ====
/-
  Projection 0 of the program Kernel: what the scratch buffer and the output buffer hold after each grid point, the call's
  proof data, and the body's obligation at every point.
  After a point of the first contraction block the scratch buffer holds that case's pieces; after any other point the
  pieces of its case over what the point before left; at a point of the last contraction block the output buffer holds
  the copy of the running sum. Between points the call's invariant keeps the scratch buffer at exactly that.
-/
import proofs.«111175_j26250840113720_2_alg».proof.Proof.Kernel0RunA
import proofs.«111175_j26250840113720_2_alg».proof.Proof.Kernel0RunB
import proofs.«111175_j26250840113720_2_alg».proof.Proof.Kernel0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first case's pieces tile the scratch buffer. -/
theorem scover0_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i) (x0 : Vec F S2048x1024 .bf16) (x1 : Vec F S2048x1024 .bf16) (x2 : Vec F S1024x1024 .bf16) (x3 : Vec F S1024x1024 .bf16) (y : S2048x1024.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S2048x1024.size (by sl_kernel_rfl) y
/-- What the first case leaves in the scratch buffer. -/
def sout0_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i) (x0 : Vec F S2048x1024 .bf16) (x1 : Vec F S2048x1024 .bf16) (x2 : Vec F S1024x1024 .bf16) (x3 : Vec F S1024x1024 .bf16) : Vec F S2048x1024 .f32 :=
  VS0.read (Elt F) (VS0.writes (Elt F) VS0.junk (kernelRun0_A c i arg3 harg3 arg4 harg4 arg5 harg5 arg6 harg6 arg7 harg7 arg8 harg8 hc0 hc1 x0 x1 x2 x3).1)

theorem scover0_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun0_B c i arg3 harg3 arg4 harg4 arg5 harg5 arg6 harg6 arg7 harg7 arg8 harg8 hc0 hc1 x0 x1 x2 x3 xs).1, y ∈ pc.1.set :=
  View.cover_of_tiledL (kernelRun0_B c i arg3 harg3 arg4 harg4 arg5 harg5 arg6 harg6 arg7 harg7 arg8 harg8 hc0 hc1 x0 x1 x2 x3 xs).1 S2048x1024.size (by sl_kernel_rfl) y
/-- What a middle case leaves in the scratch buffer. -/
def sout0_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS0.read (Elt F) (VS0.writes (Elt F) VS0.junk (kernelRun0_B c i arg3 harg3 arg4 harg4 arg5 harg5 arg6 harg6 arg7 harg7 arg8 harg8 hc0 hc1 x0 x1 x2 x3 xs).1)

theorem cover0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S2048x1024.size (by sl_kernel_rfl) y
/-- What the last case leaves in the output buffer. -/
def out0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VO0.read (Elt F) (VO0.writes (Elt F) VO0.junk (kernelRun0_C c i arg3 harg3 arg4 harg4 arg5 harg5 arg6 harg6 arg7 harg7 arg8 harg8 hc0 hc1 x0 x1 x2 x3 xs).1)
theorem scover0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S2048x1024.size (by sl_kernel_rfl) y
/-- What the last case leaves in the scratch buffer. -/
def sout0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS0.read (Elt F) (VS0.writes (Elt F) VS0.junk (kernelRun0_C c i arg3 harg3 arg4 harg4 arg5 harg5 arg6 harg6 arg7 harg7 arg8 harg8 hc0 hc1 x0 x1 x2 x3 xs).2.1)

section
variable (V : (c : Dev nD) → (b : Ref sig .tc) → Buf (Elt F) ((c : Thread nD τ).loc b))

/-- A value standing for the output buffer where the body does not store into it (never consulted: the window is idle there). -/
def idleOut0 : Vec F S2048x1024 .f32 := VO0.read (Elt F) VO0.junk

/-- What (the output buffer, the scratch buffer) hold after the body at point `t`, given what the scratch buffer held
    before it: the case the point's residue mod 4 selects, run on the point's blocks. -/
def step0 (c : Dev nD) (t : Fin cfg0.N) (prev : Vec F S2048x1024 .f32) : Vec F S2048x1024 .f32 × Vec F S2048x1024 .f32 :=
  if h0 : t.val % 4 = 0 then
    (idleOut0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => by have h' := (hcond0_1 t).mp h; omega) (iblk0 V c 0 t) (iblk0 V c 1 t) (iblk0 V c 2 t) (iblk0 V c 3 t))
  else if h1 : t.val % 4 = 3 then
    (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) prev,
     sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) prev)
  else
    (idleOut0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) prev)

/-- The grid point at position `n` (positions past the grid wrap; only positions on the grid are consulted). -/
def pt0 (n : ℕ) : Fin cfg0.N := ⟨n % 64, lt_of_lt_of_eq (Nat.mod_lt _ (by decide)) N_0.symm⟩
theorem pt0_val (t : Fin cfg0.N) : pt0 t.val = t :=
  Fin.ext (Nat.mod_eq_of_lt (lt_of_lt_of_eq t.isLt N_0))

/-- What the scratch buffer holds after the body at position `n`: by recursion on the position. -/
def scr0 (c : Dev nD) : ℕ → Vec F S2048x1024 .f32
  | 0 => (step0 V c (pt0 0) idleOut0).2
  | n + 1 => (step0 V c (pt0 (n + 1)) (scr0 c n)).2

/-- What (the output buffer, the scratch buffer) hold after the body at point `t`. -/
def outsAt0 (c : Dev nD) (t : Fin cfg0.N) : Vec F S2048x1024 .f32 × Vec F S2048x1024 .f32 :=
  step0 V c t (scr0 V c (t.val - 1))

/-- The scratch buffer after point `t` is the second component. -/
theorem scr0_val (c : Dev nD) (t : Fin cfg0.N) : scr0 V c t.val = (outsAt0 V c t).2 := by
  obtain ⟨n, hn⟩ := t
  cases n with
  | zero =>
    show (step0 V c (pt0 0) idleOut0).2 = (step0 V c ⟨0, hn⟩ (scr0 V c (0 - 1))).2
    rw [show pt0 0 = (⟨0, hn⟩ : Fin cfg0.N) from pt0_val ⟨0, hn⟩]
    unfold step0; rw [dif_pos (show (⟨0, hn⟩ : Fin cfg0.N).val % 4 = 0 from rfl), dif_pos (show (⟨0, hn⟩ : Fin cfg0.N).val % 4 = 0 from rfl)]
  | succ n =>
    show (step0 V c (pt0 (n + 1)) (scr0 V c n)).2 = (step0 V c ⟨n + 1, hn⟩ (scr0 V c (n + 1 - 1))).2
    rw [show pt0 (n + 1) = (⟨n + 1, hn⟩ : Fin cfg0.N) from pt0_val ⟨n + 1, hn⟩, Nat.add_sub_cancel]

/-- The scratch component at a point of the first contraction block. -/
theorem outsAt0_A (c : Dev nD) (t : Fin cfg0.N) (h0 : t.val % 4 = 0) (h1 : ¬t.val % 4 = 3) :
    (outsAt0 V c t).2 = sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t) := by
  unfold outsAt0 step0; rw [dif_pos h0]
/-- At a middle contraction block. -/
theorem outsAt0_B (c : Dev nD) (t : Fin cfg0.N) (h0 : ¬t.val % 4 = 0) (h1 : ¬t.val % 4 = 3) :
    (outsAt0 V c t).2 = sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (scr0 V c (t.val - 1)) := by
  unfold outsAt0 step0; rw [dif_neg h0, dif_neg h1]
/-- At the last contraction block: both components. -/
theorem outsAt0_C (c : Dev nD) (t : Fin cfg0.N) (h0 : ¬t.val % 4 = 0) (h1 : t.val % 4 = 3) :
    outsAt0 V c t = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (scr0 V c (t.val - 1)),
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (scr0 V c (t.val - 1))) := by
  unfold outsAt0 step0; rw [dif_neg h0, dif_pos h1]

/-- The call's invariant before position `n`: before the first point what the launch hands the call; afterwards the scratch
    buffer at exactly what the position before left, the other calls' scoped buffers unopened, the generator register. -/
def PhiS0 (c : Dev nD) : ℕ → sProp 𝕄
  | 0 => Pipeline.ΦA spec0 c
  | n + 1 => iprop(iprop(owns (c : Thread nD τ) scM0 fullShare (scr0 V c n) ∗ Rest0 c) ∗ (∃ r, prngReg c r))

theorem PhiS0_zero (c : Dev nD) (n : ℕ) (hz : n = 0) : PhiS0 V c n = Pipeline.ΦA spec0 c := by
  subst hz; rfl
theorem PhiS0_succ (c : Dev nD) (n : ℕ) :
    PhiS0 V c (n + 1) = iprop(iprop(owns (c : Thread nD τ) scM0 fullShare (scr0 V c n) ∗ Rest0 c) ∗ (∃ r, prngReg c r)) := rfl
theorem PhiS0_pos (c : Dev nD) (n : ℕ) (hz : n ≠ 0) :
    PhiS0 V c n = iprop(iprop(owns (c : Thread nD τ) scM0 fullShare (scr0 V c (n - 1)) ∗ Rest0 c) ∗ (∃ r, prngReg c r)) := by
  cases n with
  | zero => exact absurd rfl hz
  | succ n => rfl

/-- The call's proof data: the arrays as the call finds them; after the body each input's buffer at its block and the
    output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
  Φ t := PhiS0 V c t.val
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point. The residue of the position mod 4 says which case runs; the invariant hands the body the scratch
    buffer at what the point before left (at anything before the first point, and at a first contraction block the named
    contents are simply forgotten) and takes it back at this point's contents; the other calls' scoped buffers, the
    generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) from rfl, PhiS0_succ, scr0_val V c t]
  rw [leaves0_0, leaves0_1, leaves0_2, leaves0_3]
  have hN : t.val < 64 := lt_of_lt_of_eq t.isLt (show cfg0.N = 64 from N_0)
  by_cases h0 : t.val % 4 = 0
  · have h1 : ¬t.val % 4 = 3 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A; (try dsimp only)
    by_cases hz : t.val = 0
    · rw [PhiS0_castSucc V c t, PhiS0_zero V c _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The body's obligation at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives it back: the scratch buffer's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val from rfl, PhiS0_pos V c _ ht, PhiA0_eq]
  iintro ⟨⟨HS, HR⟩, Hg⟩
  isplitl [HS HR]
  · isplitl [HS]
    · iexists _; iexact HS
    iexact HR
  iexact Hg

end

end Cert.Kernel.Hand

end
-- ==== Proof.Kernel1Base.lean ====
/-
  Projection 1 of the program Kernel: the grid is 4 × 4 × 4 (row block, column block, contraction block), the last axis fastest.
  A grid point adds its contraction block's three products into a running sum kept in a scratch buffer: the first
  contraction block (points ≡ 0 mod 4) first clears the sum, the last (points ≡ 3 mod 4) copies it to the output block.
  This module fixes what the three cases share: the windows' blocks read off the arrays as the call finds them, the two
  branch conditions decided over the grid, where the output window is idle, and the scratch buffer as an owned memref.
-/
import proofs.«111175_j26250840113720_2_alg».proof.Proof.Gen.Kernel.Launch
import proofs.«111175_j26250840113720_2_alg».proof.Proof.Gen.Kernel.Skeleton
import proofs.«111175_j26250840113720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point: it is fetched at every point and the body leaves it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
end

/-- The first branch's condition: the contraction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch's condition: the contraction coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last contraction block the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last contraction block the body stores into it. -/
theorem liveAt1_4 : ∀ t : Fin cfg1.N, cond1_1 (grid1.coords t) → cfg1.idle 4 (grid1.coords t) = false := by decide +kernel

/-- A staging buffer of the output window and the scratch buffer, as views their contents are stated through. -/
abbrev VO1 : View sig .tc .vmem S2048x1024 .f32 := (Memref.whole cc1_stg4_0 : Memref sig .tc .vmem S2048x1024 .f32).view
abbrev scM1 : Memref sig .tc .vmem S2048x1024 .f32 := Memref.whole cc1_scratch0
abbrev VS1 : View sig .tc .vmem S2048x1024 .f32 := scM1.view

/-- The windows' current staging memrefs at a point, as the pipeline passes them, and their wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .f32 := win1_4.stage (cfg1.slots t 4)
abbrev hs1_4 (t : Fin cfg1.N) : (ms1_4 t).IsWhole := hstage1_4 ((cfg1.slots t 4).cast nbuf1_4)

/-- The scoped buffers that are neither this call's staging buffers nor its scratch buffer (the other calls'), unopened. -/
abbrev Rest1 (c : Dev nD) : sProp 𝕄 :=
  Pipeline.scopedRestBut (Ix := Unit) (Name := ℕ) (U := UR sig nD τ) (Lvl := ℕ) (Val := Elt F) spec1 c [cc1_scratch0]

/-- The call's scoped rest is its scratch buffer owned at some contents beside the other calls' scoped buffers, and
    the generator register. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA
  rw [Pipeline.scopedRest_split_of_list spec1 c [cc1_scratch0] (by decide) (by decide)]
  simp only [scM1, owns_whole]
  rfl

end Cert.Kernel.Hand

end
-- ==== Proof.Kernel1RunA.lean ====
/-
  Projection 1 of the program Kernel, the case of the FIRST contraction block (the running sum is cleared, then the block's products are added; nothing is stored to the output).
  The body is run symbolically on whole staging memrefs; the pieces the scratch buffer (and, at the last contraction block,
  the output buffer) ends with are found by that run.
-/
import proofs.«111175_j26250840113720_2_alg».proof.Proof.Kernel1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First contraction block: from the inputs' blocks, the output buffer handed back untouched, the scratch buffer at anything,
    the body runs and leaves the scratch buffer with the found pieces written. -/
noncomputable def kernelRun1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S2048x1024 .bf16) (x2 : Vec F S1024x1024 .bf16) (x3 : Vec F S1024x1024 .bf16) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_hilo_kernel i arg3 harg3 arg4 harg4 arg5 harg5 arg6 harg6 arg7 harg7 arg8 harg8) K } := by
  refine ⟨?_, fun xi4 E K => ?run⟩
  case run =>
    simp only [cc1__matmul_hilo_kernel_eq_skeleton]; unfold cc1__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.Kernel1RunB.lean ====
/-
  Projection 1 of the program Kernel, the case of a MIDDLE contraction block (the block's products are added to the running sum the point before left; nothing is stored to the output).
  The body is run symbolically on whole staging memrefs; the pieces the scratch buffer (and, at the last contraction block,
  the output buffer) ends with are found by that run.
-/
import proofs.«111175_j26250840113720_2_alg».proof.Proof.Kernel1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle contraction block: from the inputs' blocks, the output buffer handed back untouched, the scratch buffer at what
    the point before left (`xs`), the body runs and leaves the scratch buffer with the found pieces written. -/
noncomputable def kernelRun1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S2048x1024 .bf16) (x2 : Vec F S1024x1024 .bf16) (x3 : Vec F S1024x1024 .bf16) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_hilo_kernel i arg3 harg3 arg4 harg4 arg5 harg5 arg6 harg6 arg7 harg7 arg8 harg8) K } := by
  refine ⟨?_, fun xi4 E K => ?run⟩
  case run =>
    simp only [cc1__matmul_hilo_kernel_eq_skeleton]; unfold cc1__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.Kernel1RunC.lean ====
/-
  Projection 1 of the program Kernel, the case of the LAST contraction block (the block's products are added to the running sum, and the sum is copied to the output block).
  The body is run symbolically on whole staging memrefs; the pieces the scratch buffer (and, at the last contraction block,
  the output buffer) ends with are found by that run.
-/
import proofs.«111175_j26250840113720_2_alg».proof.Proof.Kernel1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last contraction block: from the inputs' blocks, the output buffer at anything, the scratch buffer at what the point
    before left (`xs`), the body runs and leaves the output buffer and the scratch buffer with the found pieces written. -/
noncomputable def kernelRun1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S2048x1024 .bf16) (x2 : Vec F S1024x1024 .bf16) (x3 : Vec F S1024x1024 .bf16) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__matmul_hilo_kernel i arg3 harg3 arg4 harg4 arg5 harg5 arg6 harg6 arg7 harg7 arg8 harg8) K } := by
  refine ⟨?_, ?_, fun E K => ?run⟩
  case run =>
    simp only [cc1__matmul_hilo_kernel_eq_skeleton]; unfold cc1__matmul_hilo_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.Kernel1Frame.lean ====
/-
  Projection 1 of the program Kernel: what the scratch buffer and the output buffer hold after each grid point, the call's
  proof data, and the body's obligation at every point.
  After a point of the first contraction block the scratch buffer holds that case's pieces; after any other point the
  pieces of its case over what the point before left; at a point of the last contraction block the output buffer holds
  the copy of the running sum. Between points the call's invariant keeps the scratch buffer at exactly that.
-/
import proofs.«111175_j26250840113720_2_alg».proof.Proof.Kernel1RunA
import proofs.«111175_j26250840113720_2_alg».proof.Proof.Kernel1RunB
import proofs.«111175_j26250840113720_2_alg».proof.Proof.Kernel1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first case's pieces tile the scratch buffer. -/
theorem scover1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i) (x0 : Vec F S2048x1024 .bf16) (x1 : Vec F S2048x1024 .bf16) (x2 : Vec F S1024x1024 .bf16) (x3 : Vec F S1024x1024 .bf16) (y : S2048x1024.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S2048x1024.size (by sl_kernel_rfl) y
/-- What the first case leaves in the scratch buffer. -/
def sout1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i) (x0 : Vec F S2048x1024 .bf16) (x1 : Vec F S2048x1024 .bf16) (x2 : Vec F S1024x1024 .bf16) (x3 : Vec F S1024x1024 .bf16) : Vec F S2048x1024 .f32 :=
  VS1.read (Elt F) (VS1.writes (Elt F) VS1.junk (kernelRun1_A c i arg3 harg3 arg4 harg4 arg5 harg5 arg6 harg6 arg7 harg7 arg8 harg8 hc0 hc1 x0 x1 x2 x3).1)

theorem scover1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun1_B c i arg3 harg3 arg4 harg4 arg5 harg5 arg6 harg6 arg7 harg7 arg8 harg8 hc0 hc1 x0 x1 x2 x3 xs).1, y ∈ pc.1.set :=
  View.cover_of_tiledL (kernelRun1_B c i arg3 harg3 arg4 harg4 arg5 harg5 arg6 harg6 arg7 harg7 arg8 harg8 hc0 hc1 x0 x1 x2 x3 xs).1 S2048x1024.size (by sl_kernel_rfl) y
/-- What a middle case leaves in the scratch buffer. -/
def sout1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS1.read (Elt F) (VS1.writes (Elt F) VS1.junk (kernelRun1_B c i arg3 harg3 arg4 harg4 arg5 harg5 arg6 harg6 arg7 harg7 arg8 harg8 hc0 hc1 x0 x1 x2 x3 xs).1)

theorem cover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S2048x1024.size (by sl_kernel_rfl) y
/-- What the last case leaves in the output buffer. -/
def out1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VO1.read (Elt F) (VO1.writes (Elt F) VO1.junk (kernelRun1_C c i arg3 harg3 arg4 harg4 arg5 harg5 arg6 harg6 arg7 harg7 arg8 harg8 hc0 hc1 x0 x1 x2 x3 xs).1)
theorem scover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S2048x1024.size (by sl_kernel_rfl) y
/-- What the last case leaves in the scratch buffer. -/
def sout1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)

section
variable (V : (c : Dev nD) → (b : Ref sig .tc) → Buf (Elt F) ((c : Thread nD τ).loc b))

/-- A value standing for the output buffer where the body does not store into it (never consulted: the window is idle there). -/
def idleOut1 : Vec F S2048x1024 .f32 := VO1.read (Elt F) VO1.junk

/-- What (the output buffer, the scratch buffer) hold after the body at point `t`, given what the scratch buffer held
    before it: the case the point's residue mod 4 selects, run on the point's blocks. -/
def step1 (c : Dev nD) (t : Fin cfg1.N) (prev : Vec F S2048x1024 .f32) : Vec F S2048x1024 .f32 × Vec F S2048x1024 .f32 :=
  if h0 : t.val % 4 = 0 then
    (idleOut1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => by have h' := (hcond1_1 t).mp h; omega) (iblk1 V c 0 t) (iblk1 V c 1 t) (iblk1 V c 2 t) (iblk1 V c 3 t))
  else if h1 : t.val % 4 = 3 then
    (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) prev,
     sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) prev)
  else
    (idleOut1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) prev)

/-- The grid point at position `n` (positions past the grid wrap; only positions on the grid are consulted). -/
def pt1 (n : ℕ) : Fin cfg1.N := ⟨n % 64, lt_of_lt_of_eq (Nat.mod_lt _ (by decide)) N_1.symm⟩
theorem pt1_val (t : Fin cfg1.N) : pt1 t.val = t :=
  Fin.ext (Nat.mod_eq_of_lt (lt_of_lt_of_eq t.isLt N_1))

/-- What the scratch buffer holds after the body at position `n`: by recursion on the position. -/
def scr1 (c : Dev nD) : ℕ → Vec F S2048x1024 .f32
  | 0 => (step1 V c (pt1 0) idleOut1).2
  | n + 1 => (step1 V c (pt1 (n + 1)) (scr1 c n)).2

/-- What (the output buffer, the scratch buffer) hold after the body at point `t`. -/
def outsAt1 (c : Dev nD) (t : Fin cfg1.N) : Vec F S2048x1024 .f32 × Vec F S2048x1024 .f32 :=
  step1 V c t (scr1 V c (t.val - 1))

/-- The scratch buffer after point `t` is the second component. -/
theorem scr1_val (c : Dev nD) (t : Fin cfg1.N) : scr1 V c t.val = (outsAt1 V c t).2 := by
  obtain ⟨n, hn⟩ := t
  cases n with
  | zero =>
    show (step1 V c (pt1 0) idleOut1).2 = (step1 V c ⟨0, hn⟩ (scr1 V c (0 - 1))).2
    rw [show pt1 0 = (⟨0, hn⟩ : Fin cfg1.N) from pt1_val ⟨0, hn⟩]
    unfold step1; rw [dif_pos (show (⟨0, hn⟩ : Fin cfg1.N).val % 4 = 0 from rfl), dif_pos (show (⟨0, hn⟩ : Fin cfg1.N).val % 4 = 0 from rfl)]
  | succ n =>
    show (step1 V c (pt1 (n + 1)) (scr1 V c n)).2 = (step1 V c ⟨n + 1, hn⟩ (scr1 V c (n + 1 - 1))).2
    rw [show pt1 (n + 1) = (⟨n + 1, hn⟩ : Fin cfg1.N) from pt1_val ⟨n + 1, hn⟩, Nat.add_sub_cancel]

/-- The scratch component at a point of the first contraction block. -/
theorem outsAt1_A (c : Dev nD) (t : Fin cfg1.N) (h0 : t.val % 4 = 0) (h1 : ¬t.val % 4 = 3) :
    (outsAt1 V c t).2 = sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) := by
  unfold outsAt1 step1; rw [dif_pos h0]
/-- At a middle contraction block. -/
theorem outsAt1_B (c : Dev nD) (t : Fin cfg1.N) (h0 : ¬t.val % 4 = 0) (h1 : ¬t.val % 4 = 3) :
    (outsAt1 V c t).2 = sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (scr1 V c (t.val - 1)) := by
  unfold outsAt1 step1; rw [dif_neg h0, dif_neg h1]
/-- At the last contraction block: both components. -/
theorem outsAt1_C (c : Dev nD) (t : Fin cfg1.N) (h0 : ¬t.val % 4 = 0) (h1 : t.val % 4 = 3) :
    outsAt1 V c t = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (scr1 V c (t.val - 1)),
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (scr1 V c (t.val - 1))) := by
  unfold outsAt1 step1; rw [dif_neg h0, dif_pos h1]

/-- The call's invariant before position `n`: before the first point what the launch hands the call; afterwards the scratch
    buffer at exactly what the position before left, the other calls' scoped buffers unopened, the generator register. -/
def PhiS1 (c : Dev nD) : ℕ → sProp 𝕄
  | 0 => Pipeline.ΦA spec1 c
  | n + 1 => iprop(iprop(owns (c : Thread nD τ) scM1 fullShare (scr1 V c n) ∗ Rest1 c) ∗ (∃ r, prngReg c r))

theorem PhiS1_zero (c : Dev nD) (n : ℕ) (hz : n = 0) : PhiS1 V c n = Pipeline.ΦA spec1 c := by
  subst hz; rfl
theorem PhiS1_succ (c : Dev nD) (n : ℕ) :
    PhiS1 V c (n + 1) = iprop(iprop(owns (c : Thread nD τ) scM1 fullShare (scr1 V c n) ∗ Rest1 c) ∗ (∃ r, prngReg c r)) := rfl
theorem PhiS1_pos (c : Dev nD) (n : ℕ) (hz : n ≠ 0) :
    PhiS1 V c n = iprop(iprop(owns (c : Thread nD τ) scM1 fullShare (scr1 V c (n - 1)) ∗ Rest1 c) ∗ (∃ r, prngReg c r)) := by
  cases n with
  | zero => exact absurd rfl hz
  | succ n => rfl

/-- The call's proof data: the arrays as the call finds them; after the body each input's buffer at its block and the
    output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
  Φ t := PhiS1 V c t.val
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
/-- The body at any point. The residue of the position mod 4 says which case runs; the invariant hands the body the scratch
    buffer at what the point before left (at anything before the first point, and at a first contraction block the named
    contents are simply forgotten) and takes it back at this point's contents; the other calls' scoped buffers, the
    generator register and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) from rfl, PhiS1_succ, scr1_val V c t]
  rw [leaves1_0, leaves1_1, leaves1_2, leaves1_3]
  have hN : t.val < 64 := lt_of_lt_of_eq t.isLt (show cfg1.N = 64 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The body's obligation at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 from rfl, PhiS1_zero V c 0 rfl]
  try exact Idealize.SL.BI.Entails.refl _

/-- After the last point the invariant gives it back: the scratch buffer's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val from rfl, PhiS1_pos V c _ ht, PhiA1_eq]
  iintro ⟨⟨HS, HR⟩, Hg⟩
  isplitl [HS HR]
  · isplitl [HS]
    · iexists _; iexact HS
    iexact HR
  iexact Hg

end

end Cert.Kernel.Hand

end
-- ==== Proof.Kernel2Base.lean ====
/-
  Projection 2 of the program Kernel: the grid is 4 × 4 × 4 (row block, column block, contraction block), the last axis fastest.
  A grid point adds its contraction block's three products into a running sum kept in a scratch buffer: the first
  contraction block (points ≡ 0 mod 4) first clears the sum, the last (points ≡ 3 mod 4) copies it to the output block.
  This module fixes what the three cases share: the windows' blocks read off the arrays as the call finds them, the two
  branch conditions decided over the grid, where the output window is idle, and the scratch buffer as an owned memref.
-/
import proofs.«111175_j26250840113720_2_alg».proof.Proof.Gen.Kernel.Launch
import proofs.«111175_j26250840113720_2_alg».proof.Proof.Gen.Kernel.Skeleton
import proofs.«111175_j26250840113720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point: it is fetched at every point and the body leaves it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
end

/-- The first branch's condition: the contraction coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The second branch's condition: the contraction coordinate is 3, the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last contraction block the output window is idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last contraction block the body stores into it. -/
theorem liveAt2_4 : ∀ t : Fin cfg2.N, cond2_1 (grid2.coords t) → cfg2.idle 4 (grid2.coords t) = false := by decide +kernel

/-- A staging buffer of the output window and the scratch buffer, as views their contents are stated through. -/
abbrev VO2 : View sig .tc .vmem S2048x1024 .f32 := (Memref.whole cc2_stg4_0 : Memref sig .tc .vmem S2048x1024 .f32).view
abbrev scM2 : Memref sig .tc .vmem S2048x1024 .f32 := Memref.whole cc2_scratch0
abbrev VS2 : View sig .tc .vmem S2048x1024 .f32 := scM2.view

/-- The windows' current staging memrefs at a point, as the pipeline passes them, and their wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)

/-- The scoped buffers that are neither this call's staging buffers nor its scratch buffer (the other calls'), unopened. -/
abbrev Rest2 (c : Dev nD) : sProp 𝕄 :=
  Pipeline.scopedRestBut (Ix := Unit) (Name := ℕ) (U := UR sig nD τ) (Lvl := ℕ) (Val := Elt F) spec2 c [cc2_scratch0]

/-- The call's scoped rest is its scratch buffer owned at some contents beside the other calls' scoped buffers, and
    the generator register. -/
theorem PhiA2_eq (c : Dev nD) :
    (Pipeline.ΦA spec2 c : sProp 𝕄)
      = iprop(iprop((∃ d, owns (c : Thread nD τ) scM2 fullShare d) ∗ Rest2 c) ∗ (∃ r, prngReg c r)) := by
  unfold Pipeline.ΦA
  rw [Pipeline.scopedRest_split_of_list spec2 c [cc2_scratch0] (by decide) (by decide)]
  simp only [scM2, owns_whole]
  rfl

end Cert.Kernel.Hand

end
-- ==== Proof.Kernel2RunA.lean ====
/-
  Projection 2 of the program Kernel, the case of the FIRST contraction block (the running sum is cleared, then the block's products are added; nothing is stored to the output).
  The body is run symbolically on whole staging memrefs; the pieces the scratch buffer (and, at the last contraction block,
  the output buffer) ends with are found by that run.
-/
import proofs.«111175_j26250840113720_2_alg».proof.Proof.Kernel2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First contraction block: from the inputs' blocks, the output buffer handed back untouched, the scratch buffer at anything,
    the body runs and leaves the scratch buffer with the found pieces written. -/
noncomputable def kernelRun2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i)
    (x0 : Vec F S2048x1024 .bf16) (x1 : Vec F S2048x1024 .bf16) (x2 : Vec F S1024x1024 .bf16) (x3 : Vec F S1024x1024 .bf16) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__matmul_hilo_kernel i arg3 harg3 arg4 harg4 arg5 harg5 arg6 harg6 arg7 harg7 arg8 harg8) K } := by
  refine ⟨?_, fun xi4 E K => ?run⟩
  case run =>
    simp only [cc2__matmul_hilo_kernel_eq_skeleton]; unfold cc2__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.Kernel2RunB.lean ====
/-
  Projection 2 of the program Kernel, the case of a MIDDLE contraction block (the block's products are added to the running sum the point before left; nothing is stored to the output).
  The body is run symbolically on whole staging memrefs; the pieces the scratch buffer (and, at the last contraction block,
  the output buffer) ends with are found by that run.
-/
import proofs.«111175_j26250840113720_2_alg».proof.Proof.Kernel2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle contraction block: from the inputs' blocks, the output buffer handed back untouched, the scratch buffer at what
    the point before left (`xs`), the body runs and leaves the scratch buffer with the found pieces written. -/
noncomputable def kernelRun2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i)
    (x0 : Vec F S2048x1024 .bf16) (x1 : Vec F S2048x1024 .bf16) (x2 : Vec F S1024x1024 .bf16) (x3 : Vec F S1024x1024 .bf16) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__matmul_hilo_kernel i arg3 harg3 arg4 harg4 arg5 harg5 arg6 harg6 arg7 harg7 arg8 harg8) K } := by
  refine ⟨?_, fun xi4 E K => ?run⟩
  case run =>
    simp only [cc2__matmul_hilo_kernel_eq_skeleton]; unfold cc2__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.Kernel2RunC.lean ====
/-
  Projection 2 of the program Kernel, the case of the LAST contraction block (the block's products are added to the running sum, and the sum is copied to the output block).
  The body is run symbolically on whole staging memrefs; the pieces the scratch buffer (and, at the last contraction block,
  the output buffer) ends with are found by that run.
-/
import proofs.«111175_j26250840113720_2_alg».proof.Proof.Kernel2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last contraction block: from the inputs' blocks, the output buffer at anything, the scratch buffer at what the point
    before left (`xs`), the body runs and leaves the output buffer and the scratch buffer with the found pieces written. -/
noncomputable def kernelRun2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i)
    (x0 : Vec F S2048x1024 .bf16) (x1 : Vec F S2048x1024 .bf16) (x2 : Vec F S1024x1024 .bf16) (x3 : Vec F S1024x1024 .bf16) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__matmul_hilo_kernel i arg3 harg3 arg4 harg4 arg5 harg5 arg6 harg6 arg7 harg7 arg8 harg8) K } := by
  refine ⟨?_, ?_, fun E K => ?run⟩
  case run =>
    simp only [cc2__matmul_hilo_kernel_eq_skeleton]; unfold cc2__matmul_hilo_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.Kernel2Frame.lean ====
/-
  Projection 2 of the program Kernel: what the scratch buffer and the output buffer hold after each grid point, the call's
  proof data, and the body's obligation at every point.
  After a point of the first contraction block the scratch buffer holds that case's pieces; after any other point the
  pieces of its case over what the point before left; at a point of the last contraction block the output buffer holds
  the copy of the running sum. Between points the call's invariant keeps the scratch buffer at exactly that.
-/
import proofs.«111175_j26250840113720_2_alg».proof.Proof.Kernel2RunA
import proofs.«111175_j26250840113720_2_alg».proof.Proof.Kernel2RunB
import proofs.«111175_j26250840113720_2_alg».proof.Proof.Kernel2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first case's pieces tile the scratch buffer. -/
theorem scover2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i) (x0 : Vec F S2048x1024 .bf16) (x1 : Vec F S2048x1024 .bf16) (x2 : Vec F S1024x1024 .bf16) (x3 : Vec F S1024x1024 .bf16) (y : S2048x1024.Idx) :
    ∃ pc ∈ (kernelRun2_A c i arg3 harg3 arg4 harg4 arg5 harg5 arg6 harg6 arg7 harg7 arg8 harg8 hc0 hc1 x0 x1 x2 x3).1, y ∈ pc.1.set :=
  View.cover_of_tiledL (kernelRun2_A c i arg3 harg3 arg4 harg4 arg5 harg5 arg6 harg6 arg7 harg7 arg8 harg8 hc0 hc1 x0 x1 x2 x3).1 S2048x1024.size (by sl_kernel_rfl) y
/-- What the first case leaves in the scratch buffer. -/
def sout2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i) (x0 : Vec F S2048x1024 .bf16) (x1 : Vec F S2048x1024 .bf16) (x2 : Vec F S1024x1024 .bf16) (x3 : Vec F S1024x1024 .bf16) : Vec F S2048x1024 .f32 :=
  VS2.read (Elt F) (VS2.writes (Elt F) VS2.junk (kernelRun2_A c i arg3 harg3 arg4 harg4 arg5 harg5 arg6 harg6 arg7 harg7 arg8 harg8 hc0 hc1 x0 x1 x2 x3).1)

theorem scover2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun2_B c i arg3 harg3 arg4 harg4 arg5 harg5 arg6 harg6 arg7 harg7 arg8 harg8 hc0 hc1 x0 x1 x2 x3 xs).1, y ∈ pc.1.set :=
  View.cover_of_tiledL (kernelRun2_B c i arg3 harg3 arg4 harg4 arg5 harg5 arg6 harg6 arg7 harg7 arg8 harg8 hc0 hc1 x0 x1 x2 x3 xs).1 S2048x1024.size (by sl_kernel_rfl) y
/-- What a middle case leaves in the scratch buffer. -/
def sout2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS2.read (Elt F) (VS2.writes (Elt F) VS2.junk (kernelRun2_B c i arg3 harg3 arg4 harg4 arg5 harg5 arg6 harg6 arg7 harg7 arg8 harg8 hc0 hc1 x0 x1 x2 x3 xs).1)

theorem cover2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S2048x1024.size (by sl_kernel_rfl) y
/-- What the last case leaves in the output buffer. -/
def out2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VO2.read (Elt F) (VO2.writes (Elt F) VO2.junk (kernelRun2_C c i arg3 harg3 arg4 harg4 arg5 harg5 arg6 harg6 arg7 harg7 arg8 harg8 hc0 hc1 x0 x1 x2 x3 xs).1)
theorem scover2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S2048x1024.size (by sl_kernel_rfl) y
/-- What the last case leaves in the scratch buffer. -/
def sout2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)

section
variable (V : (c : Dev nD) → (b : Ref sig .tc) → Buf (Elt F) ((c : Thread nD τ).loc b))

/-- A value standing for the output buffer where the body does not store into it (never consulted: the window is idle there). -/
def idleOut2 : Vec F S2048x1024 .f32 := VO2.read (Elt F) VO2.junk

/-- What (the output buffer, the scratch buffer) hold after the body at point `t`, given what the scratch buffer held
    before it: the case the point's residue mod 4 selects, run on the point's blocks. -/
def step2 (c : Dev nD) (t : Fin cfg2.N) (prev : Vec F S2048x1024 .f32) : Vec F S2048x1024 .f32 × Vec F S2048x1024 .f32 :=
  if h0 : t.val % 4 = 0 then
    (idleOut2, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => by have h' := (hcond2_1 t).mp h; omega) (iblk2 V c 0 t) (iblk2 V c 1 t) (iblk2 V c 2 t) (iblk2 V c 3 t))
  else if h1 : t.val % 4 = 3 then
    (out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) prev,
     sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) prev)
  else
    (idleOut2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) prev)

/-- The grid point at position `n` (positions past the grid wrap; only positions on the grid are consulted). -/
def pt2 (n : ℕ) : Fin cfg2.N := ⟨n % 64, lt_of_lt_of_eq (Nat.mod_lt _ (by decide)) N_2.symm⟩
theorem pt2_val (t : Fin cfg2.N) : pt2 t.val = t :=
  Fin.ext (Nat.mod_eq_of_lt (lt_of_lt_of_eq t.isLt N_2))

/-- What the scratch buffer holds after the body at position `n`: by recursion on the position. -/
def scr2 (c : Dev nD) : ℕ → Vec F S2048x1024 .f32
  | 0 => (step2 V c (pt2 0) idleOut2).2
  | n + 1 => (step2 V c (pt2 (n + 1)) (scr2 c n)).2

/-- What (the output buffer, the scratch buffer) hold after the body at point `t`. -/
def outsAt2 (c : Dev nD) (t : Fin cfg2.N) : Vec F S2048x1024 .f32 × Vec F S2048x1024 .f32 :=
  step2 V c t (scr2 V c (t.val - 1))

/-- The scratch buffer after point `t` is the second component. -/
theorem scr2_val (c : Dev nD) (t : Fin cfg2.N) : scr2 V c t.val = (outsAt2 V c t).2 := by
  obtain ⟨n, hn⟩ := t
  cases n with
  | zero =>
    show (step2 V c (pt2 0) idleOut2).2 = (step2 V c ⟨0, hn⟩ (scr2 V c (0 - 1))).2
    rw [show pt2 0 = (⟨0, hn⟩ : Fin cfg2.N) from pt2_val ⟨0, hn⟩]
    unfold step2; rw [dif_pos (show (⟨0, hn⟩ : Fin cfg2.N).val % 4 = 0 from rfl), dif_pos (show (⟨0, hn⟩ : Fin cfg2.N).val % 4 = 0 from rfl)]
  | succ n =>
    show (step2 V c (pt2 (n + 1)) (scr2 V c n)).2 = (step2 V c ⟨n + 1, hn⟩ (scr2 V c (n + 1 - 1))).2
    rw [show pt2 (n + 1) = (⟨n + 1, hn⟩ : Fin cfg2.N) from pt2_val ⟨n + 1, hn⟩, Nat.add_sub_cancel]

/-- The scratch component at a point of the first contraction block. -/
theorem outsAt2_A (c : Dev nD) (t : Fin cfg2.N) (h0 : t.val % 4 = 0) (h1 : ¬t.val % 4 = 3) :
    (outsAt2 V c t).2 = sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t) := by
  unfold outsAt2 step2; rw [dif_pos h0]
/-- At a middle contraction block. -/
theorem outsAt2_B (c : Dev nD) (t : Fin cfg2.N) (h0 : ¬t.val % 4 = 0) (h1 : ¬t.val % 4 = 3) :
    (outsAt2 V c t).2 = sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (scr2 V c (t.val - 1)) := by
  unfold outsAt2 step2; rw [dif_neg h0, dif_neg h1]
/-- At the last contraction block: both components. -/
theorem outsAt2_C (c : Dev nD) (t : Fin cfg2.N) (h0 : ¬t.val % 4 = 0) (h1 : t.val % 4 = 3) :
    outsAt2 V c t = (out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (scr2 V c (t.val - 1)),
      sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (scr2 V c (t.val - 1))) := by
  unfold outsAt2 step2; rw [dif_neg h0, dif_pos h1]

/-- The call's invariant before position `n`: before the first point what the launch hands the call; afterwards the scratch
    buffer at exactly what the position before left, the other calls' scoped buffers unopened, the generator register. -/
def PhiS2 (c : Dev nD) : ℕ → sProp 𝕄
  | 0 => Pipeline.ΦA spec2 c
  | n + 1 => iprop(iprop(owns (c : Thread nD τ) scM2 fullShare (scr2 V c n) ∗ Rest2 c) ∗ (∃ r, prngReg c r))

theorem PhiS2_zero (c : Dev nD) (n : ℕ) (hz : n = 0) : PhiS2 V c n = Pipeline.ΦA spec2 c := by
  subst hz; rfl
theorem PhiS2_succ (c : Dev nD) (n : ℕ) :
    PhiS2 V c (n + 1) = iprop(iprop(owns (c : Thread nD τ) scM2 fullShare (scr2 V c n) ∗ Rest2 c) ∗ (∃ r, prngReg c r)) := rfl
theorem PhiS2_pos (c : Dev nD) (n : ℕ) (hz : n ≠ 0) :
    PhiS2 V c n = iprop(iprop(owns (c : Thread nD τ) scM2 fullShare (scr2 V c (n - 1)) ∗ Rest2 c) ∗ (∃ r, prngReg c r)) := by
  cases n with
  | zero => exact absurd rfl hz
  | succ n => rfl

/-- The call's proof data: the arrays as the call finds them; after the body each input's buffer at its block and the
    output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t).1
  Φ t := PhiS2 V c t.val
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]

set_option maxHeartbeats 4800000 in
/-- The body at any point. The residue of the position mod 4 says which case runs; the invariant hands the body the scratch
    buffer at what the point before left (at anything before the first point, and at a first contraction block the named
    contents are simply forgotten) and takes it back at this point's contents; the other calls' scoped buffers, the
    generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) from rfl, PhiS2_succ, scr2_val V c t]
  rw [leaves2_0, leaves2_1, leaves2_2, leaves2_3]
  have hN : t.val < 64 := lt_of_lt_of_eq t.isLt (show cfg2.N = 64 from N_2)
  by_cases h0 : t.val % 4 = 0
  · have h1 : ¬t.val % 4 = 3 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A; (try dsimp only)
    by_cases hz : t.val = 0
    · rw [PhiS2_castSucc V c t, PhiS2_zero V c _ hz, PhiA2_eq]
      iintro ⟨⟨⟨HS, HR⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C sout2_C; (try dsimp only)
      rw [PhiS2_castSucc V c t, PhiS2_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C c _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      rw [PhiS2_castSucc V c t, PhiS2_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The body's obligation at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 from rfl, PhiS2_zero V c 0 rfl]
  try exact Idealize.SL.BI.Entails.refl _

/-- After the last point the invariant gives it back: the scratch buffer's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val from rfl, PhiS2_pos V c _ ht, PhiA2_eq]
  iintro ⟨⟨HS, HR⟩, Hg⟩
  isplitl [HS HR]
  · isplitl [HS]
    · iexists _; iexact HS
    iexact HR
  iexact Hg

end

end Cert.Kernel.Hand

end
-- ==== Proof.KernelMain.lean ====
/-
  The program Kernel from launch to return: its host operations, its three projection calls and its three final reshapes,
  as five segments run in order. The buffer contents at each boundary are named (`W1` … `W5`): the launch memory, then
  the host operations' results, then after each call its arrays at what its write-backs leave, then the final reshapes'
  results. Every weakly fair execution terminates with every unscoped buffer at `W5`.
-/
import proofs.«111175_j26250840113720_2_alg».proof.Proof.Kernel0Frame
import proofs.«111175_j26250840113720_2_alg».proof.Proof.Kernel1Frame
import proofs.«111175_j26250840113720_2_alg».proof.Proof.Kernel2Frame
import proofs.«111175_j26250840113720_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first call: the launch memory after the host operations. -/
abbrev W1 : Dev nD → Valuation τ sig (Elt F) := fun c => V1 m c
abbrev Vr1 : (c : Dev nD) → (b : Ref sig .tc) → Buf (Elt F) ((c : Thread nD τ).loc b) := fun c b => W1 m c b

/-- After call 0: its arrays at what its write-backs leave, every other buffer as before it. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After call 1: its arrays at what its write-backs leave, every other buffer as before it. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

/-- After call 2: its arrays at what its write-backs leave, every other buffer as before it. -/
def W4 (c : Dev nD) : Valuation τ sig (Elt F) :=
  Pipeline.withArrays spec2 c (W3 m c) fun w => (dat2 (Vr3 m) c).arrAt w cfg2.N
theorem W4_arr (c : Dev nD) (w : Fin cfg2.W) :
    W4 m c (Proc.devRef .tc (Pipeline.arrRef spec2 w)) = (dat2 (Vr3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev Vr4 : (c : Dev nD) → (b : Ref sig .tc) → Buf (Elt F) ((c : Thread nD τ).loc b) := fun c b => W4 m c b
theorem hF2 (c : Dev nD) (w : Fin cfg2.W) : (dat2 (Vr3 m) c).arrAt w cfg2.N = Vr4 m c (Pipeline.arrRef spec2 w) :=
  (W4_arr m c w).symm
theorem hrest2 (c : Dev nD) : ∀ b, b ∉ Finset.univ.image (Pipeline.arrRef spec2) → Vr4 m c b = Vr3 m c b :=
  fun b hb => W4_of_ne m c b fun w e => hb (Finset.mem_image.mpr ⟨w, Finset.mem_univ _, e⟩)

/-- At the return: after the three final reshapes. -/
abbrev W5 : Dev nD → Valuation τ sig (Elt F) := fun c => StableHlo.after hostOps3 (W4 m c)

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
  | ⟨2, _⟩ => fun c => dat2 (Vr3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the pinned configuration of a call is found by unfolding plain definitions in a metavariable's type
set_option backward.isDefEq.respectTransparency.types false in
/-- Call 0 as a segment of @main: entered with every unscoped buffer at the contents before it, left with the call's arrays
    at what the pipeline's write-backs leave and every other buffer as entered. Its arrays are split out of the unscoped
    buffers and put back; the generator register and the scoped buffers go into the call's invariant and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration of a call is found by unfolding plain definitions in a metavariable's type
set_option backward.isDefEq.respectTransparency.types false in
/-- Call 1 as a segment of @main: entered with every unscoped buffer at the contents before it, left with the call's arrays
    at what the pipeline's write-backs leave and every other buffer as entered. Its arrays are split out of the unscoped
    buffers and put back; the generator register and the scoped buffers go into the call's invariant and come back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vr2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration of a call is found by unfolding plain definitions in a metavariable's type
set_option backward.isDefEq.respectTransparency.types false in
/-- Call 2 as a segment of @main: entered with every unscoped buffer at the contents before it, left with the call's arrays
    at what the pipeline's write-backs leave and every other buffer as entered. Its arrays are split out of the unscoped
    buffers and put back; the generator register and the scoped buffers go into the call's invariant and come back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (Vr3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (Vr3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr3 m c) (Vr4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments in order. -/
abbrev segs : List (Pipeline.Seg (pcfgs (F := F)) adm (pdats m) () defs₀ 𝒱₀ L lv) :=
  [ .host (hseg hostOps0 hostOps0_sub hostOps0_fresh (V0 m)),
    .region (reg0 m),
    .region (reg1 m),
    .region (reg2 m),
    .host (hseg hostOps3 hostOps3_sub hostOps3_fresh (W4 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and the final
    memory has every unscoped buffer at `W5`; any post that follows from that holds. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W5 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := hQ)

end Cert.Kernel.Hand

end
-- ==== Proof.KernelTail.lean ====
/-
  The end of the program Kernel: what its last stretch of host operations (three reshapes of the calls' outputs back to
  4 × 2048 × 4096) leaves, read off the buffer contents named at the segment boundaries.

  * No host operation and no call writes an argument array, so each argument ends at its launch contents (`W5_keep`,
    and from it the frame claim `frame`).
  * Each result is the reshape of what its call's write-backs leave in the call's output array (`W5_v35` … `W5_v37`):
    entry `(b, s, h)` of a result is entry `(2048 · b + s, h)` of that array (`W5_v35_at` … `W5_v37_at`).
  * The second and third calls find the host operations' results as the first call found them: an input window's array
    is never written back, and a call changes no buffer other than its arrays (`Vr2_in`, `Vr3_in`).
-/
import proofs.«111175_j26250840113720_2_alg».proof.Proof.KernelMain
import Idealize.ShloMosaic.Lib.StableHlo.Run
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- A buffer that no host operation writes and that is no array of any call ends at its launch contents. -/
theorem W5_keep (c : Dev nD) (b : Ref sig .tc) (h0 : b ∉ hostOps0_W) (h3 : b ∉ hostOps3_W)
    (hn0 : ∀ w, Pipeline.arrRef spec0 w ≠ b) (hn1 : ∀ w, Pipeline.arrRef spec1 w ≠ b) (hn2 : ∀ w, Pipeline.arrRef spec2 w ≠ b) :
    W5 m c (Proc.devRef .tc b) = m ((c : Thread nD τ).loc b) :=
  (StableHlo.after_of_writes_sub hostOps3 (W4 m c) hostOps3_writes h3).trans <|
    (W4_of_ne m c b hn2).trans <| (W3_of_ne m c b hn1).trans <| (W2_of_ne m c b hn0).trans <| (V1_of m c b h0).trans rfl

/-- Every weakly fair execution of @main terminates, nothing faulting, with every argument array at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_main m ρ (hQ := fun s h c =>
    ⟨(h c _ (mem_uc main_arg0 (by decide))).trans (W5_keep m c main_arg0 (by decide) (by decide) (by decide) (by decide) (by decide)),
     (h c _ (mem_uc main_arg1 (by decide))).trans (W5_keep m c main_arg1 (by decide) (by decide) (by decide) (by decide) (by decide)),
     (h c _ (mem_uc main_arg2 (by decide))).trans (W5_keep m c main_arg2 (by decide) (by decide) (by decide) (by decide) (by decide)),
     (h c _ (mem_uc main_arg3 (by decide))).trans (W5_keep m c main_arg3 (by decide) (by decide) (by decide) (by decide) (by decide)),
     (h c _ (mem_uc main_arg4 (by decide))).trans (W5_keep m c main_arg4 (by decide) (by decide) (by decide) (by decide) (by decide)),
     (h c _ (mem_uc main_arg5 (by decide))).trans (W5_keep m c main_arg5 (by decide) (by decide) (by decide) (by decide) (by decide)),
     (h c _ (mem_uc main_arg6 (by decide))).trans (W5_keep m c main_arg6 (by decide) (by decide) (by decide) (by decide) (by decide)),
     (h c _ (mem_uc main_arg7 (by decide))).trans (W5_keep m c main_arg7 (by decide) (by decide) (by decide) (by decide) (by decide)),
     (h c _ (mem_uc main_arg8 (by decide))).trans (W5_keep m c main_arg8 (by decide) (by decide) (by decide) (by decide) (by decide)),
     (h c _ (mem_uc main_arg9 (by decide))).trans (W5_keep m c main_arg9 (by decide) (by decide) (by decide) (by decide) (by decide))⟩)

/-! ## The three results -/

/-- What the first call leaves in its output array is still there when the final reshapes run. -/
theorem W4_v32 (c : Dev nD) : W4 m c (Proc.devRef .tc main_v32) = (dat0 (Vr1 m) c).arrAt 4 cfg0.N :=
  (W4_of_ne m c main_v32 (by decide)).trans ((W3_of_ne m c main_v32 (by decide)).trans (W2_arr m c 4))
/-- What the second call leaves in its output array is still there when the final reshapes run. -/
theorem W4_v33 (c : Dev nD) : W4 m c (Proc.devRef .tc main_v33) = (dat1 (Vr2 m) c).arrAt 4 cfg1.N :=
  (W4_of_ne m c main_v33 (by decide)).trans (W3_arr m c 4)
/-- What the third call leaves in its output array. -/
theorem W4_v34 (c : Dev nD) : W4 m c (Proc.devRef .tc main_v34) = (dat2 (Vr3 m) c).arrAt 4 cfg2.N :=
  W4_arr m c 4

/-- The first result is the reshape of the first call's output array. -/
theorem W5_v35 (c : Dev nD) :
    W5 m c (Proc.devRef .tc main_v35)
      = shapeCast S4x2048x4096 ((dat0 (Vr1 m) c).arrAt 4 cfg0.N : S8192x4096.Idx → Elt F .f32) shapeCasts_S8192x4096_S4x2048x4096 := by
  rw [← W4_v32 m c]
  show StableHlo.after hostOps3 (W4 m c) (Proc.devRef .tc main_v35) = _
  after_results
  rfl
/-- The second result is the reshape of the second call's output array. -/
theorem W5_v36 (c : Dev nD) :
    W5 m c (Proc.devRef .tc main_v36)
      = shapeCast S4x2048x4096 ((dat1 (Vr2 m) c).arrAt 4 cfg1.N : S8192x4096.Idx → Elt F .f32) shapeCasts_S8192x4096_S4x2048x4096 := by
  rw [← W4_v33 m c]
  show StableHlo.after hostOps3 (W4 m c) (Proc.devRef .tc main_v36) = _
  after_results
  rfl
/-- The third result is the reshape of the third call's output array. -/
theorem W5_v37 (c : Dev nD) :
    W5 m c (Proc.devRef .tc main_v37)
      = shapeCast S4x2048x4096 ((dat2 (Vr3 m) c).arrAt 4 cfg2.N : S8192x4096.Idx → Elt F .f32) shapeCasts_S8192x4096_S4x2048x4096 := by
  rw [← W4_v34 m c]
  show StableHlo.after hostOps3 (W4 m c) (Proc.devRef .tc main_v37) = _
  after_results
  rfl

/-- Entry `(b, s, h)` of a 4 × 2048 × 4096 reshape of an 8192 × 4096 array is the array's entry `(2048 · b + s, h)`. -/
theorem unflat_apply {α : Type} (x : S8192x4096.Idx → α) (b : Fin 4) (s : Fin 2048) (h : Fin 4096) :
    shapeCast S4x2048x4096 x shapeCasts_S8192x4096_S4x2048x4096 (ix3 b s h)
      = x (ix2 (⟨2048 * b.val + s.val, by omega⟩ : Fin 8192) h) := by
  refine shapeCast_apply x shapeCasts_S8192x4096_S4x2048x4096 (ix3 b s h) _ ?_
  rw [Shape.rowMajor_val_two, Shape.rowMajor_val_three]
  show (2048 * b.val + s.val) * 4096 + h.val = (b.val * 2048 + s.val) * 4096 + h.val
  omega

theorem W5_v35_at (c : Dev nD) (b : Fin 4) (s : Fin 2048) (h : Fin 4096) :
    (W5 m c (Proc.devRef .tc main_v35) : S4x2048x4096.Idx → Elt F .f32) (ix3 b s h)
      = ((dat0 (Vr1 m) c).arrAt 4 cfg0.N : S8192x4096.Idx → Elt F .f32) (ix2 (⟨2048 * b.val + s.val, by omega⟩ : Fin 8192) h) :=
  (congrFun (W5_v35 m c) (ix3 b s h)).trans (unflat_apply _ b s h)
theorem W5_v36_at (c : Dev nD) (b : Fin 4) (s : Fin 2048) (h : Fin 4096) :
    (W5 m c (Proc.devRef .tc main_v36) : S4x2048x4096.Idx → Elt F .f32) (ix3 b s h)
      = ((dat1 (Vr2 m) c).arrAt 4 cfg1.N : S8192x4096.Idx → Elt F .f32) (ix2 (⟨2048 * b.val + s.val, by omega⟩ : Fin 8192) h) :=
  (congrFun (W5_v36 m c) (ix3 b s h)).trans (unflat_apply _ b s h)
theorem W5_v37_at (c : Dev nD) (b : Fin 4) (s : Fin 2048) (h : Fin 4096) :
    (W5 m c (Proc.devRef .tc main_v37) : S4x2048x4096.Idx → Elt F .f32) (ix3 b s h)
      = ((dat2 (Vr3 m) c).arrAt 4 cfg2.N : S8192x4096.Idx → Elt F .f32) (ix2 (⟨2048 * b.val + s.val, by omega⟩ : Fin 8192) h) :=
  (congrFun (W5_v37 m c) (ix3 b s h)).trans (unflat_apply _ b s h)

/-! ## The later calls find the host results unchanged -/

/-- The second call finds each of its input arrays as the host operations left it. -/
theorem Vr2_in (c : Dev nD) (w : Fin 5) (hw : w ≠ 4) : Vr2 m c (Pipeline.arrRef spec1 w) = Vr1 m c (Pipeline.arrRef spec1 w) :=
  match w, hw with
  | ⟨0, _⟩, _ => (W2_arr m c 0).trans (((dat0 (Vr1 m) c).arrAt_in 0 rfl _).trans (A_eq0 (Vr1 m) c 0))
  | ⟨1, _⟩, _ => (W2_arr m c 1).trans (((dat0 (Vr1 m) c).arrAt_in 1 rfl _).trans (A_eq0 (Vr1 m) c 1))
  | ⟨2, _⟩, _ => W2_of_ne m c main_v24 (by decide)
  | ⟨3, _⟩, _ => W2_of_ne m c main_v27 (by decide)
  | ⟨4, _⟩, hw => absurd rfl hw

/-- The third call finds each of its input arrays as the host operations left it. -/
theorem Vr3_in (c : Dev nD) (w : Fin 5) (hw : w ≠ 4) : Vr3 m c (Pipeline.arrRef spec2 w) = Vr1 m c (Pipeline.arrRef spec2 w) :=
  match w, hw with
  | ⟨0, _⟩, _ => (W3_arr m c 0).trans (((dat1 (Vr2 m) c).arrAt_in 0 rfl _).trans ((A_eq1 (Vr2 m) c 0).trans (Vr2_in m c 0 (by decide))))
  | ⟨1, _⟩, _ => (W3_arr m c 1).trans (((dat1 (Vr2 m) c).arrAt_in 1 rfl _).trans ((A_eq1 (Vr2 m) c 1).trans (Vr2_in m c 1 (by decide))))
  | ⟨2, _⟩, _ => (W3_of_ne m c main_v28 (by decide)).trans (W2_of_ne m c main_v28 (by decide))
  | ⟨3, _⟩, _ => (W3_of_ne m c main_v31 (by decide)).trans (W2_of_ne m c main_v31 (by decide))
  | ⟨4, _⟩, hw => absurd rfl hw

end Cert.Kernel.Hand

end
-- ==== Proof.KernelIdeal0Base.lean ====
/-
  Projection 0 of the program KernelIdeal: the grid is 4 × 4 × 4 (row block, column block, contraction block), the last axis fastest.
  A grid point adds its contraction block's three products into a running sum kept in a scratch buffer: the first
  contraction block (points ≡ 0 mod 4) first clears the sum, the last (points ≡ 3 mod 4) copies it to the output block.
  This module fixes what the three cases share: the windows' blocks read off the arrays as the call finds them, the two
  branch conditions decided over the grid, where the output window is idle, and the scratch buffer as an owned memref.
-/
import proofs.«111175_j26250840113720_2_alg».proof.Proof.Gen.KernelIdeal.Launch
import proofs.«111175_j26250840113720_2_alg».proof.Proof.Gen.KernelIdeal.Skeleton
import proofs.«111175_j26250840113720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point: it is fetched at every point and the body leaves it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
end

/-- The first branch's condition: the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch's condition: the contraction coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last contraction block the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last contraction block the body stores into it. -/
theorem liveAt0_4 : ∀ t : Fin cfg0.N, cond0_1 (grid0.coords t) → cfg0.idle 4 (grid0.coords t) = false := by decide +kernel

/-- A staging buffer of the output window and the scratch buffer, as views their contents are stated through. -/
abbrev VO0 : View sig .tc .vmem S2048x1024 .f32 := (Memref.whole cc0_stg4_0 : Memref sig .tc .vmem S2048x1024 .f32).view
abbrev scM0 : Memref sig .tc .vmem S2048x1024 .f32 := Memref.whole cc0_scratch0
abbrev VS0 : View sig .tc .vmem S2048x1024 .f32 := scM0.view

/-- The windows' current staging memrefs at a point, as the pipeline passes them, and their wholeness. -/
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .f32 := win0_4.stage (cfg0.slots t 4)
abbrev hs0_4 (t : Fin cfg0.N) : (ms0_4 t).IsWhole := hstage0_4 ((cfg0.slots t 4).cast nbuf0_4)

/-- The scoped buffers that are neither this call's staging buffers nor its scratch buffer (the other calls'), unopened. -/
abbrev Rest0 (c : Dev nD) : sProp 𝕄 :=
  Pipeline.scopedRestBut (Ix := Unit) (Name := ℕ) (U := UR sig nD τ) (Lvl := ℕ) (Val := Elt F) spec0 c [cc0_scratch0]

/-- The call's scoped rest is its scratch buffer owned at some contents beside the other calls' scoped buffers, and
    the generator register. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA
  rw [Pipeline.scopedRest_split_of_list spec0 c [cc0_scratch0] (by decide) (by decide)]
  simp only [scM0, owns_whole]
  rfl

end Cert.KernelIdeal.Hand

end
-- ==== Proof.KernelIdeal0RunA.lean ====
/-
  Projection 0 of the program KernelIdeal, the case of the FIRST contraction block (the running sum is cleared, then the block's products are added; nothing is stored to the output).
  The body is run symbolically on whole staging memrefs; the pieces the scratch buffer (and, at the last contraction block,
  the output buffer) ends with are found by that run.
-/
import proofs.«111175_j26250840113720_2_alg».proof.Proof.KernelIdeal0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First contraction block: from the inputs' blocks, the output buffer handed back untouched, the scratch buffer at anything,
    the body runs and leaves the scratch buffer with the found pieces written. -/
noncomputable def kernelRun0_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i)
    (x0 : Vec F S2048x1024 .bf16) (x1 : Vec F S2048x1024 .bf16) (x2 : Vec F S1024x1024 .bf16) (x3 : Vec F S1024x1024 .bf16) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__matmul_hilo_kernel i arg3 harg3 arg4 harg4 arg5 harg5 arg6 harg6 arg7 harg7 arg8 harg8) K } := by
  refine ⟨?_, fun xi4 E K => ?run⟩
  case run =>
    simp only [cc0__matmul_hilo_kernel_eq_skeleton]; unfold cc0__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KernelIdeal0RunB.lean ====
/-
  Projection 0 of the program KernelIdeal, the case of a MIDDLE contraction block (the block's products are added to the running sum the point before left; nothing is stored to the output).
  The body is run symbolically on whole staging memrefs; the pieces the scratch buffer (and, at the last contraction block,
  the output buffer) ends with are found by that run.
-/
import proofs.«111175_j26250840113720_2_alg».proof.Proof.KernelIdeal0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle contraction block: from the inputs' blocks, the output buffer handed back untouched, the scratch buffer at what
    the point before left (`xs`), the body runs and leaves the scratch buffer with the found pieces written. -/
noncomputable def kernelRun0_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i)
    (x0 : Vec F S2048x1024 .bf16) (x1 : Vec F S2048x1024 .bf16) (x2 : Vec F S1024x1024 .bf16) (x3 : Vec F S1024x1024 .bf16) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__matmul_hilo_kernel i arg3 harg3 arg4 harg4 arg5 harg5 arg6 harg6 arg7 harg7 arg8 harg8) K } := by
  refine ⟨?_, fun xi4 E K => ?run⟩
  case run =>
    simp only [cc0__matmul_hilo_kernel_eq_skeleton]; unfold cc0__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KernelIdeal0RunC.lean ====
/-
  Projection 0 of the program KernelIdeal, the case of the LAST contraction block (the block's products are added to the running sum, and the sum is copied to the output block).
  The body is run symbolically on whole staging memrefs; the pieces the scratch buffer (and, at the last contraction block,
  the output buffer) ends with are found by that run.
-/
import proofs.«111175_j26250840113720_2_alg».proof.Proof.KernelIdeal0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last contraction block: from the inputs' blocks, the output buffer at anything, the scratch buffer at what the point
    before left (`xs`), the body runs and leaves the output buffer and the scratch buffer with the found pieces written. -/
noncomputable def kernelRun0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i)
    (x0 : Vec F S2048x1024 .bf16) (x1 : Vec F S2048x1024 .bf16) (x2 : Vec F S1024x1024 .bf16) (x3 : Vec F S1024x1024 .bf16) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__matmul_hilo_kernel i arg3 harg3 arg4 harg4 arg5 harg5 arg6 harg6 arg7 harg7 arg8 harg8) K } := by
  refine ⟨?_, ?_, fun E K => ?run⟩
  case run =>
    simp only [cc0__matmul_hilo_kernel_eq_skeleton]; unfold cc0__matmul_hilo_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.KernelIdeal0Frame.lean ====
/-
  Projection 0 of the program KernelIdeal: what the scratch buffer and the output buffer hold after each grid point, the call's
  proof data, and the body's obligation at every point.
  After a point of the first contraction block the scratch buffer holds that case's pieces; after any other point the
  pieces of its case over what the point before left; at a point of the last contraction block the output buffer holds
  the copy of the running sum. Between points the call's invariant keeps the scratch buffer at exactly that.
-/
import proofs.«111175_j26250840113720_2_alg».proof.Proof.KernelIdeal0RunA
import proofs.«111175_j26250840113720_2_alg».proof.Proof.KernelIdeal0RunB
import proofs.«111175_j26250840113720_2_alg».proof.Proof.KernelIdeal0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first case's pieces tile the scratch buffer. -/
theorem scover0_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i) (x0 : Vec F S2048x1024 .bf16) (x1 : Vec F S2048x1024 .bf16) (x2 : Vec F S1024x1024 .bf16) (x3 : Vec F S1024x1024 .bf16) (y : S2048x1024.Idx) :
    ∃ pc ∈ (kernelRun0_A c i arg3 harg3 arg4 harg4 arg5 harg5 arg6 harg6 arg7 harg7 arg8 harg8 hc0 hc1 x0 x1 x2 x3).1, y ∈ pc.1.set :=
  View.cover_of_tiledL (kernelRun0_A c i arg3 harg3 arg4 harg4 arg5 harg5 arg6 harg6 arg7 harg7 arg8 harg8 hc0 hc1 x0 x1 x2 x3).1 S2048x1024.size (by sl_kernel_rfl) y
/-- What the first case leaves in the scratch buffer. -/
def sout0_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i) (x0 : Vec F S2048x1024 .bf16) (x1 : Vec F S2048x1024 .bf16) (x2 : Vec F S1024x1024 .bf16) (x3 : Vec F S1024x1024 .bf16) : Vec F S2048x1024 .f32 :=
  VS0.read (Elt F) (VS0.writes (Elt F) VS0.junk (kernelRun0_A c i arg3 harg3 arg4 harg4 arg5 harg5 arg6 harg6 arg7 harg7 arg8 harg8 hc0 hc1 x0 x1 x2 x3).1)

theorem scover0_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun0_B c i arg3 harg3 arg4 harg4 arg5 harg5 arg6 harg6 arg7 harg7 arg8 harg8 hc0 hc1 x0 x1 x2 x3 xs).1, y ∈ pc.1.set :=
  View.cover_of_tiledL (kernelRun0_B c i arg3 harg3 arg4 harg4 arg5 harg5 arg6 harg6 arg7 harg7 arg8 harg8 hc0 hc1 x0 x1 x2 x3 xs).1 S2048x1024.size (by sl_kernel_rfl) y
/-- What a middle case leaves in the scratch buffer. -/
def sout0_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS0.read (Elt F) (VS0.writes (Elt F) VS0.junk (kernelRun0_B c i arg3 harg3 arg4 harg4 arg5 harg5 arg6 harg6 arg7 harg7 arg8 harg8 hc0 hc1 x0 x1 x2 x3 xs).1)

theorem cover0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S2048x1024.size (by sl_kernel_rfl) y
/-- What the last case leaves in the output buffer. -/
def out0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VO0.read (Elt F) (VO0.writes (Elt F) VO0.junk (kernelRun0_C c i arg3 harg3 arg4 harg4 arg5 harg5 arg6 harg6 arg7 harg7 arg8 harg8 hc0 hc1 x0 x1 x2 x3 xs).1)
theorem scover0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S2048x1024.size (by sl_kernel_rfl) y
/-- What the last case leaves in the scratch buffer. -/
def sout0_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS0.read (Elt F) (VS0.writes (Elt F) VS0.junk (kernelRun0_C c i arg3 harg3 arg4 harg4 arg5 harg5 arg6 harg6 arg7 harg7 arg8 harg8 hc0 hc1 x0 x1 x2 x3 xs).2.1)

section
variable (V : (c : Dev nD) → (b : Ref sig .tc) → Buf (Elt F) ((c : Thread nD τ).loc b))

/-- A value standing for the output buffer where the body does not store into it (never consulted: the window is idle there). -/
def idleOut0 : Vec F S2048x1024 .f32 := VO0.read (Elt F) VO0.junk

/-- What (the output buffer, the scratch buffer) hold after the body at point `t`, given what the scratch buffer held
    before it: the case the point's residue mod 4 selects, run on the point's blocks. -/
def step0 (c : Dev nD) (t : Fin cfg0.N) (prev : Vec F S2048x1024 .f32) : Vec F S2048x1024 .f32 × Vec F S2048x1024 .f32 :=
  if h0 : t.val % 4 = 0 then
    (idleOut0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => by have h' := (hcond0_1 t).mp h; omega) (iblk0 V c 0 t) (iblk0 V c 1 t) (iblk0 V c 2 t) (iblk0 V c 3 t))
  else if h1 : t.val % 4 = 3 then
    (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) prev,
     sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) prev)
  else
    (idleOut0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) prev)

/-- The grid point at position `n` (positions past the grid wrap; only positions on the grid are consulted). -/
def pt0 (n : ℕ) : Fin cfg0.N := ⟨n % 64, lt_of_lt_of_eq (Nat.mod_lt _ (by decide)) N_0.symm⟩
theorem pt0_val (t : Fin cfg0.N) : pt0 t.val = t :=
  Fin.ext (Nat.mod_eq_of_lt (lt_of_lt_of_eq t.isLt N_0))

/-- What the scratch buffer holds after the body at position `n`: by recursion on the position. -/
def scr0 (c : Dev nD) : ℕ → Vec F S2048x1024 .f32
  | 0 => (step0 V c (pt0 0) idleOut0).2
  | n + 1 => (step0 V c (pt0 (n + 1)) (scr0 c n)).2

/-- What (the output buffer, the scratch buffer) hold after the body at point `t`. -/
def outsAt0 (c : Dev nD) (t : Fin cfg0.N) : Vec F S2048x1024 .f32 × Vec F S2048x1024 .f32 :=
  step0 V c t (scr0 V c (t.val - 1))

/-- The scratch buffer after point `t` is the second component. -/
theorem scr0_val (c : Dev nD) (t : Fin cfg0.N) : scr0 V c t.val = (outsAt0 V c t).2 := by
  obtain ⟨n, hn⟩ := t
  cases n with
  | zero =>
    show (step0 V c (pt0 0) idleOut0).2 = (step0 V c ⟨0, hn⟩ (scr0 V c (0 - 1))).2
    rw [show pt0 0 = (⟨0, hn⟩ : Fin cfg0.N) from pt0_val ⟨0, hn⟩]
    unfold step0; rw [dif_pos (show (⟨0, hn⟩ : Fin cfg0.N).val % 4 = 0 from rfl), dif_pos (show (⟨0, hn⟩ : Fin cfg0.N).val % 4 = 0 from rfl)]
  | succ n =>
    show (step0 V c (pt0 (n + 1)) (scr0 V c n)).2 = (step0 V c ⟨n + 1, hn⟩ (scr0 V c (n + 1 - 1))).2
    rw [show pt0 (n + 1) = (⟨n + 1, hn⟩ : Fin cfg0.N) from pt0_val ⟨n + 1, hn⟩, Nat.add_sub_cancel]

/-- The scratch component at a point of the first contraction block. -/
theorem outsAt0_A (c : Dev nD) (t : Fin cfg0.N) (h0 : t.val % 4 = 0) (h1 : ¬t.val % 4 = 3) :
    (outsAt0 V c t).2 = sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t) := by
  unfold outsAt0 step0; rw [dif_pos h0]
/-- At a middle contraction block. -/
theorem outsAt0_B (c : Dev nD) (t : Fin cfg0.N) (h0 : ¬t.val % 4 = 0) (h1 : ¬t.val % 4 = 3) :
    (outsAt0 V c t).2 = sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (scr0 V c (t.val - 1)) := by
  unfold outsAt0 step0; rw [dif_neg h0, dif_neg h1]
/-- At the last contraction block: both components. -/
theorem outsAt0_C (c : Dev nD) (t : Fin cfg0.N) (h0 : ¬t.val % 4 = 0) (h1 : t.val % 4 = 3) :
    outsAt0 V c t = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (scr0 V c (t.val - 1)),
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (scr0 V c (t.val - 1))) := by
  unfold outsAt0 step0; rw [dif_neg h0, dif_pos h1]

/-- The call's invariant before position `n`: before the first point what the launch hands the call; afterwards the scratch
    buffer at exactly what the position before left, the other calls' scoped buffers unopened, the generator register. -/
def PhiS0 (c : Dev nD) : ℕ → sProp 𝕄
  | 0 => Pipeline.ΦA spec0 c
  | n + 1 => iprop(iprop(owns (c : Thread nD τ) scM0 fullShare (scr0 V c n) ∗ Rest0 c) ∗ (∃ r, prngReg c r))

theorem PhiS0_zero (c : Dev nD) (n : ℕ) (hz : n = 0) : PhiS0 V c n = Pipeline.ΦA spec0 c := by
  subst hz; rfl
theorem PhiS0_succ (c : Dev nD) (n : ℕ) :
    PhiS0 V c (n + 1) = iprop(iprop(owns (c : Thread nD τ) scM0 fullShare (scr0 V c n) ∗ Rest0 c) ∗ (∃ r, prngReg c r)) := rfl
theorem PhiS0_pos (c : Dev nD) (n : ℕ) (hz : n ≠ 0) :
    PhiS0 V c n = iprop(iprop(owns (c : Thread nD τ) scM0 fullShare (scr0 V c (n - 1)) ∗ Rest0 c) ∗ (∃ r, prngReg c r)) := by
  cases n with
  | zero => exact absurd rfl hz
  | succ n => rfl

/-- The call's proof data: the arrays as the call finds them; after the body each input's buffer at its block and the
    output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t).1
  Φ t := PhiS0 V c t.val
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point. The residue of the position mod 4 says which case runs; the invariant hands the body the scratch
    buffer at what the point before left (at anything before the first point, and at a first contraction block the named
    contents are simply forgotten) and takes it back at this point's contents; the other calls' scoped buffers, the
    generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) from rfl, PhiS0_succ, scr0_val V c t]
  rw [leaves0_0, leaves0_1, leaves0_2, leaves0_3]
  have hN : t.val < 64 := lt_of_lt_of_eq t.isLt (show cfg0.N = 64 from N_0)
  by_cases h0 : t.val % 4 = 0
  · have h1 : ¬t.val % 4 = 3 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A; (try dsimp only)
    by_cases hz : t.val = 0
    · rw [PhiS0_castSucc V c t, PhiS0_zero V c _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover0_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The body's obligation at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 from rfl, PhiS0_zero V c 0 rfl]
  try exact Idealize.SL.BI.Entails.refl _

/-- After the last point the invariant gives it back: the scratch buffer's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val from rfl, PhiS0_pos V c _ ht, PhiA0_eq]
  iintro ⟨⟨HS, HR⟩, Hg⟩
  isplitl [HS HR]
  · isplitl [HS]
    · iexists _; iexact HS
    iexact HR
  iexact Hg

end

end Cert.KernelIdeal.Hand

end
-- ==== Proof.KernelIdeal1Base.lean ====
/-
  Projection 1 of the program KernelIdeal: the grid is 4 × 4 × 4 (row block, column block, contraction block), the last axis fastest.
  A grid point adds its contraction block's three products into a running sum kept in a scratch buffer: the first
  contraction block (points ≡ 0 mod 4) first clears the sum, the last (points ≡ 3 mod 4) copies it to the output block.
  This module fixes what the three cases share: the windows' blocks read off the arrays as the call finds them, the two
  branch conditions decided over the grid, where the output window is idle, and the scratch buffer as an owned memref.
-/
import proofs.«111175_j26250840113720_2_alg».proof.Proof.Gen.KernelIdeal.Launch
import proofs.«111175_j26250840113720_2_alg».proof.Proof.Gen.KernelIdeal.Skeleton
import proofs.«111175_j26250840113720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point: it is fetched at every point and the body leaves it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
end

/-- The first branch's condition: the contraction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch's condition: the contraction coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last contraction block the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last contraction block the body stores into it. -/
theorem liveAt1_4 : ∀ t : Fin cfg1.N, cond1_1 (grid1.coords t) → cfg1.idle 4 (grid1.coords t) = false := by decide +kernel

/-- A staging buffer of the output window and the scratch buffer, as views their contents are stated through. -/
abbrev VO1 : View sig .tc .vmem S2048x1024 .f32 := (Memref.whole cc1_stg4_0 : Memref sig .tc .vmem S2048x1024 .f32).view
abbrev scM1 : Memref sig .tc .vmem S2048x1024 .f32 := Memref.whole cc1_scratch0
abbrev VS1 : View sig .tc .vmem S2048x1024 .f32 := scM1.view

/-- The windows' current staging memrefs at a point, as the pipeline passes them, and their wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .f32 := win1_4.stage (cfg1.slots t 4)
abbrev hs1_4 (t : Fin cfg1.N) : (ms1_4 t).IsWhole := hstage1_4 ((cfg1.slots t 4).cast nbuf1_4)

/-- The scoped buffers that are neither this call's staging buffers nor its scratch buffer (the other calls'), unopened. -/
abbrev Rest1 (c : Dev nD) : sProp 𝕄 :=
  Pipeline.scopedRestBut (Ix := Unit) (Name := ℕ) (U := UR sig nD τ) (Lvl := ℕ) (Val := Elt F) spec1 c [cc1_scratch0]

/-- The call's scoped rest is its scratch buffer owned at some contents beside the other calls' scoped buffers, and
    the generator register. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA
  rw [Pipeline.scopedRest_split_of_list spec1 c [cc1_scratch0] (by decide) (by decide)]
  simp only [scM1, owns_whole]
  rfl

end Cert.KernelIdeal.Hand

end
-- ==== Proof.KernelIdeal1RunA.lean ====
/-
  Projection 1 of the program KernelIdeal, the case of the FIRST contraction block (the running sum is cleared, then the block's products are added; nothing is stored to the output).
  The body is run symbolically on whole staging memrefs; the pieces the scratch buffer (and, at the last contraction block,
  the output buffer) ends with are found by that run.
-/
import proofs.«111175_j26250840113720_2_alg».proof.Proof.KernelIdeal1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First contraction block: from the inputs' blocks, the output buffer handed back untouched, the scratch buffer at anything,
    the body runs and leaves the scratch buffer with the found pieces written. -/
noncomputable def kernelRun1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i)
    (x0 : Vec F S2048x1024 .bf16) (x1 : Vec F S2048x1024 .bf16) (x2 : Vec F S1024x1024 .bf16) (x3 : Vec F S1024x1024 .bf16) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_hilo_kernel i arg3 harg3 arg4 harg4 arg5 harg5 arg6 harg6 arg7 harg7 arg8 harg8) K } := by
  refine ⟨?_, fun xi4 E K => ?run⟩
  case run =>
    simp only [cc1__matmul_hilo_kernel_eq_skeleton]; unfold cc1__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KernelIdeal1RunB.lean ====
/-
  Projection 1 of the program KernelIdeal, the case of a MIDDLE contraction block (the block's products are added to the running sum the point before left; nothing is stored to the output).
  The body is run symbolically on whole staging memrefs; the pieces the scratch buffer (and, at the last contraction block,
  the output buffer) ends with are found by that run.
-/
import proofs.«111175_j26250840113720_2_alg».proof.Proof.KernelIdeal1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle contraction block: from the inputs' blocks, the output buffer handed back untouched, the scratch buffer at what
    the point before left (`xs`), the body runs and leaves the scratch buffer with the found pieces written. -/
noncomputable def kernelRun1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i)
    (x0 : Vec F S2048x1024 .bf16) (x1 : Vec F S2048x1024 .bf16) (x2 : Vec F S1024x1024 .bf16) (x3 : Vec F S1024x1024 .bf16) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc1__matmul_hilo_kernel i arg3 harg3 arg4 harg4 arg5 harg5 arg6 harg6 arg7 harg7 arg8 harg8) K } := by
  refine ⟨?_, fun xi4 E K => ?run⟩
  case run =>
    simp only [cc1__matmul_hilo_kernel_eq_skeleton]; unfold cc1__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KernelIdeal1RunC.lean ====
/-
  Projection 1 of the program KernelIdeal, the case of the LAST contraction block (the block's products are added to the running sum, and the sum is copied to the output block).
  The body is run symbolically on whole staging memrefs; the pieces the scratch buffer (and, at the last contraction block,
  the output buffer) ends with are found by that run.
-/
import proofs.«111175_j26250840113720_2_alg».proof.Proof.KernelIdeal1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last contraction block: from the inputs' blocks, the output buffer at anything, the scratch buffer at what the point
    before left (`xs`), the body runs and leaves the output buffer and the scratch buffer with the found pieces written. -/
noncomputable def kernelRun1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i)
    (x0 : Vec F S2048x1024 .bf16) (x1 : Vec F S2048x1024 .bf16) (x2 : Vec F S1024x1024 .bf16) (x3 : Vec F S1024x1024 .bf16) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc1__matmul_hilo_kernel i arg3 harg3 arg4 harg4 arg5 harg5 arg6 harg6 arg7 harg7 arg8 harg8) K } := by
  refine ⟨?_, ?_, fun E K => ?run⟩
  case run =>
    simp only [cc1__matmul_hilo_kernel_eq_skeleton]; unfold cc1__matmul_hilo_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.KernelIdeal1Frame.lean ====
/-
  Projection 1 of the program KernelIdeal: what the scratch buffer and the output buffer hold after each grid point, the call's
  proof data, and the body's obligation at every point.
  After a point of the first contraction block the scratch buffer holds that case's pieces; after any other point the
  pieces of its case over what the point before left; at a point of the last contraction block the output buffer holds
  the copy of the running sum. Between points the call's invariant keeps the scratch buffer at exactly that.
-/
import proofs.«111175_j26250840113720_2_alg».proof.Proof.KernelIdeal1RunA
import proofs.«111175_j26250840113720_2_alg».proof.Proof.KernelIdeal1RunB
import proofs.«111175_j26250840113720_2_alg».proof.Proof.KernelIdeal1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first case's pieces tile the scratch buffer. -/
theorem scover1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i) (x0 : Vec F S2048x1024 .bf16) (x1 : Vec F S2048x1024 .bf16) (x2 : Vec F S1024x1024 .bf16) (x3 : Vec F S1024x1024 .bf16) (y : S2048x1024.Idx) :
    ∃ pc ∈ (kernelRun1_A c i arg3 harg3 arg4 harg4 arg5 harg5 arg6 harg6 arg7 harg7 arg8 harg8 hc0 hc1 x0 x1 x2 x3).1, y ∈ pc.1.set :=
  View.cover_of_tiledL (kernelRun1_A c i arg3 harg3 arg4 harg4 arg5 harg5 arg6 harg6 arg7 harg7 arg8 harg8 hc0 hc1 x0 x1 x2 x3).1 S2048x1024.size (by sl_kernel_rfl) y
/-- What the first case leaves in the scratch buffer. -/
def sout1_A (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i) (x0 : Vec F S2048x1024 .bf16) (x1 : Vec F S2048x1024 .bf16) (x2 : Vec F S1024x1024 .bf16) (x3 : Vec F S1024x1024 .bf16) : Vec F S2048x1024 .f32 :=
  VS1.read (Elt F) (VS1.writes (Elt F) VS1.junk (kernelRun1_A c i arg3 harg3 arg4 harg4 arg5 harg5 arg6 harg6 arg7 harg7 arg8 harg8 hc0 hc1 x0 x1 x2 x3).1)

theorem scover1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun1_B c i arg3 harg3 arg4 harg4 arg5 harg5 arg6 harg6 arg7 harg7 arg8 harg8 hc0 hc1 x0 x1 x2 x3 xs).1, y ∈ pc.1.set :=
  View.cover_of_tiledL (kernelRun1_B c i arg3 harg3 arg4 harg4 arg5 harg5 arg6 harg6 arg7 harg7 arg8 harg8 hc0 hc1 x0 x1 x2 x3 xs).1 S2048x1024.size (by sl_kernel_rfl) y
/-- What a middle case leaves in the scratch buffer. -/
def sout1_B (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS1.read (Elt F) (VS1.writes (Elt F) VS1.junk (kernelRun1_B c i arg3 harg3 arg4 harg4 arg5 harg5 arg6 harg6 arg7 harg7 arg8 harg8 hc0 hc1 x0 x1 x2 x3 xs).1)

theorem cover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S2048x1024.size (by sl_kernel_rfl) y
/-- What the last case leaves in the output buffer. -/
def out1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VO1.read (Elt F) (VO1.writes (Elt F) VO1.junk (kernelRun1_C c i arg3 harg3 arg4 harg4 arg5 harg5 arg6 harg6 arg7 harg7 arg8 harg8 hc0 hc1 x0 x1 x2 x3 xs).1)
theorem scover1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S2048x1024.size (by sl_kernel_rfl) y
/-- What the last case leaves in the scratch buffer. -/
def sout1_C (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)

section
variable (V : (c : Dev nD) → (b : Ref sig .tc) → Buf (Elt F) ((c : Thread nD τ).loc b))

/-- A value standing for the output buffer where the body does not store into it (never consulted: the window is idle there). -/
def idleOut1 : Vec F S2048x1024 .f32 := VO1.read (Elt F) VO1.junk

/-- What (the output buffer, the scratch buffer) hold after the body at point `t`, given what the scratch buffer held
    before it: the case the point's residue mod 4 selects, run on the point's blocks. -/
def step1 (c : Dev nD) (t : Fin cfg1.N) (prev : Vec F S2048x1024 .f32) : Vec F S2048x1024 .f32 × Vec F S2048x1024 .f32 :=
  if h0 : t.val % 4 = 0 then
    (idleOut1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => by have h' := (hcond1_1 t).mp h; omega) (iblk1 V c 0 t) (iblk1 V c 1 t) (iblk1 V c 2 t) (iblk1 V c 3 t))
  else if h1 : t.val % 4 = 3 then
    (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) prev,
     sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) prev)
  else
    (idleOut1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) prev)

/-- The grid point at position `n` (positions past the grid wrap; only positions on the grid are consulted). -/
def pt1 (n : ℕ) : Fin cfg1.N := ⟨n % 64, lt_of_lt_of_eq (Nat.mod_lt _ (by decide)) N_1.symm⟩
theorem pt1_val (t : Fin cfg1.N) : pt1 t.val = t :=
  Fin.ext (Nat.mod_eq_of_lt (lt_of_lt_of_eq t.isLt N_1))

/-- What the scratch buffer holds after the body at position `n`: by recursion on the position. -/
def scr1 (c : Dev nD) : ℕ → Vec F S2048x1024 .f32
  | 0 => (step1 V c (pt1 0) idleOut1).2
  | n + 1 => (step1 V c (pt1 (n + 1)) (scr1 c n)).2

/-- What (the output buffer, the scratch buffer) hold after the body at point `t`. -/
def outsAt1 (c : Dev nD) (t : Fin cfg1.N) : Vec F S2048x1024 .f32 × Vec F S2048x1024 .f32 :=
  step1 V c t (scr1 V c (t.val - 1))

/-- The scratch buffer after point `t` is the second component. -/
theorem scr1_val (c : Dev nD) (t : Fin cfg1.N) : scr1 V c t.val = (outsAt1 V c t).2 := by
  obtain ⟨n, hn⟩ := t
  cases n with
  | zero =>
    show (step1 V c (pt1 0) idleOut1).2 = (step1 V c ⟨0, hn⟩ (scr1 V c (0 - 1))).2
    rw [show pt1 0 = (⟨0, hn⟩ : Fin cfg1.N) from pt1_val ⟨0, hn⟩]
    unfold step1; rw [dif_pos (show (⟨0, hn⟩ : Fin cfg1.N).val % 4 = 0 from rfl), dif_pos (show (⟨0, hn⟩ : Fin cfg1.N).val % 4 = 0 from rfl)]
  | succ n =>
    show (step1 V c (pt1 (n + 1)) (scr1 V c n)).2 = (step1 V c ⟨n + 1, hn⟩ (scr1 V c (n + 1 - 1))).2
    rw [show pt1 (n + 1) = (⟨n + 1, hn⟩ : Fin cfg1.N) from pt1_val ⟨n + 1, hn⟩, Nat.add_sub_cancel]

/-- The scratch component at a point of the first contraction block. -/
theorem outsAt1_A (c : Dev nD) (t : Fin cfg1.N) (h0 : t.val % 4 = 0) (h1 : ¬t.val % 4 = 3) :
    (outsAt1 V c t).2 = sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) := by
  unfold outsAt1 step1; rw [dif_pos h0]
/-- At a middle contraction block. -/
theorem outsAt1_B (c : Dev nD) (t : Fin cfg1.N) (h0 : ¬t.val % 4 = 0) (h1 : ¬t.val % 4 = 3) :
    (outsAt1 V c t).2 = sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (scr1 V c (t.val - 1)) := by
  unfold outsAt1 step1; rw [dif_neg h0, dif_neg h1]
/-- At the last contraction block: both components. -/
theorem outsAt1_C (c : Dev nD) (t : Fin cfg1.N) (h0 : ¬t.val % 4 = 0) (h1 : t.val % 4 = 3) :
    outsAt1 V c t = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (scr1 V c (t.val - 1)),
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (scr1 V c (t.val - 1))) := by
  unfold outsAt1 step1; rw [dif_neg h0, dif_pos h1]

/-- The call's invariant before position `n`: before the first point what the launch hands the call; afterwards the scratch
    buffer at exactly what the position before left, the other calls' scoped buffers unopened, the generator register. -/
def PhiS1 (c : Dev nD) : ℕ → sProp 𝕄
  | 0 => Pipeline.ΦA spec1 c
  | n + 1 => iprop(iprop(owns (c : Thread nD τ) scM1 fullShare (scr1 V c n) ∗ Rest1 c) ∗ (∃ r, prngReg c r))

theorem PhiS1_zero (c : Dev nD) (n : ℕ) (hz : n = 0) : PhiS1 V c n = Pipeline.ΦA spec1 c := by
  subst hz; rfl
theorem PhiS1_succ (c : Dev nD) (n : ℕ) :
    PhiS1 V c (n + 1) = iprop(iprop(owns (c : Thread nD τ) scM1 fullShare (scr1 V c n) ∗ Rest1 c) ∗ (∃ r, prngReg c r)) := rfl
theorem PhiS1_pos (c : Dev nD) (n : ℕ) (hz : n ≠ 0) :
    PhiS1 V c n = iprop(iprop(owns (c : Thread nD τ) scM1 fullShare (scr1 V c (n - 1)) ∗ Rest1 c) ∗ (∃ r, prngReg c r)) := by
  cases n with
  | zero => exact absurd rfl hz
  | succ n => rfl

/-- The call's proof data: the arrays as the call finds them; after the body each input's buffer at its block and the
    output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
  Φ t := PhiS1 V c t.val
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
/-- The body at any point. The residue of the position mod 4 says which case runs; the invariant hands the body the scratch
    buffer at what the point before left (at anything before the first point, and at a first contraction block the named
    contents are simply forgotten) and takes it back at this point's contents; the other calls' scoped buffers, the
    generator register and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) from rfl, PhiS1_succ, scr1_val V c t]
  rw [leaves1_0, leaves1_1, leaves1_2, leaves1_3]
  have hN : t.val < 64 := lt_of_lt_of_eq t.isLt (show cfg1.N = 64 from N_1)
  by_cases h0 : t.val % 4 = 0
  · have h1 : ¬t.val % 4 = 3 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    by_cases hz : t.val = 0
    · rw [PhiS1_castSucc V c t, PhiS1_zero V c _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The body's obligation at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 from rfl, PhiS1_zero V c 0 rfl]
  try exact Idealize.SL.BI.Entails.refl _

/-- After the last point the invariant gives it back: the scratch buffer's named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val from rfl, PhiS1_pos V c _ ht, PhiA1_eq]
  iintro ⟨⟨HS, HR⟩, Hg⟩
  isplitl [HS HR]
  · isplitl [HS]
    · iexists _; iexact HS
    iexact HR
  iexact Hg

end

end Cert.KernelIdeal.Hand

end
-- ==== Proof.KernelIdeal2Base.lean ====
/-
  Projection 2 of the program KernelIdeal: the grid is 4 × 4 × 4 (row block, column block, contraction block), the last axis fastest.
  A grid point adds its contraction block's three products into a running sum kept in a scratch buffer: the first
  contraction block (points ≡ 0 mod 4) first clears the sum, the last (points ≡ 3 mod 4) copies it to the output block.
  This module fixes what the three cases share: the windows' blocks read off the arrays as the call finds them, the two
  branch conditions decided over the grid, where the output window is idle, and the scratch buffer as an owned memref.
-/
import proofs.«111175_j26250840113720_2_alg».proof.Proof.Gen.KernelIdeal.Launch
import proofs.«111175_j26250840113720_2_alg».proof.Proof.Gen.KernelIdeal.Skeleton
import proofs.«111175_j26250840113720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point: it is fetched at every point and the body leaves it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
end

/-- The first branch's condition: the contraction coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The second branch's condition: the contraction coordinate is 3, the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last contraction block the output window is idle and not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last contraction block the body stores into it. -/
theorem liveAt2_4 : ∀ t : Fin cfg2.N, cond2_1 (grid2.coords t) → cfg2.idle 4 (grid2.coords t) = false := by decide +kernel

/-- A staging buffer of the output window and the scratch buffer, as views their contents are stated through. -/
abbrev VO2 : View sig .tc .vmem S2048x1024 .f32 := (Memref.whole cc2_stg4_0 : Memref sig .tc .vmem S2048x1024 .f32).view
abbrev scM2 : Memref sig .tc .vmem S2048x1024 .f32 := Memref.whole cc2_scratch0
abbrev VS2 : View sig .tc .vmem S2048x1024 .f32 := scM2.view

/-- The windows' current staging memrefs at a point, as the pipeline passes them, and their wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)

/-- The scoped buffers that are neither this call's staging buffers nor its scratch buffer (the other calls'), unopened. -/
abbrev Rest2 (c : Dev nD) : sProp 𝕄 :=
  Pipeline.scopedRestBut (Ix := Unit) (Name := ℕ) (U := UR sig nD τ) (Lvl := ℕ) (Val := Elt F) spec2 c [cc2_scratch0]

/-- The call's scoped rest is its scratch buffer owned at some contents beside the other calls' scoped buffers, and
    the generator register. -/
theorem PhiA2_eq (c : Dev nD) :
    (Pipeline.ΦA spec2 c : sProp 𝕄)
      = iprop(iprop((∃ d, owns (c : Thread nD τ) scM2 fullShare d) ∗ Rest2 c) ∗ (∃ r, prngReg c r)) := by
  unfold Pipeline.ΦA
  rw [Pipeline.scopedRest_split_of_list spec2 c [cc2_scratch0] (by decide) (by decide)]
  simp only [scM2, owns_whole]
  rfl

end Cert.KernelIdeal.Hand

end
-- ==== Proof.KernelIdeal2RunA.lean ====
/-
  Projection 2 of the program KernelIdeal, the case of the FIRST contraction block (the running sum is cleared, then the block's products are added; nothing is stored to the output).
  The body is run symbolically on whole staging memrefs; the pieces the scratch buffer (and, at the last contraction block,
  the output buffer) ends with are found by that run.
-/
import proofs.«111175_j26250840113720_2_alg».proof.Proof.KernelIdeal2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First contraction block: from the inputs' blocks, the output buffer handed back untouched, the scratch buffer at anything,
    the body runs and leaves the scratch buffer with the found pieces written. -/
noncomputable def kernelRun2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i)
    (x0 : Vec F S2048x1024 .bf16) (x1 : Vec F S2048x1024 .bf16) (x2 : Vec F S1024x1024 .bf16) (x3 : Vec F S1024x1024 .bf16) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__matmul_hilo_kernel i arg3 harg3 arg4 harg4 arg5 harg5 arg6 harg6 arg7 harg7 arg8 harg8) K } := by
  refine ⟨?_, fun xi4 E K => ?run⟩
  case run =>
    simp only [cc2__matmul_hilo_kernel_eq_skeleton]; unfold cc2__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KernelIdeal2RunB.lean ====
/-
  Projection 2 of the program KernelIdeal, the case of a MIDDLE contraction block (the block's products are added to the running sum the point before left; nothing is stored to the output).
  The body is run symbolically on whole staging memrefs; the pieces the scratch buffer (and, at the last contraction block,
  the output buffer) ends with are found by that run.
-/
import proofs.«111175_j26250840113720_2_alg».proof.Proof.KernelIdeal2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle contraction block: from the inputs' blocks, the output buffer handed back untouched, the scratch buffer at what
    the point before left (`xs`), the body runs and leaves the scratch buffer with the found pieces written. -/
noncomputable def kernelRun2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i)
    (x0 : Vec F S2048x1024 .bf16) (x1 : Vec F S2048x1024 .bf16) (x2 : Vec F S1024x1024 .bf16) (x3 : Vec F S1024x1024 .bf16) (xs : Vec F S2048x1024 .f32) :
    { LS : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc2__matmul_hilo_kernel i arg3 harg3 arg4 harg4 arg5 harg5 arg6 harg6 arg7 harg7 arg8 harg8) K } := by
  refine ⟨?_, fun xi4 E K => ?run⟩
  case run =>
    simp only [cc2__matmul_hilo_kernel_eq_skeleton]; unfold cc2__matmul_hilo_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.KernelIdeal2RunC.lean ====
/-
  Projection 2 of the program KernelIdeal, the case of the LAST contraction block (the block's products are added to the running sum, and the sum is copied to the output block).
  The body is run symbolically on whole staging memrefs; the pieces the scratch buffer (and, at the last contraction block,
  the output buffer) ends with are found by that run.
-/
import proofs.«111175_j26250840113720_2_alg».proof.Proof.KernelIdeal2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last contraction block: from the inputs' blocks, the output buffer at anything, the scratch buffer at what the point
    before left (`xs`), the body runs and leaves the output buffer and the scratch buffer with the found pieces written. -/
noncomputable def kernelRun2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i)
    (x0 : Vec F S2048x1024 .bf16) (x1 : Vec F S2048x1024 .bf16) (x2 : Vec F S1024x1024 .bf16) (x3 : Vec F S1024x1024 .bf16) (xs : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__matmul_hilo_kernel i arg3 harg3 arg4 harg4 arg5 harg5 arg6 harg6 arg7 harg7 arg8 harg8) K } := by
  refine ⟨?_, ?_, fun E K => ?run⟩
  case run =>
    simp only [cc2__matmul_hilo_kernel_eq_skeleton]; unfold cc2__matmul_hilo_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.KernelIdeal2Frame.lean ====
/-
  Projection 2 of the program KernelIdeal: what the scratch buffer and the output buffer hold after each grid point, the call's
  proof data, and the body's obligation at every point.
  After a point of the first contraction block the scratch buffer holds that case's pieces; after any other point the
  pieces of its case over what the point before left; at a point of the last contraction block the output buffer holds
  the copy of the running sum. Between points the call's invariant keeps the scratch buffer at exactly that.
-/
import proofs.«111175_j26250840113720_2_alg».proof.Proof.KernelIdeal2RunA
import proofs.«111175_j26250840113720_2_alg».proof.Proof.KernelIdeal2RunB
import proofs.«111175_j26250840113720_2_alg».proof.Proof.KernelIdeal2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first case's pieces tile the scratch buffer. -/
theorem scover2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i) (x0 : Vec F S2048x1024 .bf16) (x1 : Vec F S2048x1024 .bf16) (x2 : Vec F S1024x1024 .bf16) (x3 : Vec F S1024x1024 .bf16) (y : S2048x1024.Idx) :
    ∃ pc ∈ (kernelRun2_A c i arg3 harg3 arg4 harg4 arg5 harg5 arg6 harg6 arg7 harg7 arg8 harg8 hc0 hc1 x0 x1 x2 x3).1, y ∈ pc.1.set :=
  View.cover_of_tiledL (kernelRun2_A c i arg3 harg3 arg4 harg4 arg5 harg5 arg6 harg6 arg7 harg7 arg8 harg8 hc0 hc1 x0 x1 x2 x3).1 S2048x1024.size (by sl_kernel_rfl) y
/-- What the first case leaves in the scratch buffer. -/
def sout2_A (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i) (x0 : Vec F S2048x1024 .bf16) (x1 : Vec F S2048x1024 .bf16) (x2 : Vec F S1024x1024 .bf16) (x3 : Vec F S1024x1024 .bf16) : Vec F S2048x1024 .f32 :=
  VS2.read (Elt F) (VS2.writes (Elt F) VS2.junk (kernelRun2_A c i arg3 harg3 arg4 harg4 arg5 harg5 arg6 harg6 arg7 harg7 arg8 harg8 hc0 hc1 x0 x1 x2 x3).1)

theorem scover2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun2_B c i arg3 harg3 arg4 harg4 arg5 harg5 arg6 harg6 arg7 harg7 arg8 harg8 hc0 hc1 x0 x1 x2 x3 xs).1, y ∈ pc.1.set :=
  View.cover_of_tiledL (kernelRun2_B c i arg3 harg3 arg4 harg4 arg5 harg5 arg6 harg6 arg7 harg7 arg8 harg8 hc0 hc1 x0 x1 x2 x3 xs).1 S2048x1024.size (by sl_kernel_rfl) y
/-- What a middle case leaves in the scratch buffer. -/
def sout2_B (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS2.read (Elt F) (VS2.writes (Elt F) VS2.junk (kernelRun2_B c i arg3 harg3 arg4 harg4 arg5 harg5 arg6 harg6 arg7 harg7 arg8 harg8 hc0 hc1 x0 x1 x2 x3 xs).1)

theorem cover2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S2048x1024.size (by sl_kernel_rfl) y
/-- What the last case leaves in the output buffer. -/
def out2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VO2.read (Elt F) (VO2.writes (Elt F) VO2.junk (kernelRun2_C c i arg3 harg3 arg4 harg4 arg5 harg5 arg6 harg6 arg7 harg7 arg8 harg8 hc0 hc1 x0 x1 x2 x3 xs).1)
theorem scover2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) (y : S2048x1024.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S2048x1024.size (by sl_kernel_rfl) y
/-- What the last case leaves in the scratch buffer. -/
def sout2_C (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) : Vec F S2048x1024 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)

section
variable (V : (c : Dev nD) → (b : Ref sig .tc) → Buf (Elt F) ((c : Thread nD τ).loc b))

/-- A value standing for the output buffer where the body does not store into it (never consulted: the window is idle there). -/
def idleOut2 : Vec F S2048x1024 .f32 := VO2.read (Elt F) VO2.junk

/-- What (the output buffer, the scratch buffer) hold after the body at point `t`, given what the scratch buffer held
    before it: the case the point's residue mod 4 selects, run on the point's blocks. -/
def step2 (c : Dev nD) (t : Fin cfg2.N) (prev : Vec F S2048x1024 .f32) : Vec F S2048x1024 .f32 × Vec F S2048x1024 .f32 :=
  if h0 : t.val % 4 = 0 then
    (idleOut2, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => by have h' := (hcond2_1 t).mp h; omega) (iblk2 V c 0 t) (iblk2 V c 1 t) (iblk2 V c 2 t) (iblk2 V c 3 t))
  else if h1 : t.val % 4 = 3 then
    (out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) prev,
     sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) prev)
  else
    (idleOut2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) prev)

/-- The grid point at position `n` (positions past the grid wrap; only positions on the grid are consulted). -/
def pt2 (n : ℕ) : Fin cfg2.N := ⟨n % 64, lt_of_lt_of_eq (Nat.mod_lt _ (by decide)) N_2.symm⟩
theorem pt2_val (t : Fin cfg2.N) : pt2 t.val = t :=
  Fin.ext (Nat.mod_eq_of_lt (lt_of_lt_of_eq t.isLt N_2))

/-- What the scratch buffer holds after the body at position `n`: by recursion on the position. -/
def scr2 (c : Dev nD) : ℕ → Vec F S2048x1024 .f32
  | 0 => (step2 V c (pt2 0) idleOut2).2
  | n + 1 => (step2 V c (pt2 (n + 1)) (scr2 c n)).2

/-- What (the output buffer, the scratch buffer) hold after the body at point `t`. -/
def outsAt2 (c : Dev nD) (t : Fin cfg2.N) : Vec F S2048x1024 .f32 × Vec F S2048x1024 .f32 :=
  step2 V c t (scr2 V c (t.val - 1))

/-- The scratch buffer after point `t` is the second component. -/
theorem scr2_val (c : Dev nD) (t : Fin cfg2.N) : scr2 V c t.val = (outsAt2 V c t).2 := by
  obtain ⟨n, hn⟩ := t
  cases n with
  | zero =>
    show (step2 V c (pt2 0) idleOut2).2 = (step2 V c ⟨0, hn⟩ (scr2 V c (0 - 1))).2
    rw [show pt2 0 = (⟨0, hn⟩ : Fin cfg2.N) from pt2_val ⟨0, hn⟩]
    unfold step2; rw [dif_pos (show (⟨0, hn⟩ : Fin cfg2.N).val % 4 = 0 from rfl), dif_pos (show (⟨0, hn⟩ : Fin cfg2.N).val % 4 = 0 from rfl)]
  | succ n =>
    show (step2 V c (pt2 (n + 1)) (scr2 V c n)).2 = (step2 V c ⟨n + 1, hn⟩ (scr2 V c (n + 1 - 1))).2
    rw [show pt2 (n + 1) = (⟨n + 1, hn⟩ : Fin cfg2.N) from pt2_val ⟨n + 1, hn⟩, Nat.add_sub_cancel]

/-- The scratch component at a point of the first contraction block. -/
theorem outsAt2_A (c : Dev nD) (t : Fin cfg2.N) (h0 : t.val % 4 = 0) (h1 : ¬t.val % 4 = 3) :
    (outsAt2 V c t).2 = sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t) := by
  unfold outsAt2 step2; rw [dif_pos h0]
/-- At a middle contraction block. -/
theorem outsAt2_B (c : Dev nD) (t : Fin cfg2.N) (h0 : ¬t.val % 4 = 0) (h1 : ¬t.val % 4 = 3) :
    (outsAt2 V c t).2 = sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (scr2 V c (t.val - 1)) := by
  unfold outsAt2 step2; rw [dif_neg h0, dif_neg h1]
/-- At the last contraction block: both components. -/
theorem outsAt2_C (c : Dev nD) (t : Fin cfg2.N) (h0 : ¬t.val % 4 = 0) (h1 : t.val % 4 = 3) :
    outsAt2 V c t = (out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (scr2 V c (t.val - 1)),
      sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (scr2 V c (t.val - 1))) := by
  unfold outsAt2 step2; rw [dif_neg h0, dif_pos h1]

/-- The call's invariant before position `n`: before the first point what the launch hands the call; afterwards the scratch
    buffer at exactly what the position before left, the other calls' scoped buffers unopened, the generator register. -/
def PhiS2 (c : Dev nD) : ℕ → sProp 𝕄
  | 0 => Pipeline.ΦA spec2 c
  | n + 1 => iprop(iprop(owns (c : Thread nD τ) scM2 fullShare (scr2 V c n) ∗ Rest2 c) ∗ (∃ r, prngReg c r))

theorem PhiS2_zero (c : Dev nD) (n : ℕ) (hz : n = 0) : PhiS2 V c n = Pipeline.ΦA spec2 c := by
  subst hz; rfl
theorem PhiS2_succ (c : Dev nD) (n : ℕ) :
    PhiS2 V c (n + 1) = iprop(iprop(owns (c : Thread nD τ) scM2 fullShare (scr2 V c n) ∗ Rest2 c) ∗ (∃ r, prngReg c r)) := rfl
theorem PhiS2_pos (c : Dev nD) (n : ℕ) (hz : n ≠ 0) :
    PhiS2 V c n = iprop(iprop(owns (c : Thread nD τ) scM2 fullShare (scr2 V c (n - 1)) ∗ Rest2 c) ∗ (∃ r, prngReg c r)) := by
  cases n with
  | zero => exact absurd rfl hz
  | succ n => rfl

/-- The call's proof data: the arrays as the call finds them; after the body each input's buffer at its block and the
    output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t).1
  Φ t := PhiS2 V c t.val
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]

set_option maxHeartbeats 4800000 in
/-- The body at any point. The residue of the position mod 4 says which case runs; the invariant hands the body the scratch
    buffer at what the point before left (at anything before the first point, and at a first contraction block the named
    contents are simply forgotten) and takes it back at this point's contents; the other calls' scoped buffers, the
    generator register and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) from rfl, PhiS2_succ, scr2_val V c t]
  rw [leaves2_0, leaves2_1, leaves2_2, leaves2_3]
  have hN : t.val < 64 := lt_of_lt_of_eq t.isLt (show cfg2.N = 64 from N_2)
  by_cases h0 : t.val % 4 = 0
  · have h1 : ¬t.val % 4 = 3 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A; (try dsimp only)
    by_cases hz : t.val = 0
    · rw [PhiS2_castSucc V c t, PhiS2_zero V c _ hz, PhiA2_eq]
      iintro ⟨⟨⟨HS, HR⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_A c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by intro hz; rw [hz] at h0; exact h0 (Nat.zero_mod _)
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C sout2_C; (try dsimp only)
      rw [PhiS2_castSucc V c t, PhiS2_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scover2_C c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C c _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      rw [PhiS2_castSucc V c t, PhiS2_pos V c _ hz]
      iintro ⟨⟨⟨HS, HR⟩, Hg⟩, Ho, ⟨%d0, H0⟩, ⟨%d1, H1⟩, ⟨%d2, H2⟩, ⟨%d3, H3⟩, ⟨%d4, H4⟩⟩
      iapply ((kernelRun2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scover2_B c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The body's obligation at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 from rfl, PhiS2_zero V c 0 rfl]
  try exact Idealize.SL.BI.Entails.refl _

/-- After the last point the invariant gives it back: the scratch buffer's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val from rfl, PhiS2_pos V c _ ht, PhiA2_eq]
  iintro ⟨⟨HS, HR⟩, Hg⟩
  isplitl [HS HR]
  · isplitl [HS]
    · iexists _; iexact HS
    iexact HR
  iexact Hg

end

end Cert.KernelIdeal.Hand

end
-- ==== Proof.KernelIdealMain.lean ====
/-
  The program KernelIdeal from launch to return: its host operations, its three projection calls and its three final reshapes,
  as five segments run in order. The buffer contents at each boundary are named (`W1` … `W5`): the launch memory, then
  the host operations' results, then after each call its arrays at what its write-backs leave, then the final reshapes'
  results. Every weakly fair execution terminates with every unscoped buffer at `W5`.
-/
import proofs.«111175_j26250840113720_2_alg».proof.Proof.KernelIdeal0Frame
import proofs.«111175_j26250840113720_2_alg».proof.Proof.KernelIdeal1Frame
import proofs.«111175_j26250840113720_2_alg».proof.Proof.KernelIdeal2Frame
import proofs.«111175_j26250840113720_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first call: the launch memory after the host operations. -/
abbrev W1 : Dev nD → Valuation τ sig (Elt F) := fun c => V1 m c
abbrev Vr1 : (c : Dev nD) → (b : Ref sig .tc) → Buf (Elt F) ((c : Thread nD τ).loc b) := fun c b => W1 m c b

/-- After call 0: its arrays at what its write-backs leave, every other buffer as before it. -/
def W2 (c : Dev nD) : Valuation τ sig (Elt F) :=
  Pipeline.withArrays spec0 c (W1 m c) fun w => (dat0 (Vr1 m) c).arrAt w cfg0.N
theorem W2_arr (c : Dev nD) (w : Fin cfg0.W) :
    W2 m c (Proc.devRef .tc (Pipeline.arrRef spec0 w)) = (dat0 (Vr1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev Vr2 : (c : Dev nD) → (b : Ref sig .tc) → Buf (Elt F) ((c : Thread nD τ).loc b) := fun c b => W2 m c b
theorem hF0 (c : Dev nD) (w : Fin cfg0.W) : (dat0 (Vr1 m) c).arrAt w cfg0.N = Vr2 m c (Pipeline.arrRef spec0 w) :=
  (W2_arr m c w).symm
theorem hrest0 (c : Dev nD) : ∀ b, b ∉ Finset.univ.image (Pipeline.arrRef spec0) → Vr2 m c b = Vr1 m c b :=
  fun b hb => W2_of_ne m c b fun w e => hb (Finset.mem_image.mpr ⟨w, Finset.mem_univ _, e⟩)

/-- After call 1: its arrays at what its write-backs leave, every other buffer as before it. -/
def W3 (c : Dev nD) : Valuation τ sig (Elt F) :=
  Pipeline.withArrays spec1 c (W2 m c) fun w => (dat1 (Vr2 m) c).arrAt w cfg1.N
theorem W3_arr (c : Dev nD) (w : Fin cfg1.W) :
    W3 m c (Proc.devRef .tc (Pipeline.arrRef spec1 w)) = (dat1 (Vr2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev Vr3 : (c : Dev nD) → (b : Ref sig .tc) → Buf (Elt F) ((c : Thread nD τ).loc b) := fun c b => W3 m c b
theorem hF1 (c : Dev nD) (w : Fin cfg1.W) : (dat1 (Vr2 m) c).arrAt w cfg1.N = Vr3 m c (Pipeline.arrRef spec1 w) :=
  (W3_arr m c w).symm
theorem hrest1 (c : Dev nD) : ∀ b, b ∉ Finset.univ.image (Pipeline.arrRef spec1) → Vr3 m c b = Vr2 m c b :=
  fun b hb => W3_of_ne m c b fun w e => hb (Finset.mem_image.mpr ⟨w, Finset.mem_univ _, e⟩)

/-- After call 2: its arrays at what its write-backs leave, every other buffer as before it. -/
def W4 (c : Dev nD) : Valuation τ sig (Elt F) :=
  Pipeline.withArrays spec2 c (W3 m c) fun w => (dat2 (Vr3 m) c).arrAt w cfg2.N
theorem W4_arr (c : Dev nD) (w : Fin cfg2.W) :
    W4 m c (Proc.devRef .tc (Pipeline.arrRef spec2 w)) = (dat2 (Vr3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev Vr4 : (c : Dev nD) → (b : Ref sig .tc) → Buf (Elt F) ((c : Thread nD τ).loc b) := fun c b => W4 m c b
theorem hF2 (c : Dev nD) (w : Fin cfg2.W) : (dat2 (Vr3 m) c).arrAt w cfg2.N = Vr4 m c (Pipeline.arrRef spec2 w) :=
  (W4_arr m c w).symm
theorem hrest2 (c : Dev nD) : ∀ b, b ∉ Finset.univ.image (Pipeline.arrRef spec2) → Vr4 m c b = Vr3 m c b :=
  fun b hb => W4_of_ne m c b fun w e => hb (Finset.mem_image.mpr ⟨w, Finset.mem_univ _, e⟩)

/-- At the return: after the three final reshapes. -/
abbrev W5 : Dev nD → Valuation τ sig (Elt F) := fun c => StableHlo.after hostOps3 (W4 m c)

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr2 m) c
  | ⟨2, _⟩ => fun c => dat2 (Vr3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the pinned configuration of a call is found by unfolding plain definitions in a metavariable's type
set_option backward.isDefEq.respectTransparency.types false in
/-- Call 0 as a segment of @main: entered with every unscoped buffer at the contents before it, left with the call's arrays
    at what the pipeline's write-backs leave and every other buffer as entered. Its arrays are split out of the unscoped
    buffers and put back; the generator register and the scoped buffers go into the call's invariant and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration of a call is found by unfolding plain definitions in a metavariable's type
set_option backward.isDefEq.respectTransparency.types false in
/-- Call 1 as a segment of @main: entered with every unscoped buffer at the contents before it, left with the call's arrays
    at what the pipeline's write-backs leave and every other buffer as entered. Its arrays are split out of the unscoped
    buffers and put back; the generator register and the scoped buffers go into the call's invariant and come back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vr2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration of a call is found by unfolding plain definitions in a metavariable's type
set_option backward.isDefEq.respectTransparency.types false in
/-- Call 2 as a segment of @main: entered with every unscoped buffer at the contents before it, left with the call's arrays
    at what the pipeline's write-backs leave and every other buffer as entered. Its arrays are split out of the unscoped
    buffers and put back; the generator register and the scoped buffers go into the call's invariant and come back. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (Vr3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (Vr3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr3 m c) (Vr4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments in order. -/
abbrev segs : List (Pipeline.Seg (pcfgs (F := F)) adm (pdats m) () defs₀ 𝒱₀ L lv) :=
  [ .host (hseg hostOps0 hostOps0_sub hostOps0_fresh (V0 m)),
    .region (reg0 m),
    .region (reg1 m),
    .region (reg2 m),
    .host (hseg hostOps3 hostOps3_sub hostOps3_fresh (W4 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and the final
    memory has every unscoped buffer at `W5`; any post that follows from that holds. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W5 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := hQ)

end Cert.KernelIdeal.Hand

end
-- ==== Proof.KernelIdealTail.lean ====
/-
  The end of the program KernelIdeal: what its last stretch of host operations (three reshapes of the calls' outputs back to
  4 × 2048 × 4096) leaves, read off the buffer contents named at the segment boundaries.

  * No host operation and no call writes an argument array, so each argument ends at its launch contents (`W5_keep`,
    and from it the frame claim `frame`).
  * Each result is the reshape of what its call's write-backs leave in the call's output array (`W5_v35` … `W5_v37`):
    entry `(b, s, h)` of a result is entry `(2048 · b + s, h)` of that array (`W5_v35_at` … `W5_v37_at`).
  * The second and third calls find the host operations' results as the first call found them: an input window's array
    is never written back, and a call changes no buffer other than its arrays (`Vr2_in`, `Vr3_in`).
-/
import proofs.«111175_j26250840113720_2_alg».proof.Proof.KernelIdealMain
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- A buffer that no host operation writes and that is no array of any call ends at its launch contents. -/
theorem W5_keep (c : Dev nD) (b : Ref sig .tc) (h0 : b ∉ hostOps0_W) (h3 : b ∉ hostOps3_W)
    (hn0 : ∀ w, Pipeline.arrRef spec0 w ≠ b) (hn1 : ∀ w, Pipeline.arrRef spec1 w ≠ b) (hn2 : ∀ w, Pipeline.arrRef spec2 w ≠ b) :
    W5 m c (Proc.devRef .tc b) = m ((c : Thread nD τ).loc b) :=
  (StableHlo.after_of_writes_sub hostOps3 (W4 m c) hostOps3_writes h3).trans <|
    (W4_of_ne m c b hn2).trans <| (W3_of_ne m c b hn1).trans <| (W2_of_ne m c b hn0).trans <| (V1_of m c b h0).trans rfl

/-- Every weakly fair execution of @main terminates, nothing faulting, with every argument array at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_main m ρ (hQ := fun s h c =>
    ⟨(h c _ (mem_uc main_arg0 (by decide))).trans (W5_keep m c main_arg0 (by decide) (by decide) (by decide) (by decide) (by decide)),
     (h c _ (mem_uc main_arg1 (by decide))).trans (W5_keep m c main_arg1 (by decide) (by decide) (by decide) (by decide) (by decide)),
     (h c _ (mem_uc main_arg2 (by decide))).trans (W5_keep m c main_arg2 (by decide) (by decide) (by decide) (by decide) (by decide)),
     (h c _ (mem_uc main_arg3 (by decide))).trans (W5_keep m c main_arg3 (by decide) (by decide) (by decide) (by decide) (by decide)),
     (h c _ (mem_uc main_arg4 (by decide))).trans (W5_keep m c main_arg4 (by decide) (by decide) (by decide) (by decide) (by decide)),
     (h c _ (mem_uc main_arg5 (by decide))).trans (W5_keep m c main_arg5 (by decide) (by decide) (by decide) (by decide) (by decide)),
     (h c _ (mem_uc main_arg6 (by decide))).trans (W5_keep m c main_arg6 (by decide) (by decide) (by decide) (by decide) (by decide)),
     (h c _ (mem_uc main_arg7 (by decide))).trans (W5_keep m c main_arg7 (by decide) (by decide) (by decide) (by decide) (by decide)),
     (h c _ (mem_uc main_arg8 (by decide))).trans (W5_keep m c main_arg8 (by decide) (by decide) (by decide) (by decide) (by decide)),
     (h c _ (mem_uc main_arg9 (by decide))).trans (W5_keep m c main_arg9 (by decide) (by decide) (by decide) (by decide) (by decide))⟩)

/-! ## The three results -/

/-- What the first call leaves in its output array is still there when the final reshapes run. -/
theorem W4_v32 (c : Dev nD) : W4 m c (Proc.devRef .tc main_v32) = (dat0 (Vr1 m) c).arrAt 4 cfg0.N :=
  (W4_of_ne m c main_v32 (by decide)).trans ((W3_of_ne m c main_v32 (by decide)).trans (W2_arr m c 4))
/-- What the second call leaves in its output array is still there when the final reshapes run. -/
theorem W4_v33 (c : Dev nD) : W4 m c (Proc.devRef .tc main_v33) = (dat1 (Vr2 m) c).arrAt 4 cfg1.N :=
  (W4_of_ne m c main_v33 (by decide)).trans (W3_arr m c 4)
/-- What the third call leaves in its output array. -/
theorem W4_v34 (c : Dev nD) : W4 m c (Proc.devRef .tc main_v34) = (dat2 (Vr3 m) c).arrAt 4 cfg2.N :=
  W4_arr m c 4

/-- The first result is the reshape of the first call's output array. -/
theorem W5_v35 (c : Dev nD) :
    W5 m c (Proc.devRef .tc main_v35)
      = shapeCast S4x2048x4096 ((dat0 (Vr1 m) c).arrAt 4 cfg0.N : S8192x4096.Idx → Elt F .f32) shapeCasts_S8192x4096_S4x2048x4096 := by
  rw [← W4_v32 m c]
  show StableHlo.after hostOps3 (W4 m c) (Proc.devRef .tc main_v35) = _
  after_results
  rfl
/-- The second result is the reshape of the second call's output array. -/
theorem W5_v36 (c : Dev nD) :
    W5 m c (Proc.devRef .tc main_v36)
      = shapeCast S4x2048x4096 ((dat1 (Vr2 m) c).arrAt 4 cfg1.N : S8192x4096.Idx → Elt F .f32) shapeCasts_S8192x4096_S4x2048x4096 := by
  rw [← W4_v33 m c]
  show StableHlo.after hostOps3 (W4 m c) (Proc.devRef .tc main_v36) = _
  after_results
  rfl
/-- The third result is the reshape of the third call's output array. -/
theorem W5_v37 (c : Dev nD) :
    W5 m c (Proc.devRef .tc main_v37)
      = shapeCast S4x2048x4096 ((dat2 (Vr3 m) c).arrAt 4 cfg2.N : S8192x4096.Idx → Elt F .f32) shapeCasts_S8192x4096_S4x2048x4096 := by
  rw [← W4_v34 m c]
  show StableHlo.after hostOps3 (W4 m c) (Proc.devRef .tc main_v37) = _
  after_results
  rfl

/-- Entry `(b, s, h)` of a 4 × 2048 × 4096 reshape of an 8192 × 4096 array is the array's entry `(2048 · b + s, h)`. -/
theorem unflat_apply {α : Type} (x : S8192x4096.Idx → α) (b : Fin 4) (s : Fin 2048) (h : Fin 4096) :
    shapeCast S4x2048x4096 x shapeCasts_S8192x4096_S4x2048x4096 (ix3 b s h)
      = x (ix2 (⟨2048 * b.val + s.val, by omega⟩ : Fin 8192) h) := by
  refine shapeCast_apply x shapeCasts_S8192x4096_S4x2048x4096 (ix3 b s h) _ ?_
  rw [Shape.rowMajor_val_two, Shape.rowMajor_val_three]
  show (2048 * b.val + s.val) * 4096 + h.val = (b.val * 2048 + s.val) * 4096 + h.val
  omega

theorem W5_v35_at (c : Dev nD) (b : Fin 4) (s : Fin 2048) (h : Fin 4096) :
    (W5 m c (Proc.devRef .tc main_v35) : S4x2048x4096.Idx → Elt F .f32) (ix3 b s h)
      = ((dat0 (Vr1 m) c).arrAt 4 cfg0.N : S8192x4096.Idx → Elt F .f32) (ix2 (⟨2048 * b.val + s.val, by omega⟩ : Fin 8192) h) :=
  (congrFun (W5_v35 m c) (ix3 b s h)).trans (unflat_apply _ b s h)
theorem W5_v36_at (c : Dev nD) (b : Fin 4) (s : Fin 2048) (h : Fin 4096) :
    (W5 m c (Proc.devRef .tc main_v36) : S4x2048x4096.Idx → Elt F .f32) (ix3 b s h)
      = ((dat1 (Vr2 m) c).arrAt 4 cfg1.N : S8192x4096.Idx → Elt F .f32) (ix2 (⟨2048 * b.val + s.val, by omega⟩ : Fin 8192) h) :=
  (congrFun (W5_v36 m c) (ix3 b s h)).trans (unflat_apply _ b s h)
theorem W5_v37_at (c : Dev nD) (b : Fin 4) (s : Fin 2048) (h : Fin 4096) :
    (W5 m c (Proc.devRef .tc main_v37) : S4x2048x4096.Idx → Elt F .f32) (ix3 b s h)
      = ((dat2 (Vr3 m) c).arrAt 4 cfg2.N : S8192x4096.Idx → Elt F .f32) (ix2 (⟨2048 * b.val + s.val, by omega⟩ : Fin 8192) h) :=
  (congrFun (W5_v37 m c) (ix3 b s h)).trans (unflat_apply _ b s h)

/-! ## The later calls find the host results unchanged -/

/-- The second call finds each of its input arrays as the host operations left it. -/
theorem Vr2_in (c : Dev nD) (w : Fin 5) (hw : w ≠ 4) : Vr2 m c (Pipeline.arrRef spec1 w) = Vr1 m c (Pipeline.arrRef spec1 w) :=
  match w, hw with
  | ⟨0, _⟩, _ => (W2_arr m c 0).trans (((dat0 (Vr1 m) c).arrAt_in 0 rfl _).trans (A_eq0 (Vr1 m) c 0))
  | ⟨1, _⟩, _ => (W2_arr m c 1).trans (((dat0 (Vr1 m) c).arrAt_in 1 rfl _).trans (A_eq0 (Vr1 m) c 1))
  | ⟨2, _⟩, _ => W2_of_ne m c main_v24 (by decide)
  | ⟨3, _⟩, _ => W2_of_ne m c main_v27 (by decide)
  | ⟨4, _⟩, hw => absurd rfl hw

/-- The third call finds each of its input arrays as the host operations left it. -/
theorem Vr3_in (c : Dev nD) (w : Fin 5) (hw : w ≠ 4) : Vr3 m c (Pipeline.arrRef spec2 w) = Vr1 m c (Pipeline.arrRef spec2 w) :=
  match w, hw with
  | ⟨0, _⟩, _ => (W3_arr m c 0).trans (((dat1 (Vr2 m) c).arrAt_in 0 rfl _).trans ((A_eq1 (Vr2 m) c 0).trans (Vr2_in m c 0 (by decide))))
  | ⟨1, _⟩, _ => (W3_arr m c 1).trans (((dat1 (Vr2 m) c).arrAt_in 1 rfl _).trans ((A_eq1 (Vr2 m) c 1).trans (Vr2_in m c 1 (by decide))))
  | ⟨2, _⟩, _ => (W3_of_ne m c main_v28 (by decide)).trans (W2_of_ne m c main_v28 (by decide))
  | ⟨3, _⟩, _ => (W3_of_ne m c main_v31 (by decide)).trans (W2_of_ne m c main_v31 (by decide))
  | ⟨4, _⟩, hw => absurd rfl hw

end Cert.KernelIdeal.Hand

end
-- ==== Proof.KernelIdeal0Chain.lean ====
/-
  Projection 0 of the program KernelIdeal: the values the body's three cases leave, and the running sum in closed form.

  Each case of the body ends with one store of the whole `[2048, 1024]` block, so what it leaves is that store's payload,
  and every load reads a whole buffer, so the payload's operands are the buffers' contents themselves.  The payload is
  the body's arithmetic on the four input blocks and on a running sum: the zero block at a point of the first
  contraction block, what the scratch buffer held otherwise.  At a point of the last contraction block the output buffer
  receives a copy of what was just stored to the scratch buffer.
  Hence the scratch buffer after position `n` is given by a recursion on `n` alone: the arithmetic applied to the blocks of
  point `n` and to the zero block when `n ≡ 0 (mod 4)`, to the value after position `n - 1` otherwise; and the output
  buffer at a point `t ≡ 3 (mod 4)` holds that value at `t`.
-/
import proofs.«111175_j26250840113720_2_alg».proof.Proof.KernelIdeal0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: the origin. -/
theorem hz0 : (![0, 0] : Fin 2 → Nat) = fun _ => 0 := funext fun a => by fin_cases a <;> rfl

/-! ## What each case leaves -/

/-- First contraction block: the zero block is stored and read back, so the scratch buffer is left with the arithmetic on the zero block. -/
theorem sout0_A_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i) (x0 : Vec F S2048x1024 .bf16) (x1 : Vec F S2048x1024 .bf16) (x2 : Vec F S1024x1024 .bf16) (x3 : Vec F S1024x1024 .bf16) :
    sout0_A c i arg3 harg3 arg4 harg4 arg5 harg5 arg6 harg6 arg7 harg7 arg8 harg8 hc0 hc1 x0 x1 x2 x3 = k0_pay2 x0 x1 x2 x3 (k0_pay1 (F := F)) := by
  unfold sout0_A
  rw [View.read_writes_eq_canon _ _ _ (scover0_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz0, View.readCov_unit_zero (S := S2048x1024) _ hz0]
  simp only [View.readAt_eq_ld, harg3.read_unread, harg4.read_unread, harg5.read_unread, harg6.read_unread,
    View.ld_unit_zero (S := S2048x1024) hz0, View.ld_unit_zero (S := S1024x1024) hz0]

/-- A middle contraction block: the scratch buffer is left with the arithmetic on what it held. -/
theorem sout0_B_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i) (x0 : Vec F S2048x1024 .bf16) (x1 : Vec F S2048x1024 .bf16) (x2 : Vec F S1024x1024 .bf16) (x3 : Vec F S1024x1024 .bf16) (xs : Vec F S2048x1024 .f32) :
    sout0_B c i arg3 harg3 arg4 harg4 arg5 harg5 arg6 harg6 arg7 harg7 arg8 harg8 hc0 hc1 x0 x1 x2 x3 xs = k0_pay2 x0 x1 x2 x3 xs := by
  unfold sout0_B
  rw [View.read_writes_eq_canon _ _ _ (scover0_B c i arg3 harg3 arg4 harg4 arg5 harg5 arg6 harg6 arg7 harg7 arg8 harg8 hc0 hc1 x0 x1 x2 x3 xs)]
  unfold kernelRun0_B
  dsimp only
  rw [View.canon_unit_zero hz0]
  simp only [View.readAt_eq_ld, harg3.read_unread, harg4.read_unread, harg5.read_unread, harg6.read_unread, harg8.read_unread,
    View.ld_unit_zero (S := S2048x1024) hz0, View.ld_unit_zero (S := S1024x1024) hz0]

/-- The last contraction block: the scratch buffer likewise, -/
theorem sout0_C_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) :
    sout0_C c i arg3 harg3 arg4 harg4 arg5 harg5 arg6 harg6 arg7 harg7 arg8 harg8 hc0 hc1 x0 x1 x2 x3 xs = k0_pay2 x0 x1 x2 x3 xs := by
  unfold sout0_C
  rw [View.read_writes_eq_canon _ _ _ (scover0_C c i arg3 harg3 arg4 harg4 arg5 harg5 arg6 harg6 arg7 harg7 arg8 harg8 hc0 hc1 x0 x1 x2 x3 xs)]
  unfold kernelRun0_C
  dsimp only
  sl_unfold_words
  rw [View.canon_unit_zero hz0]
  simp only [View.readAt_eq_ld, harg3.read_unread, harg4.read_unread, harg5.read_unread, harg6.read_unread, harg8.read_unread,
    View.ld_unit_zero (S := S2048x1024) hz0, View.ld_unit_zero (S := S1024x1024) hz0]

/-- and the output buffer receives the copy of it. -/
theorem out0_C_eq (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x1024 .bf16) (x1 : Vec F S2048x1024 .bf16) (x2 : Vec F S1024x1024 .bf16) (x3 : Vec F S1024x1024 .bf16) (xs : Vec F S2048x1024 .f32) :
    out0_C c i arg3 harg3 arg4 harg4 arg5 harg5 arg6 harg6 arg7 harg7 arg8 harg8 hc0 hc1 x0 x1 x2 x3 xs = k0_pay2 x0 x1 x2 x3 xs := by
  unfold out0_C
  rw [View.read_writes_eq_canon _ _ _ (cover0_C c i arg3 harg3 arg4 harg4 arg5 harg5 arg6 harg6 arg7 harg7 arg8 harg8 hc0 hc1 x0 x1 x2 x3 xs)]
  unfold kernelRun0_C
  dsimp only
  sl_unfold_words
  rw [View.canon_unit_zero hz0, View.readCov_unit_zero (S := S2048x1024) _ hz0]
  simp only [View.readAt_eq_ld, harg3.read_unread, harg4.read_unread, harg5.read_unread, harg6.read_unread, harg8.read_unread,
    View.ld_unit_zero (S := S2048x1024) hz0, View.ld_unit_zero (S := S1024x1024) hz0]

/-! ## The running sum in closed form -/

section
variable (V : (c : Dev nD) → (b : Ref sig .tc) → Buf (Elt F) ((c : Thread nD τ).loc b))

/-- One point's step, whatever its case: the scratch buffer is left with the arithmetic on the point's blocks and on the
    zero block (first contraction block) or on what it held (any other). -/
theorem step0_snd (c : Dev nD) (t : Fin cfg0.N) (prev : Vec F S2048x1024 .f32) :
    (step0 V c t prev).2
      = k0_pay2 (iblk0 V c 0 t) (iblk0 V c 1 t) (iblk0 V c 2 t) (iblk0 V c 3 t) (if t.val % 4 = 0 then k0_pay1 (F := F) else prev) := by
  unfold step0
  by_cases h0 : t.val % 4 = 0
  · rw [dif_pos h0, if_pos h0]
    dsimp only
    exact sout0_A_eq c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => by have h' := (hcond0_1 t).mp h; omega) (iblk0 V c 0 t) (iblk0 V c 1 t) (iblk0 V c 2 t) (iblk0 V c 3 t)
  · rw [dif_neg h0, if_neg h0]
    by_cases h1 : t.val % 4 = 3
    · rw [dif_pos h1]
      dsimp only
      exact sout0_C_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) prev
    · rw [dif_neg h1]
      dsimp only
      exact sout0_B_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) prev

/-- At a point of the last contraction block the output buffer is left with the same value. -/
theorem step0_fst (c : Dev nD) (t : Fin cfg0.N) (prev : Vec F S2048x1024 .f32) (h1 : t.val % 4 = 3) :
    (step0 V c t prev).1 = k0_pay2 (iblk0 V c 0 t) (iblk0 V c 1 t) (iblk0 V c 2 t) (iblk0 V c 3 t) prev := by
  have h0 : ¬t.val % 4 = 0 := by omega
  unfold step0
  rw [dif_neg h0, dif_pos h1]
  dsimp only
  exact out0_C_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) prev

/-- The running sum after position `n`: the arithmetic on the blocks of point `n` and on the zero block when `n` starts a
    run of four contraction blocks, on the sum after position `n - 1` otherwise. -/
def acc0 (c : Dev nD) : ℕ → Vec F S2048x1024 .f32
  | 0 => k0_pay2 (iblk0 V c 0 (pt0 0)) (iblk0 V c 1 (pt0 0)) (iblk0 V c 2 (pt0 0)) (iblk0 V c 3 (pt0 0)) (k0_pay1 (F := F))
  | n + 1 => k0_pay2 (iblk0 V c 0 (pt0 (n + 1))) (iblk0 V c 1 (pt0 (n + 1))) (iblk0 V c 2 (pt0 (n + 1))) (iblk0 V c 3 (pt0 (n + 1))) (if (n + 1) % 4 = 0 then k0_pay1 (F := F) else acc0 c n)

theorem acc0_zero (c : Dev nD) :
    acc0 V c 0 = k0_pay2 (iblk0 V c 0 (pt0 0)) (iblk0 V c 1 (pt0 0)) (iblk0 V c 2 (pt0 0)) (iblk0 V c 3 (pt0 0)) (k0_pay1 (F := F)) := rfl
theorem acc0_succ (c : Dev nD) (n : ℕ) :
    acc0 V c (n + 1) = k0_pay2 (iblk0 V c 0 (pt0 (n + 1))) (iblk0 V c 1 (pt0 (n + 1))) (iblk0 V c 2 (pt0 (n + 1))) (iblk0 V c 3 (pt0 (n + 1))) (if (n + 1) % 4 = 0 then k0_pay1 (F := F) else acc0 V c n) := rfl

/-- The residue mod 4 of the point at position `n` is that of `n`: 4 divides the number of points. -/
theorem pt0_mod (n : ℕ) : (pt0 n).val % 4 = n % 4 := by
  show n % 64 % 4 = n % 4
  omega

/-- The scratch buffer after position `n` holds the running sum. -/
theorem scr0_eq (c : Dev nD) (n : ℕ) : scr0 V c n = acc0 V c n := by
  induction n with
  | zero =>
    show (step0 V c (pt0 0) (idleOut0 (F := F))).2 = acc0 V c 0
    rw [step0_snd, acc0_zero, if_pos (pt0_mod 0)]
  | succ n ih =>
    show (step0 V c (pt0 (n + 1)) (scr0 V c n)).2 = acc0 V c (n + 1)
    rw [step0_snd, acc0_succ, ih, pt0_mod]

/-- At a point of the last contraction block the output buffer holds the running sum after that point. -/
theorem out0_at (c : Dev nD) (t : Fin cfg0.N) (h1 : t.val % 4 = 3) : (outsAt0 V c t).1 = acc0 V c t.val := by
  obtain ⟨n, hn⟩ := t
  cases n with
  | zero => exact absurd (show (0 : ℕ) % 4 = 3 from h1) (by decide)
  | succ m =>
    show (step0 V c ⟨m + 1, hn⟩ (scr0 V c (m + 1 - 1))).1 = acc0 V c (m + 1)
    have h0 : ¬(m + 1) % 4 = 0 := by
      have : (m + 1) % 4 = 3 := h1
      omega
    rw [step0_fst V c ⟨m + 1, hn⟩ _ h1, Nat.add_sub_cancel, scr0_eq, acc0_succ, if_neg h0,
      show pt0 (m + 1) = (⟨m + 1, hn⟩ : Fin cfg0.N) from pt0_val ⟨m + 1, hn⟩]

end

end Cert.KernelIdeal.Hand

end
-- ==== Proof.KernelIdeal0Blocks.lean ====
/-
  Projection 0 of the program KernelIdeal: where a window's block sits in its array, and the output array from its blocks.
  At grid point `t` the row block is `t / 16`, the column block `(t / 4) % 4` and the contraction block `t % 4`. The two
  activation windows read rows `2048 · (t / 16) + p` and contraction positions `1024 · (t % 4) + d`; the two weight windows read
  contraction positions `1024 · (t % 4) + d` and columns `1024 · ((t / 4) % 4) + q`; the output window writes rows
  `2048 · (t / 16) + p` and columns `1024 · ((t / 4) % 4) + q`, and it is written back at the last contraction block only
  (`t % 4 = 3`). The sixteen blocks written back tile the output array: the point that covers `(r, c')` is
  `16 · (r / 2048) + 4 · (c' / 1024) + 3`.
-/
import proofs.«111175_j26250840113720_2_alg».proof.Proof.KernelIdeal0Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The index maps, decided over the grid -/

/-- Window 0's block index at point `t`: (row block, contraction block). -/
theorem idx0_0 : ∀ t : Fin cfg0.N, win0_0.index t (0 : Fin 2) = t.val / 16 ∧ win0_0.index t (1 : Fin 2) = t.val % 4 :=
  (by decide +kernel : ∀ t : Fin grid0.N, _)
/-- Window 1's: the same. -/
theorem idx0_1 : ∀ t : Fin cfg0.N, win0_1.index t (0 : Fin 2) = t.val / 16 ∧ win0_1.index t (1 : Fin 2) = t.val % 4 :=
  (by decide +kernel : ∀ t : Fin grid0.N, _)
/-- Window 2's: (contraction block, column block). -/
theorem idx0_2 : ∀ t : Fin cfg0.N, win0_2.index t (0 : Fin 2) = t.val % 4 ∧ win0_2.index t (1 : Fin 2) = (t.val / 4) % 4 :=
  (by decide +kernel : ∀ t : Fin grid0.N, _)
/-- Window 3's: the same. -/
theorem idx0_3 : ∀ t : Fin cfg0.N, win0_3.index t (0 : Fin 2) = t.val % 4 ∧ win0_3.index t (1 : Fin 2) = (t.val / 4) % 4 :=
  (by decide +kernel : ∀ t : Fin grid0.N, _)
/-- The output window's: (row block, column block). -/
theorem idx0_4 : ∀ t : Fin cfg0.N, win0_4.index t (0 : Fin 2) = t.val / 16 ∧ win0_4.index t (1 : Fin 2) = (t.val / 4) % 4 :=
  (by decide +kernel : ∀ t : Fin grid0.N, _)

section
variable (V : (c : Dev nD) → (b : Ref sig .tc) → Buf (Elt F) ((c : Thread nD τ).loc b))

/-! ## An input block's element, in its array -/

/-- Element `(p, d)` of window 0's block at point `t` is the array's element at row `2048 · (t / 16) + p`, contraction position
    `1024 · (t % 4) + d`. -/
theorem iblk0_0_at (c : Dev nD) (t : Fin cfg0.N) (p : Fin 2048) (d : Fin 1024) :
    (iblk0 V c 0 t : S2048x1024.Idx → Elt F .bf16) (ix2 p d)
      = (V c (Pipeline.arrRef spec0 0) : S8192x4096.Idx → Elt F .bf16)
          (ix2 (⟨2048 * (t.val / 16) + p.val, by have hN : t.val < 64 := lt_of_lt_of_eq t.isLt N_0; have := p.isLt; omega⟩ : Fin 8192)
               (⟨1024 * (t.val % 4) + d.val, by have := d.isLt; omega⟩ : Fin 4096)) := by
  obtain ⟨e0, e1⟩ := idx0_0 t
  unfold iblk0
  rw [View.read_apply]
  show (V c (Pipeline.arrRef spec0 0) : S8192x4096.Idx → Elt F .bf16) (((cfg0.win 0).blk t).view.emb (ix2 p d)) = _
  refine congrArg _ ?_
  funext a
  apply Fin.ext
  match a with
  | ⟨0, _⟩ => show win0_0.index t (0 : Fin 2) * 2048 + 1 * p.val = 2048 * (t.val / 16) + p.val; rw [e0]; omega
  | ⟨1, _⟩ => show win0_0.index t (1 : Fin 2) * 1024 + 1 * d.val = 1024 * (t.val % 4) + d.val; rw [e1]; omega

/-- Element `(p, d)` of window 1's block at point `t` is the array's element at row `2048 · (t / 16) + p`, contraction position
    `1024 · (t % 4) + d`. -/
theorem iblk0_1_at (c : Dev nD) (t : Fin cfg0.N) (p : Fin 2048) (d : Fin 1024) :
    (iblk0 V c 1 t : S2048x1024.Idx → Elt F .bf16) (ix2 p d)
      = (V c (Pipeline.arrRef spec0 1) : S8192x4096.Idx → Elt F .bf16)
          (ix2 (⟨2048 * (t.val / 16) + p.val, by have hN : t.val < 64 := lt_of_lt_of_eq t.isLt N_0; have := p.isLt; omega⟩ : Fin 8192)
               (⟨1024 * (t.val % 4) + d.val, by have := d.isLt; omega⟩ : Fin 4096)) := by
  obtain ⟨e0, e1⟩ := idx0_1 t
  unfold iblk0
  rw [View.read_apply]
  show (V c (Pipeline.arrRef spec0 1) : S8192x4096.Idx → Elt F .bf16) (((cfg0.win 1).blk t).view.emb (ix2 p d)) = _
  refine congrArg _ ?_
  funext a
  apply Fin.ext
  match a with
  | ⟨0, _⟩ => show win0_1.index t (0 : Fin 2) * 2048 + 1 * p.val = 2048 * (t.val / 16) + p.val; rw [e0]; omega
  | ⟨1, _⟩ => show win0_1.index t (1 : Fin 2) * 1024 + 1 * d.val = 1024 * (t.val % 4) + d.val; rw [e1]; omega

/-- Element `(d, q)` of window 2's block at point `t` is the array's element at contraction position `1024 · (t % 4) + d`, column
    `1024 · ((t / 4) % 4) + q`. -/
theorem iblk0_2_at (c : Dev nD) (t : Fin cfg0.N) (d : Fin 1024) (q : Fin 1024) :
    (iblk0 V c 2 t : S1024x1024.Idx → Elt F .bf16) (ix2 d q)
      = (V c (Pipeline.arrRef spec0 2) : S4096x4096.Idx → Elt F .bf16)
          (ix2 (⟨1024 * (t.val % 4) + d.val, by have := d.isLt; omega⟩ : Fin 4096)
               (⟨1024 * ((t.val / 4) % 4) + q.val, by have := q.isLt; omega⟩ : Fin 4096)) := by
  obtain ⟨e0, e1⟩ := idx0_2 t
  unfold iblk0
  rw [View.read_apply]
  show (V c (Pipeline.arrRef spec0 2) : S4096x4096.Idx → Elt F .bf16) (((cfg0.win 2).blk t).view.emb (ix2 d q)) = _
  refine congrArg _ ?_
  funext a
  apply Fin.ext
  match a with
  | ⟨0, _⟩ => show win0_2.index t (0 : Fin 2) * 1024 + 1 * d.val = 1024 * (t.val % 4) + d.val; rw [e0]; omega
  | ⟨1, _⟩ => show win0_2.index t (1 : Fin 2) * 1024 + 1 * q.val = 1024 * ((t.val / 4) % 4) + q.val; rw [e1]; omega

/-- Element `(d, q)` of window 3's block at point `t` is the array's element at contraction position `1024 · (t % 4) + d`, column
    `1024 · ((t / 4) % 4) + q`. -/
theorem iblk0_3_at (c : Dev nD) (t : Fin cfg0.N) (d : Fin 1024) (q : Fin 1024) :
    (iblk0 V c 3 t : S1024x1024.Idx → Elt F .bf16) (ix2 d q)
      = (V c (Pipeline.arrRef spec0 3) : S4096x4096.Idx → Elt F .bf16)
          (ix2 (⟨1024 * (t.val % 4) + d.val, by have := d.isLt; omega⟩ : Fin 4096)
               (⟨1024 * ((t.val / 4) % 4) + q.val, by have := q.isLt; omega⟩ : Fin 4096)) := by
  obtain ⟨e0, e1⟩ := idx0_3 t
  unfold iblk0
  rw [View.read_apply]
  show (V c (Pipeline.arrRef spec0 3) : S4096x4096.Idx → Elt F .bf16) (((cfg0.win 3).blk t).view.emb (ix2 d q)) = _
  refine congrArg _ ?_
  funext a
  apply Fin.ext
  match a with
  | ⟨0, _⟩ => show win0_3.index t (0 : Fin 2) * 1024 + 1 * d.val = 1024 * (t.val % 4) + d.val; rw [e0]; omega
  | ⟨1, _⟩ => show win0_3.index t (1 : Fin 2) * 1024 + 1 * q.val = 1024 * ((t.val / 4) % 4) + q.val; rw [e1]; omega

/-! ## The output array from its blocks -/

/-- An index of the output array is in point `t`'s block iff each coordinate is in the block's range on its axis. -/
theorem mem_blk0_4 (t : Fin cfg0.N) (i : S8192x4096.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole (Pipeline.arrRef spec0 4)).slice (win0_4.rect t)).set ↔ _
  rw [View.set_slice_whole, Rect.mem_set_unit]
  exact Iff.rfl

/-- What a point of the last contraction block writes back is its block of `G`, when the output buffer there holds `G` at the
    block's rows and columns. -/
theorem flushed0_4_eq (c : Dev nD) (G : S8192x4096.Idx → Elt F .f32)
    (hG : ∀ (t : Fin cfg0.N), t.val % 4 = 3 → ∀ (p : Fin 2048) (q : Fin 1024),
        ((outsAt0 V c t).1 : S2048x1024.Idx → Elt F .f32) (ix2 p q)
          = G (ix2 (⟨2048 * (t.val / 16) + p.val, by have hN : t.val < 64 := lt_of_lt_of_eq t.isLt N_0; have := p.isLt; omega⟩ : Fin 8192)
                   (⟨1024 * ((t.val / 4) % 4) + q.val, by have := q.isLt; omega⟩ : Fin 4096)))
    (t : Fin cfg0.N) (hf : (cfg0.win 4).flush t = true) :
    (dat0 V c).flushed 4 t = ((cfg0.win 4).blk t).view.read (Elt F) G := by
  have h3 : t.val % 4 = 3 := (flush0_4 t).mp hf
  obtain ⟨e0, e1⟩ := idx0_4 t
  show (cfg0.win 4).cut (grid0.coords t) ((dat0 V c).after 4 t) = _
  rw [after0_4]
  funext j
  rw [View.read_apply]
  have hj : (cfg0.win 4).xinj (grid0.coords t) j = ix2 (show Fin 2048 from j 0) (show Fin 1024 from j 1) := by
    funext a; match a with | ⟨0, _⟩ => rfl | ⟨1, _⟩ => rfl
  show ((outsAt0 V c t).1 : S2048x1024.Idx → Elt F .f32) ((cfg0.win 4).xinj (grid0.coords t) j) = G (((cfg0.win 4).blk t).view.emb j)
  rw [hj, hG t h3]
  refine congrArg G ?_
  funext a
  apply Fin.ext
  match a with
  | ⟨0, _⟩ => show 2048 * (t.val / 16) + (j 0).val = win0_4.index t (0 : Fin 2) * 2048 + 1 * (j 0).val; rw [e0]; omega
  | ⟨1, _⟩ => show 1024 * ((t.val / 4) % 4) + (j 1).val = win0_4.index t (1 : Fin 2) * 1024 + 1 * (j 1).val; rw [e1]; omega

/-- Every index of the output array is in the block some point of the last contraction block writes back. -/
theorem cover0_4 (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hlt : 16 * ((i 0).val / 2048) + 4 * ((i 1).val / 1024) + 3 < cfg0.N := by
    rw [show cfg0.N = 64 from N_0]; omega
  obtain ⟨t, ht⟩ : ∃ t : Fin cfg0.N, t.val = 16 * ((i 0).val / 2048) + 4 * ((i 1).val / 1024) + 3 := ⟨⟨_, hlt⟩, rfl⟩
  obtain ⟨e0, e1⟩ := idx0_4 t
  refine ⟨t, (flush0_4 t).mpr (by omega), ?_⟩
  rw [mem_blk0_4]
  intro a
  match a with
  | ⟨0, _⟩ => show win0_4.index t (0 : Fin 2) * 2048 ≤ (i 0).val ∧ (i 0).val < win0_4.index t (0 : Fin 2) * 2048 + 2048; rw [e0]; omega
  | ⟨1, _⟩ => show win0_4.index t (1 : Fin 2) * 1024 ≤ (i 1).val ∧ (i 1).val < win0_4.index t (1 : Fin 2) * 1024 + 1024; rw [e1]; omega

/-- The output array after the call: `G`, when at every point of the last contraction block the output buffer holds `G` at the
    block's rows and columns. -/
theorem arrAt0_eq (c : Dev nD) (G : S8192x4096.Idx → Elt F .f32)
    (hG : ∀ (t : Fin cfg0.N), t.val % 4 = 3 → ∀ (p : Fin 2048) (q : Fin 1024),
        ((outsAt0 V c t).1 : S2048x1024.Idx → Elt F .f32) (ix2 p q)
          = G (ix2 (⟨2048 * (t.val / 16) + p.val, by have hN : t.val < 64 := lt_of_lt_of_eq t.isLt N_0; have := p.isLt; omega⟩ : Fin 8192)
                   (⟨1024 * ((t.val / 4) % 4) + q.val, by have := q.isLt; omega⟩ : Fin 4096))) :
    (dat0 V c).arrAt 4 cfg0.N = G :=
  (dat0 V c).arrAt_eq_of_cover 4 G (fun t hf => flushed0_4_eq V c G hG t hf) cover0_4

end

end Cert.KernelIdeal.Hand

end
-- ==== Proof.Payload.lean ====
/-
  The kernel body's arithmetic, read at one element, at exact arithmetic.

  The body stores one of two values into its running-sum block.  On the first visit of a block of the
  contraction axis it stores the zero word everywhere.  On every visit it stores the running sum plus
  three block products, `hi·hi + hi·lo` first and then `lo·hi`, each a product of a `[2048, 1024]` block
  (contracted on its second axis) with a `[1024, 1024]` block (contracted on its first axis) into a zero
  accumulator.  At element `(p, q)` such a product is `∑ d, a (p, d) · b (d, q)`.  The three launches of the
  kernel have the same body, so the same two facts hold for each.
-/
import proofs.«111175_j26250840113720_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## One block product at an element -/

/-- The dimension numbers of the body's three products: the left operand contracted on its axis 1, the right on its axis 0. -/
abbrev D : DotDims S2048x1024 S1024x1024 S2048x1024 := dot_S2048x1024_S1024x1024_S2048x1024_1_0_0_1_n_n

/-- The left operand's row is the output's row. -/
theorem lhs_row (j : S2048x1024.Idx) (k : D.contr.Idx) : (D.lhsIdx j k 0).val = (j 0).val := by
  unfold DotDims.lhsIdx
  rw [dif_neg (show ¬(0 : Fin S2048x1024.rank) ∈ D.lhsBatch by decide),
    dif_pos (show (0 : Fin S2048x1024.rank) ∈ D.lhsNonContracting by decide)]
  rfl

/-- The left operand's column is the contraction position. -/
theorem lhs_col (j : S2048x1024.Idx) (k : D.contr.Idx) : (D.lhsIdx j k 1).val = (k ⟨0, by decide⟩).val :=
  D.lhsIdx_val_of_single rfl j k

/-- The right operand's row is the contraction position. -/
theorem rhs_row (j : S2048x1024.Idx) (k : D.contr.Idx) : (D.rhsIdx j k 0).val = (k ⟨0, by decide⟩).val :=
  D.rhsIdx_val_of_single rfl j k

/-- The right operand's column is the output's column. -/
theorem rhs_col (j : S2048x1024.Idx) (k : D.contr.Idx) : (D.rhsIdx j k 1).val = (j 1).val := by
  unfold DotDims.rhsIdx
  rw [dif_neg (show ¬(1 : Fin S1024x1024.rank) ∈ D.rhsBatch by decide),
    dif_pos (show (1 : Fin S1024x1024.rank) ∈ D.rhsNonContracting by decide)]
  rfl

/-- A block product into the zero accumulator, at element `(p, q)`. -/
theorem mm_at (a : FVec Ideal S2048x1024 .bf16) (b : FVec Ideal S1024x1024 .bf16) (p : Fin 2048) (q : Fin 1024) :
    matmul D none a b (constant (F := Ideal) S2048x1024 .f32 0x00000000#32) (ix2 p q)
      = ∑ d : Fin 1024, a (ix2 p d) * b (ix2 d q) := by
  show FloatOps.matmul D none a b (constant (F := Ideal) S2048x1024 .f32 0x00000000#32) (ix2 p q) = _
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun c => Fin.ext (by
    match c with
    | ⟨0, _⟩ => exact lhs_row _ _
    | ⟨1, _⟩ => exact (lhs_col _ _).trans hk)
  have er : D.rhsIdx (ix2 p q) ((contrEquiv1 D 1024 rfl rfl).symm k) = ix2 k q := funext fun c => Fin.ext (by
    match c with
    | ⟨0, _⟩ => exact (rhs_row _ _).trans hk
    | ⟨1, _⟩ => exact rhs_col _ _)
  rw [el, er]

/-! ## The first launch -/

/-- Launch 0: on the first visit the body stores zero. -/
theorem pay1_at0 (p : Fin 2048) (q : Fin 1024) : (k0_pay1 (F := Ideal)) (ix2 p q) = 0 := by
  unfold k0_pay1
  rw [shapeCast_self]
  exact Ideal.ofBits_zero_f32

/-- Launch 0: on every visit the body stores the running sum plus the three block products. -/
theorem pay2_at0 (v3 v5 : Vec Ideal S2048x1024 .bf16) (v7 v9 : Vec Ideal S1024x1024 .bf16) (v11 : Vec Ideal S2048x1024 .f32)
    (p : Fin 2048) (q : Fin 1024) :
    k0_pay2 v3 v5 v7 v9 v11 (ix2 p q)
      = v11 (ix2 p q) + ((∑ d : Fin 1024, v3 (ix2 p d) * v7 (ix2 d q) + ∑ d : Fin 1024, v3 (ix2 p d) * v9 (ix2 d q))
          + ∑ d : Fin 1024, v5 (ix2 p d) * v7 (ix2 d q)) := by
  unfold k0_pay2
  simp only [shapeCast_self]
  show v11 (ix2 p q) + ((matmul D none v3 v7 (constant (F := Ideal) S2048x1024 .f32 0x00000000#32) (ix2 p q)
      + matmul D none v3 v9 (constant (F := Ideal) S2048x1024 .f32 0x00000000#32) (ix2 p q))
      + matmul D none v5 v7 (constant (F := Ideal) S2048x1024 .f32 0x00000000#32) (ix2 p q)) = _
  rw [mm_at v3 v7 p q, mm_at v3 v9 p q, mm_at v5 v7 p q]

/-! ## The second and third launches: the same body -/

/-- Launch 1 stores the same zero block as launch 0. -/
theorem pay1_1_eq_0 : (k1_pay1 (F := Ideal)) = k0_pay1 (F := Ideal) := rfl

/-- Launch 2 stores the same zero block as launch 0. -/
theorem pay1_2_eq_0 : (k2_pay1 (F := Ideal)) = k0_pay1 (F := Ideal) := rfl

/-- Launch 1 computes the same function of the values it reads as launch 0. -/
theorem pay2_1_eq_0 (v3 v5 : Vec Ideal S2048x1024 .bf16) (v7 v9 : Vec Ideal S1024x1024 .bf16) (v11 : Vec Ideal S2048x1024 .f32) :
    k1_pay2 v3 v5 v7 v9 v11 = k0_pay2 v3 v5 v7 v9 v11 := rfl

/-- Launch 2 computes the same function of the values it reads as launch 0. -/
theorem pay2_2_eq_0 (v3 v5 : Vec Ideal S2048x1024 .bf16) (v7 v9 : Vec Ideal S1024x1024 .bf16) (v11 : Vec Ideal S2048x1024 .f32) :
    k2_pay2 v3 v5 v7 v9 v11 = k0_pay2 v3 v5 v7 v9 v11 := rfl

/-- Launch 1: on the first visit the body stores zero. -/
theorem pay1_at1 (p : Fin 2048) (q : Fin 1024) : (k1_pay1 (F := Ideal)) (ix2 p q) = 0 :=
  (congrFun pay1_1_eq_0 (ix2 p q)).trans (pay1_at0 p q)

/-- Launch 2: on the first visit the body stores zero. -/
theorem pay1_at2 (p : Fin 2048) (q : Fin 1024) : (k2_pay1 (F := Ideal)) (ix2 p q) = 0 :=
  (congrFun pay1_2_eq_0 (ix2 p q)).trans (pay1_at0 p q)

/-- Launch 1: on every visit the body stores the running sum plus the three block products. -/
theorem pay2_at1 (v3 v5 : Vec Ideal S2048x1024 .bf16) (v7 v9 : Vec Ideal S1024x1024 .bf16) (v11 : Vec Ideal S2048x1024 .f32)
    (p : Fin 2048) (q : Fin 1024) :
    k1_pay2 v3 v5 v7 v9 v11 (ix2 p q)
      = v11 (ix2 p q) + ((∑ d : Fin 1024, v3 (ix2 p d) * v7 (ix2 d q) + ∑ d : Fin 1024, v3 (ix2 p d) * v9 (ix2 d q))
          + ∑ d : Fin 1024, v5 (ix2 p d) * v7 (ix2 d q)) :=
  (congrFun (pay2_1_eq_0 v3 v5 v7 v9 v11) (ix2 p q)).trans (pay2_at0 v3 v5 v7 v9 v11 p q)

/-- Launch 2: on every visit the body stores the running sum plus the three block products. -/
theorem pay2_at2 (v3 v5 : Vec Ideal S2048x1024 .bf16) (v7 v9 : Vec Ideal S1024x1024 .bf16) (v11 : Vec Ideal S2048x1024 .f32)
    (p : Fin 2048) (q : Fin 1024) :
    k2_pay2 v3 v5 v7 v9 v11 (ix2 p q)
      = v11 (ix2 p q) + ((∑ d : Fin 1024, v3 (ix2 p d) * v7 (ix2 d q) + ∑ d : Fin 1024, v3 (ix2 p d) * v9 (ix2 d q))
          + ∑ d : Fin 1024, v5 (ix2 p d) * v7 (ix2 d q)) :=
  (congrFun (pay2_2_eq_0 v3 v5 v7 v9 v11) (ix2 p q)).trans (pay2_at0 v3 v5 v7 v9 v11 p q)

end Cert.KernelIdeal.Payload

end
-- ==== Proof.Spec.lean ====
/-
  The mathematics of the LoRA-folded projection, stated once over plain arrays of extended reals.

  One projection of the kernel's program computes, for a row `r` of the flattened activations and an output column `c`,
  the sum over four blocks `k` of the contraction axis of three block products
  (hi·hi + hi·lo + lo·hi), added block by block into a running sum that starts at zero (`blockSum`).
  When the two "lo" arrays vanish this is the plain product `∑ d, XH (r, d) · WH (d, c)` (`blockSum_eq`, in the algebra module).
  The folded weight is `W (c, d) + 1 · ∑ r, A (r, d) · B (c, r)` (`fold`), and the reference's value
  `∑ d, x · W + ∑ r, (∑ d, x · A) · (1 · B)` equals `∑ d, x (b, s, d) · fold (d, h)` (`proj`) on finite inputs, by distributivity.
-/
import Idealize.ShloMosaic.PureOps.Ideal
import Idealize.ShloMosaic.PureOps.Ideal.Laws
import Idealize.ShloMosaic.Lib.ValueIdx

noncomputable section

open scoped BigOperators

namespace Cert.Lora

open Idealize.ShloMosaic Idealize.ShloMosaic.ValueIdx

/-- The activations, `[4, 2048, 4096]`. -/
abbrev Act : Type := (⟨3, ![4, 2048, 4096]⟩ : Shape).Idx → EReal
/-- The flattened activations, `[8192, 4096]`. -/
abbrev Flat : Type := (⟨2, ![8192, 4096]⟩ : Shape).Idx → EReal
/-- A square weight, `[4096, 4096]`. -/
abbrev Sq : Type := (⟨2, ![4096, 4096]⟩ : Shape).Idx → EReal
/-- A down-projection `A`, `[16, 4096]`. -/
abbrev Dn : Type := (⟨2, ![16, 4096]⟩ : Shape).Idx → EReal
/-- An up-projection `B`, `[4096, 16]`. -/
abbrev Up : Type := (⟨2, ![4096, 16]⟩ : Shape).Idx → EReal

/-- Every entry is a real number. -/
def IsFin {α : Type} (f : α → EReal) : Prop := ∀ i, ∃ r : ℝ, f i = (r : EReal)

/-- The LoRA scale, the float `1.0`. -/
def one : EReal := Ideal.ofBits .f32 0x3F800000#32

/-- The folded weight at row `d` (contraction axis) and column `h`: `W (h, d) + 1 · ∑ r, A (r, d) · B (h, r)`. -/
def fold (W : Sq) (A : Dn) (B : Up) (d h : Fin 4096) : EReal :=
  W (ix2 h d) + one * ∑ r : Fin 16, A (ix2 r d) * B (ix2 h r)

/-- The projection at batch `b`, position `s`, feature `h`. -/
def projAt (x : Act) (W : Sq) (A : Dn) (B : Up) (b : Fin 4) (s : Fin 2048) (h : Fin 4096) : EReal :=
  ∑ d : Fin 4096, x (ix3 b s d) * fold W A B d h

/-- The projection as an array. -/
def proj (x : Act) (W : Sq) (A : Dn) (B : Up) : Act := fun i =>
  projAt x W A B (show Fin 4 from i 0) (show Fin 2048 from i 1) (show Fin 4096 from i 2)

theorem proj_ix3 (x : Act) (W : Sq) (A : Dn) (B : Up) (b : Fin 4) (s : Fin 2048) (h : Fin 4096) :
    proj x W A B (ix3 b s h) = projAt x W A B b s h := rfl

/-- The reference's own spelling at `(b, s, h)`: the base product plus the low-rank path. -/
def refAt (x : Act) (W : Sq) (A : Dn) (B : Up) (b : Fin 4) (s : Fin 2048) (h : Fin 4096) : EReal :=
  (∑ d : Fin 4096, x (ix3 b s d) * W (ix2 h d))
    + ∑ r : Fin 16, (∑ d : Fin 4096, x (ix3 b s d) * A (ix2 r d)) * (one * B (ix2 h r))

/-- Position `d` of block `k` of the contraction axis. -/
def kd (k : Fin 4) (d : Fin 1024) : Fin 4096 := ⟨1024 * k.val + d.val, by omega⟩

/-- One grid point's contribution: the three block products of block `k`, in the kernel's order of addition. -/
def term (XH XL : Flat) (WH WL : Sq) (k : Fin 4) (r : Fin 8192) (c : Fin 4096) : EReal :=
  ((∑ d : Fin 1024, XH (ix2 r (kd k d)) * WH (ix2 (kd k d) c))
    + ∑ d : Fin 1024, XH (ix2 r (kd k d)) * WL (ix2 (kd k d) c))
    + ∑ d : Fin 1024, XL (ix2 r (kd k d)) * WH (ix2 (kd k d) c)

/-- The running sum after the four blocks, from zero, in the kernel's order. -/
def blockSum (XH XL : Flat) (WH WL : Sq) (r : Fin 8192) (c : Fin 4096) : EReal :=
  (((0 + term XH XL WH WL 0 r c) + term XH XL WH WL 1 r c) + term XH XL WH WL 2 r c) + term XH XL WH WL 3 r c

end Cert.Lora

end
-- ==== Proof.KernelIdeal0Value.lean ====
/-
  Projection 0 of the idealized program, as one function of the arrays the call finds: the output array ends holding,
  at row `r` and column `c'`, the running sum over the four contraction blocks of the three block products
  (`Cert.Lora.blockSum`). A point's three products are, index by index, sums over the block's 1024 positions of entries
  of the four input arrays (the blocks sit at (row block, contraction block) and (contraction block, column block));
  the running sum after a point is the sum before it plus those products, from zero at the first contraction block; and the
  output block written at a last contraction block is that sum.
-/
import proofs.«111175_j26250840113720_2_alg».proof.Proof.KernelIdeal0Chain
import proofs.«111175_j26250840113720_2_alg».proof.Proof.KernelIdeal0Blocks
import proofs.«111175_j26250840113720_2_alg».proof.Proof.Payload
import proofs.«111175_j26250840113720_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lora Cert.KernelIdeal.Payload
open scoped BigOperators

section
variable (V : (c : Dev nD) → (b : Ref sig .tc) → Buf (Elt Ideal) ((c : Thread nD τ).loc b)) (c : Dev nD)

/-- The four input arrays as the call finds them: activations hi and lo, weight hi and lo. -/
abbrev XH0 : Flat := V c (Pipeline.arrRef spec0 0)
abbrev XL0 : Flat := V c (Pipeline.arrRef spec0 1)
abbrev WH0 : Sq := V c (Pipeline.arrRef spec0 2)
abbrev WL0 : Sq := V c (Pipeline.arrRef spec0 3)

/-- The point's four input blocks, as arrays of extended reals. -/
abbrev xh0 (t : Fin cfg0.N) : Vec Ideal S2048x1024 .bf16 := iblk0 V c 0 t
abbrev xl0 (t : Fin cfg0.N) : Vec Ideal S2048x1024 .bf16 := iblk0 V c 1 t
abbrev wh0 (t : Fin cfg0.N) : Vec Ideal S1024x1024 .bf16 := iblk0 V c 2 t
abbrev wl0 (t : Fin cfg0.N) : Vec Ideal S1024x1024 .bf16 := iblk0 V c 3 t

/-- A point's three block products at `(p, q)` of its blocks. -/
def pointSum0 (t : Fin cfg0.N) (p : Fin 2048) (q : Fin 1024) : EReal :=
  ((∑ d : Fin 1024, xh0 V c t (ix2 p d) * wh0 V c t (ix2 d q))
    + ∑ d : Fin 1024, xh0 V c t (ix2 p d) * wl0 V c t (ix2 d q))
    + ∑ d : Fin 1024, xl0 V c t (ix2 p d) * wh0 V c t (ix2 d q)

/-- They are the contraction block's term of the whole arrays, at the block's row and column offsets. -/
theorem pointSum0_eq (n : ℕ) (hn : n < 64) (k : Fin 4) (hk : k.val = n % 4) (r : Fin 8192) (p : Fin 2048) (hr : r.val = 2048 * (n / 16) + p.val)
    (c' : Fin 4096) (q : Fin 1024) (hc : c'.val = 1024 * ((n / 4) % 4) + q.val) :
    pointSum0 V c (pt0 n) p q = term (XH0 V c) (XL0 V c) (WH0 V c) (WL0 V c) k r c' := by
  have hv : (pt0 n).val = n := Nat.mod_eq_of_lt hn
  unfold pointSum0 term xh0 xl0 wh0 wl0
  simp only [iblk0_0_at, iblk0_1_at, iblk0_2_at, iblk0_3_at]
  have e1 : ∀ d : Fin 1024, (⟨1024 * ((pt0 n).val % 4) + d.val, by have := d.isLt; omega⟩ : Fin 4096) = kd k d :=
    fun d => Fin.ext (by show 1024 * ((pt0 n).val % 4) + d.val = 1024 * k.val + d.val; rw [hv, hk])
  have e2 : ∀ p' : Fin 2048, p' = p → (⟨2048 * ((pt0 n).val / 16) + p'.val, by have := p'.isLt; omega⟩ : Fin 8192) = r :=
    fun p' hp => Fin.ext (by show 2048 * ((pt0 n).val / 16) + p'.val = r.val; rw [hv, hr, hp])
  have e3 : ∀ q' : Fin 1024, q' = q → (⟨1024 * (((pt0 n).val / 4) % 4) + q'.val, by have := q'.isLt; omega⟩ : Fin 4096) = c' :=
    fun q' hq => Fin.ext (by show 1024 * (((pt0 n).val / 4) % 4) + q'.val = c'.val; rw [hv, hc, hq])
  simp only [e1, e2 p rfl, e3 q rfl]

/-- The running sum after position `n`, at an index: the sum before it (zero at a first contraction block) plus the point's
    products. -/
theorem acc0_at (n : ℕ) (p : Fin 2048) (q : Fin 1024) :
    (acc0 V c n : S2048x1024.Idx → EReal) (ix2 p q)
      = (if n % 4 = 0 then 0 else (acc0 V c (n - 1) : S2048x1024.Idx → EReal) (ix2 p q)) + pointSum0 V c (pt0 n) p q := by
  cases n with
  | zero =>
    rw [acc0_zero, pay2_at0, pay1_at0]; rfl
  | succ n =>
    rw [acc0_succ, pay2_at0]
    by_cases h : (n + 1) % 4 = 0
    · rw [if_pos h, if_pos h, pay1_at0]; rfl
    · rw [if_neg h, if_neg h, Nat.add_sub_cancel]; rfl

/-- The output block written at a last contraction block is the block of the whole-array running sum. -/
theorem out0_blockSum (t : Fin cfg0.N) (h3 : t.val % 4 = 3) (p : Fin 2048) (q : Fin 1024) :
    ((outsAt0 V c t).1 : S2048x1024.Idx → EReal) (ix2 p q)
      = blockSum (XH0 V c) (XL0 V c) (WH0 V c) (WL0 V c)
          (⟨2048 * (t.val / 16) + p.val, by have hN : t.val < 64 := lt_of_lt_of_eq t.isLt N_0; have := p.isLt; omega⟩ : Fin 8192)
          (⟨1024 * ((t.val / 4) % 4) + q.val, by have := q.isLt; omega⟩ : Fin 4096) := by
  have hN : t.val < 64 := lt_of_lt_of_eq t.isLt N_0
  rw [out0_at V c t h3]
  rw [acc0_at V c t.val p q, if_neg (by omega),
    acc0_at V c (t.val - 1) p q, if_neg (by omega),
    acc0_at V c (t.val - 1 - 1) p q, if_neg (by omega),
    acc0_at V c (t.val - 1 - 1 - 1) p q, if_pos (by omega)]
  have hp := p.isLt
  have hq := q.isLt
  unfold blockSum
  rw [pointSum0_eq V c (t.val - 1 - 1 - 1) (by omega) 0 (by show 0 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum0_eq V c (t.val - 1 - 1) (by omega) 1 (by show 1 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum0_eq V c (t.val - 1) (by omega) 2 (by show 2 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum0_eq V c t.val (by omega) 3 (by show 3 = _; omega) (⟨2048 * (t.val / 16) + p.val, by omega⟩ : Fin 8192) p (by first | rfl | (dsimp only; omega)) (⟨1024 * ((t.val / 4) % 4) + q.val, by omega⟩ : Fin 4096) q (by first | rfl | (dsimp only; omega))]

/-- So the call's output array ends holding the running sum of the whole arrays. -/
theorem final0 : ((dat0 V c).arrAt 4 cfg0.N : S8192x4096.Idx → EReal)
    = fun j => blockSum (XH0 V c) (XL0 V c) (WH0 V c) (WL0 V c) (show Fin 8192 from j 0) (show Fin 4096 from j 1) :=
  arrAt0_eq V c _ fun t h3 p q => out0_blockSum V c t h3 p q

end

end Cert.KernelIdeal.Hand

end
-- ==== Proof.KernelIdeal1Chain.lean ====
/-
  Projection 1 of the program KernelIdeal: the values the body's three cases leave, and the running sum in closed form.

  Each case of the body ends with one store of the whole `[2048, 1024]` block, so what it leaves is that store's payload,
  and every load reads a whole buffer, so the payload's operands are the buffers' contents themselves.  The payload is
  the body's arithmetic on the four input blocks and on a running sum: the zero block at a point of the first
  contraction block, what the scratch buffer held otherwise.  At a point of the last contraction block the output buffer
  receives a copy of what was just stored to the scratch buffer.
  Hence the scratch buffer after position `n` is given by a recursion on `n` alone: the arithmetic applied to the blocks of
  point `n` and to the zero block when `n ≡ 0 (mod 4)`, to the value after position `n - 1` otherwise; and the output
  buffer at a point `t ≡ 3 (mod 4)` holds that value at `t`.
-/
import proofs.«111175_j26250840113720_2_alg».proof.Proof.KernelIdeal1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: the origin. -/
theorem hz1 : (![0, 0] : Fin 2 → Nat) = fun _ => 0 := funext fun a => by fin_cases a <;> rfl

/-! ## What each case leaves -/

/-- First contraction block: the zero block is stored and read back, so the scratch buffer is left with the arithmetic on the zero block. -/
theorem sout1_A_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond1_0 i) (hc1 : ¬cond1_1 i) (x0 : Vec F S2048x1024 .bf16) (x1 : Vec F S2048x1024 .bf16) (x2 : Vec F S1024x1024 .bf16) (x3 : Vec F S1024x1024 .bf16) :
    sout1_A c i arg3 harg3 arg4 harg4 arg5 harg5 arg6 harg6 arg7 harg7 arg8 harg8 hc0 hc1 x0 x1 x2 x3 = k1_pay2 x0 x1 x2 x3 (k1_pay1 (F := F)) := by
  unfold sout1_A
  rw [View.read_writes_eq_canon _ _ _ (scover1_A c i arg3 harg3 arg4 harg4 arg5 harg5 arg6 harg6 arg7 harg7 arg8 harg8 hc0 hc1 x0 x1 x2 x3)]
  unfold kernelRun1_A
  dsimp only
  sl_unfold_words
  rw [View.canon_cons_unit_zero (S := S2048x1024) hz1, View.readCov_unit_zero (S := S2048x1024) _ hz1]
  simp only [View.readAt_eq_ld, harg3.read_unread, harg4.read_unread, harg5.read_unread, harg6.read_unread,
    View.ld_unit_zero (S := S2048x1024) hz1, View.ld_unit_zero (S := S1024x1024) hz1]

/-- A middle contraction block: the scratch buffer is left with the arithmetic on what it held. -/
theorem sout1_B_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : ¬cond1_1 i) (x0 : Vec F S2048x1024 .bf16) (x1 : Vec F S2048x1024 .bf16) (x2 : Vec F S1024x1024 .bf16) (x3 : Vec F S1024x1024 .bf16) (xs : Vec F S2048x1024 .f32) :
    sout1_B c i arg3 harg3 arg4 harg4 arg5 harg5 arg6 harg6 arg7 harg7 arg8 harg8 hc0 hc1 x0 x1 x2 x3 xs = k1_pay2 x0 x1 x2 x3 xs := by
  unfold sout1_B
  rw [View.read_writes_eq_canon _ _ _ (scover1_B c i arg3 harg3 arg4 harg4 arg5 harg5 arg6 harg6 arg7 harg7 arg8 harg8 hc0 hc1 x0 x1 x2 x3 xs)]
  unfold kernelRun1_B
  dsimp only
  rw [View.canon_unit_zero hz1]
  simp only [View.readAt_eq_ld, harg3.read_unread, harg4.read_unread, harg5.read_unread, harg6.read_unread, harg8.read_unread,
    View.ld_unit_zero (S := S2048x1024) hz1, View.ld_unit_zero (S := S1024x1024) hz1]

/-- The last contraction block: the scratch buffer likewise, -/
theorem sout1_C_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) :
    sout1_C c i arg3 harg3 arg4 harg4 arg5 harg5 arg6 harg6 arg7 harg7 arg8 harg8 hc0 hc1 x0 x1 x2 x3 xs = k1_pay2 x0 x1 x2 x3 xs := by
  unfold sout1_C
  rw [View.read_writes_eq_canon _ _ _ (scover1_C c i arg3 harg3 arg4 harg4 arg5 harg5 arg6 harg6 arg7 harg7 arg8 harg8 hc0 hc1 x0 x1 x2 x3 xs)]
  unfold kernelRun1_C
  dsimp only
  sl_unfold_words
  rw [View.canon_unit_zero hz1]
  simp only [View.readAt_eq_ld, harg3.read_unread, harg4.read_unread, harg5.read_unread, harg6.read_unread, harg8.read_unread,
    View.ld_unit_zero (S := S2048x1024) hz1, View.ld_unit_zero (S := S1024x1024) hz1]

/-- and the output buffer receives the copy of it. -/
theorem out1_C_eq (c : Dev nD) (i : grid1.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond1_0 i) (hc1 : cond1_1 i) (x0 : Vec F S2048x1024 .bf16) (x1 : Vec F S2048x1024 .bf16) (x2 : Vec F S1024x1024 .bf16) (x3 : Vec F S1024x1024 .bf16) (xs : Vec F S2048x1024 .f32) :
    out1_C c i arg3 harg3 arg4 harg4 arg5 harg5 arg6 harg6 arg7 harg7 arg8 harg8 hc0 hc1 x0 x1 x2 x3 xs = k1_pay2 x0 x1 x2 x3 xs := by
  unfold out1_C
  rw [View.read_writes_eq_canon _ _ _ (cover1_C c i arg3 harg3 arg4 harg4 arg5 harg5 arg6 harg6 arg7 harg7 arg8 harg8 hc0 hc1 x0 x1 x2 x3 xs)]
  unfold kernelRun1_C
  dsimp only
  sl_unfold_words
  rw [View.canon_unit_zero hz1, View.readCov_unit_zero (S := S2048x1024) _ hz1]
  simp only [View.readAt_eq_ld, harg3.read_unread, harg4.read_unread, harg5.read_unread, harg6.read_unread, harg8.read_unread,
    View.ld_unit_zero (S := S2048x1024) hz1, View.ld_unit_zero (S := S1024x1024) hz1]

/-! ## The running sum in closed form -/

section
variable (V : (c : Dev nD) → (b : Ref sig .tc) → Buf (Elt F) ((c : Thread nD τ).loc b))

/-- One point's step, whatever its case: the scratch buffer is left with the arithmetic on the point's blocks and on the
    zero block (first contraction block) or on what it held (any other). -/
theorem step1_snd (c : Dev nD) (t : Fin cfg1.N) (prev : Vec F S2048x1024 .f32) :
    (step1 V c t prev).2
      = k1_pay2 (iblk1 V c 0 t) (iblk1 V c 1 t) (iblk1 V c 2 t) (iblk1 V c 3 t) (if t.val % 4 = 0 then k1_pay1 (F := F) else prev) := by
  unfold step1
  by_cases h0 : t.val % 4 = 0
  · rw [dif_pos h0, if_pos h0]
    dsimp only
    exact sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => by have h' := (hcond1_1 t).mp h; omega) (iblk1 V c 0 t) (iblk1 V c 1 t) (iblk1 V c 2 t) (iblk1 V c 3 t)
  · rw [dif_neg h0, if_neg h0]
    by_cases h1 : t.val % 4 = 3
    · rw [dif_pos h1]
      dsimp only
      exact sout1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) prev
    · rw [dif_neg h1]
      dsimp only
      exact sout1_B_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) prev

/-- At a point of the last contraction block the output buffer is left with the same value. -/
theorem step1_fst (c : Dev nD) (t : Fin cfg1.N) (prev : Vec F S2048x1024 .f32) (h1 : t.val % 4 = 3) :
    (step1 V c t prev).1 = k1_pay2 (iblk1 V c 0 t) (iblk1 V c 1 t) (iblk1 V c 2 t) (iblk1 V c 3 t) prev := by
  have h0 : ¬t.val % 4 = 0 := by omega
  unfold step1
  rw [dif_neg h0, dif_pos h1]
  dsimp only
  exact out1_C_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) prev

/-- The running sum after position `n`: the arithmetic on the blocks of point `n` and on the zero block when `n` starts a
    run of four contraction blocks, on the sum after position `n - 1` otherwise. -/
def acc1 (c : Dev nD) : ℕ → Vec F S2048x1024 .f32
  | 0 => k1_pay2 (iblk1 V c 0 (pt1 0)) (iblk1 V c 1 (pt1 0)) (iblk1 V c 2 (pt1 0)) (iblk1 V c 3 (pt1 0)) (k1_pay1 (F := F))
  | n + 1 => k1_pay2 (iblk1 V c 0 (pt1 (n + 1))) (iblk1 V c 1 (pt1 (n + 1))) (iblk1 V c 2 (pt1 (n + 1))) (iblk1 V c 3 (pt1 (n + 1))) (if (n + 1) % 4 = 0 then k1_pay1 (F := F) else acc1 c n)

theorem acc1_zero (c : Dev nD) :
    acc1 V c 0 = k1_pay2 (iblk1 V c 0 (pt1 0)) (iblk1 V c 1 (pt1 0)) (iblk1 V c 2 (pt1 0)) (iblk1 V c 3 (pt1 0)) (k1_pay1 (F := F)) := rfl
theorem acc1_succ (c : Dev nD) (n : ℕ) :
    acc1 V c (n + 1) = k1_pay2 (iblk1 V c 0 (pt1 (n + 1))) (iblk1 V c 1 (pt1 (n + 1))) (iblk1 V c 2 (pt1 (n + 1))) (iblk1 V c 3 (pt1 (n + 1))) (if (n + 1) % 4 = 0 then k1_pay1 (F := F) else acc1 V c n) := rfl

/-- The residue mod 4 of the point at position `n` is that of `n`: 4 divides the number of points. -/
theorem pt1_mod (n : ℕ) : (pt1 n).val % 4 = n % 4 := by
  show n % 64 % 4 = n % 4
  omega

/-- The scratch buffer after position `n` holds the running sum. -/
theorem scr1_eq (c : Dev nD) (n : ℕ) : scr1 V c n = acc1 V c n := by
  induction n with
  | zero =>
    show (step1 V c (pt1 0) (idleOut1 (F := F))).2 = acc1 V c 0
    rw [step1_snd, acc1_zero, if_pos (pt1_mod 0)]
  | succ n ih =>
    show (step1 V c (pt1 (n + 1)) (scr1 V c n)).2 = acc1 V c (n + 1)
    rw [step1_snd, acc1_succ, ih, pt1_mod]

/-- At a point of the last contraction block the output buffer holds the running sum after that point. -/
theorem out1_at (c : Dev nD) (t : Fin cfg1.N) (h1 : t.val % 4 = 3) : (outsAt1 V c t).1 = acc1 V c t.val := by
  obtain ⟨n, hn⟩ := t
  cases n with
  | zero => exact absurd (show (0 : ℕ) % 4 = 3 from h1) (by decide)
  | succ m =>
    show (step1 V c ⟨m + 1, hn⟩ (scr1 V c (m + 1 - 1))).1 = acc1 V c (m + 1)
    have h0 : ¬(m + 1) % 4 = 0 := by
      have : (m + 1) % 4 = 3 := h1
      omega
    rw [step1_fst V c ⟨m + 1, hn⟩ _ h1, Nat.add_sub_cancel, scr1_eq, acc1_succ, if_neg h0,
      show pt1 (m + 1) = (⟨m + 1, hn⟩ : Fin cfg1.N) from pt1_val ⟨m + 1, hn⟩]

end

end Cert.KernelIdeal.Hand

end
-- ==== Proof.KernelIdeal1Blocks.lean ====
/-
  Projection 1 of the program KernelIdeal: where a window's block sits in its array, and the output array from its blocks.
  At grid point `t` the row block is `t / 16`, the column block `(t / 4) % 4` and the contraction block `t % 4`. The two
  activation windows read rows `2048 · (t / 16) + p` and contraction positions `1024 · (t % 4) + d`; the two weight windows read
  contraction positions `1024 · (t % 4) + d` and columns `1024 · ((t / 4) % 4) + q`; the output window writes rows
  `2048 · (t / 16) + p` and columns `1024 · ((t / 4) % 4) + q`, and it is written back at the last contraction block only
  (`t % 4 = 3`). The sixteen blocks written back tile the output array: the point that covers `(r, c')` is
  `16 · (r / 2048) + 4 · (c' / 1024) + 3`.
-/
import proofs.«111175_j26250840113720_2_alg».proof.Proof.KernelIdeal1Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The index maps, decided over the grid -/

/-- Window 0's block index at point `t`: (row block, contraction block). -/
theorem idx1_0 : ∀ t : Fin cfg1.N, win1_0.index t (0 : Fin 2) = t.val / 16 ∧ win1_0.index t (1 : Fin 2) = t.val % 4 :=
  (by decide +kernel : ∀ t : Fin grid1.N, _)
/-- Window 1's: the same. -/
theorem idx1_1 : ∀ t : Fin cfg1.N, win1_1.index t (0 : Fin 2) = t.val / 16 ∧ win1_1.index t (1 : Fin 2) = t.val % 4 :=
  (by decide +kernel : ∀ t : Fin grid1.N, _)
/-- Window 2's: (contraction block, column block). -/
theorem idx1_2 : ∀ t : Fin cfg1.N, win1_2.index t (0 : Fin 2) = t.val % 4 ∧ win1_2.index t (1 : Fin 2) = (t.val / 4) % 4 :=
  (by decide +kernel : ∀ t : Fin grid1.N, _)
/-- Window 3's: the same. -/
theorem idx1_3 : ∀ t : Fin cfg1.N, win1_3.index t (0 : Fin 2) = t.val % 4 ∧ win1_3.index t (1 : Fin 2) = (t.val / 4) % 4 :=
  (by decide +kernel : ∀ t : Fin grid1.N, _)
/-- The output window's: (row block, column block). -/
theorem idx1_4 : ∀ t : Fin cfg1.N, win1_4.index t (0 : Fin 2) = t.val / 16 ∧ win1_4.index t (1 : Fin 2) = (t.val / 4) % 4 :=
  (by decide +kernel : ∀ t : Fin grid1.N, _)

section
variable (V : (c : Dev nD) → (b : Ref sig .tc) → Buf (Elt F) ((c : Thread nD τ).loc b))

/-! ## An input block's element, in its array -/

/-- Element `(p, d)` of window 0's block at point `t` is the array's element at row `2048 · (t / 16) + p`, contraction position
    `1024 · (t % 4) + d`. -/
theorem iblk1_0_at (c : Dev nD) (t : Fin cfg1.N) (p : Fin 2048) (d : Fin 1024) :
    (iblk1 V c 0 t : S2048x1024.Idx → Elt F .bf16) (ix2 p d)
      = (V c (Pipeline.arrRef spec1 0) : S8192x4096.Idx → Elt F .bf16)
          (ix2 (⟨2048 * (t.val / 16) + p.val, by have hN : t.val < 64 := lt_of_lt_of_eq t.isLt N_1; have := p.isLt; omega⟩ : Fin 8192)
               (⟨1024 * (t.val % 4) + d.val, by have := d.isLt; omega⟩ : Fin 4096)) := by
  obtain ⟨e0, e1⟩ := idx1_0 t
  unfold iblk1
  rw [View.read_apply]
  show (V c (Pipeline.arrRef spec1 0) : S8192x4096.Idx → Elt F .bf16) (((cfg1.win 0).blk t).view.emb (ix2 p d)) = _
  refine congrArg _ ?_
  funext a
  apply Fin.ext
  match a with
  | ⟨0, _⟩ => show win1_0.index t (0 : Fin 2) * 2048 + 1 * p.val = 2048 * (t.val / 16) + p.val; rw [e0]; omega
  | ⟨1, _⟩ => show win1_0.index t (1 : Fin 2) * 1024 + 1 * d.val = 1024 * (t.val % 4) + d.val; rw [e1]; omega

/-- Element `(p, d)` of window 1's block at point `t` is the array's element at row `2048 · (t / 16) + p`, contraction position
    `1024 · (t % 4) + d`. -/
theorem iblk1_1_at (c : Dev nD) (t : Fin cfg1.N) (p : Fin 2048) (d : Fin 1024) :
    (iblk1 V c 1 t : S2048x1024.Idx → Elt F .bf16) (ix2 p d)
      = (V c (Pipeline.arrRef spec1 1) : S8192x4096.Idx → Elt F .bf16)
          (ix2 (⟨2048 * (t.val / 16) + p.val, by have hN : t.val < 64 := lt_of_lt_of_eq t.isLt N_1; have := p.isLt; omega⟩ : Fin 8192)
               (⟨1024 * (t.val % 4) + d.val, by have := d.isLt; omega⟩ : Fin 4096)) := by
  obtain ⟨e0, e1⟩ := idx1_1 t
  unfold iblk1
  rw [View.read_apply]
  show (V c (Pipeline.arrRef spec1 1) : S8192x4096.Idx → Elt F .bf16) (((cfg1.win 1).blk t).view.emb (ix2 p d)) = _
  refine congrArg _ ?_
  funext a
  apply Fin.ext
  match a with
  | ⟨0, _⟩ => show win1_1.index t (0 : Fin 2) * 2048 + 1 * p.val = 2048 * (t.val / 16) + p.val; rw [e0]; omega
  | ⟨1, _⟩ => show win1_1.index t (1 : Fin 2) * 1024 + 1 * d.val = 1024 * (t.val % 4) + d.val; rw [e1]; omega

/-- Element `(d, q)` of window 2's block at point `t` is the array's element at contraction position `1024 · (t % 4) + d`, column
    `1024 · ((t / 4) % 4) + q`. -/
theorem iblk1_2_at (c : Dev nD) (t : Fin cfg1.N) (d : Fin 1024) (q : Fin 1024) :
    (iblk1 V c 2 t : S1024x1024.Idx → Elt F .bf16) (ix2 d q)
      = (V c (Pipeline.arrRef spec1 2) : S4096x4096.Idx → Elt F .bf16)
          (ix2 (⟨1024 * (t.val % 4) + d.val, by have := d.isLt; omega⟩ : Fin 4096)
               (⟨1024 * ((t.val / 4) % 4) + q.val, by have := q.isLt; omega⟩ : Fin 4096)) := by
  obtain ⟨e0, e1⟩ := idx1_2 t
  unfold iblk1
  rw [View.read_apply]
  show (V c (Pipeline.arrRef spec1 2) : S4096x4096.Idx → Elt F .bf16) (((cfg1.win 2).blk t).view.emb (ix2 d q)) = _
  refine congrArg _ ?_
  funext a
  apply Fin.ext
  match a with
  | ⟨0, _⟩ => show win1_2.index t (0 : Fin 2) * 1024 + 1 * d.val = 1024 * (t.val % 4) + d.val; rw [e0]; omega
  | ⟨1, _⟩ => show win1_2.index t (1 : Fin 2) * 1024 + 1 * q.val = 1024 * ((t.val / 4) % 4) + q.val; rw [e1]; omega

/-- Element `(d, q)` of window 3's block at point `t` is the array's element at contraction position `1024 · (t % 4) + d`, column
    `1024 · ((t / 4) % 4) + q`. -/
theorem iblk1_3_at (c : Dev nD) (t : Fin cfg1.N) (d : Fin 1024) (q : Fin 1024) :
    (iblk1 V c 3 t : S1024x1024.Idx → Elt F .bf16) (ix2 d q)
      = (V c (Pipeline.arrRef spec1 3) : S4096x4096.Idx → Elt F .bf16)
          (ix2 (⟨1024 * (t.val % 4) + d.val, by have := d.isLt; omega⟩ : Fin 4096)
               (⟨1024 * ((t.val / 4) % 4) + q.val, by have := q.isLt; omega⟩ : Fin 4096)) := by
  obtain ⟨e0, e1⟩ := idx1_3 t
  unfold iblk1
  rw [View.read_apply]
  show (V c (Pipeline.arrRef spec1 3) : S4096x4096.Idx → Elt F .bf16) (((cfg1.win 3).blk t).view.emb (ix2 d q)) = _
  refine congrArg _ ?_
  funext a
  apply Fin.ext
  match a with
  | ⟨0, _⟩ => show win1_3.index t (0 : Fin 2) * 1024 + 1 * d.val = 1024 * (t.val % 4) + d.val; rw [e0]; omega
  | ⟨1, _⟩ => show win1_3.index t (1 : Fin 2) * 1024 + 1 * q.val = 1024 * ((t.val / 4) % 4) + q.val; rw [e1]; omega

/-! ## The output array from its blocks -/

/-- An index of the output array is in point `t`'s block iff each coordinate is in the block's range on its axis. -/
theorem mem_blk1_4 (t : Fin cfg1.N) (i : S8192x4096.Idx) :
    i ∈ ((cfg1.win 4).blk t).view.set ↔ ∀ a : Fin 2, win1_4.index t a * S2048x1024.size a ≤ (i a).val
      ∧ (i a).val < win1_4.index t a * S2048x1024.size a + S2048x1024.size a := by
  show i ∈ ((View.whole (Pipeline.arrRef spec1 4)).slice (win1_4.rect t)).set ↔ _
  rw [View.set_slice_whole, Rect.mem_set_unit]
  exact Iff.rfl

/-- What a point of the last contraction block writes back is its block of `G`, when the output buffer there holds `G` at the
    block's rows and columns. -/
theorem flushed1_4_eq (c : Dev nD) (G : S8192x4096.Idx → Elt F .f32)
    (hG : ∀ (t : Fin cfg1.N), t.val % 4 = 3 → ∀ (p : Fin 2048) (q : Fin 1024),
        ((outsAt1 V c t).1 : S2048x1024.Idx → Elt F .f32) (ix2 p q)
          = G (ix2 (⟨2048 * (t.val / 16) + p.val, by have hN : t.val < 64 := lt_of_lt_of_eq t.isLt N_1; have := p.isLt; omega⟩ : Fin 8192)
                   (⟨1024 * ((t.val / 4) % 4) + q.val, by have := q.isLt; omega⟩ : Fin 4096)))
    (t : Fin cfg1.N) (hf : (cfg1.win 4).flush t = true) :
    (dat1 V c).flushed 4 t = ((cfg1.win 4).blk t).view.read (Elt F) G := by
  have h3 : t.val % 4 = 3 := (flush1_4 t).mp hf
  obtain ⟨e0, e1⟩ := idx1_4 t
  show (cfg1.win 4).cut (grid1.coords t) ((dat1 V c).after 4 t) = _
  rw [after1_4]
  funext j
  rw [View.read_apply]
  have hj : (cfg1.win 4).xinj (grid1.coords t) j = ix2 (show Fin 2048 from j 0) (show Fin 1024 from j 1) := by
    funext a; match a with | ⟨0, _⟩ => rfl | ⟨1, _⟩ => rfl
  show ((outsAt1 V c t).1 : S2048x1024.Idx → Elt F .f32) ((cfg1.win 4).xinj (grid1.coords t) j) = G (((cfg1.win 4).blk t).view.emb j)
  rw [hj, hG t h3]
  refine congrArg G ?_
  funext a
  apply Fin.ext
  match a with
  | ⟨0, _⟩ => show 2048 * (t.val / 16) + (j 0).val = win1_4.index t (0 : Fin 2) * 2048 + 1 * (j 0).val; rw [e0]; omega
  | ⟨1, _⟩ => show 1024 * ((t.val / 4) % 4) + (j 1).val = win1_4.index t (1 : Fin 2) * 1024 + 1 * (j 1).val; rw [e1]; omega

/-- Every index of the output array is in the block some point of the last contraction block writes back. -/
theorem cover1_4 (i : S8192x4096.Idx) :
    ∃ t : Fin cfg1.N, (cfg1.win 4).flush t = true ∧ i ∈ ((cfg1.win 4).blk t).view.set := by
  have h0 : (i 0).val < 8192 := (i 0).isLt
  have h1 : (i 1).val < 4096 := (i 1).isLt
  have hlt : 16 * ((i 0).val / 2048) + 4 * ((i 1).val / 1024) + 3 < cfg1.N := by
    rw [show cfg1.N = 64 from N_1]; omega
  obtain ⟨t, ht⟩ : ∃ t : Fin cfg1.N, t.val = 16 * ((i 0).val / 2048) + 4 * ((i 1).val / 1024) + 3 := ⟨⟨_, hlt⟩, rfl⟩
  obtain ⟨e0, e1⟩ := idx1_4 t
  refine ⟨t, (flush1_4 t).mpr (by omega), ?_⟩
  rw [mem_blk1_4]
  intro a
  match a with
  | ⟨0, _⟩ => show win1_4.index t (0 : Fin 2) * 2048 ≤ (i 0).val ∧ (i 0).val < win1_4.index t (0 : Fin 2) * 2048 + 2048; rw [e0]; omega
  | ⟨1, _⟩ => show win1_4.index t (1 : Fin 2) * 1024 ≤ (i 1).val ∧ (i 1).val < win1_4.index t (1 : Fin 2) * 1024 + 1024; rw [e1]; omega

/-- The output array after the call: `G`, when at every point of the last contraction block the output buffer holds `G` at the
    block's rows and columns. -/
theorem arrAt1_eq (c : Dev nD) (G : S8192x4096.Idx → Elt F .f32)
    (hG : ∀ (t : Fin cfg1.N), t.val % 4 = 3 → ∀ (p : Fin 2048) (q : Fin 1024),
        ((outsAt1 V c t).1 : S2048x1024.Idx → Elt F .f32) (ix2 p q)
          = G (ix2 (⟨2048 * (t.val / 16) + p.val, by have hN : t.val < 64 := lt_of_lt_of_eq t.isLt N_1; have := p.isLt; omega⟩ : Fin 8192)
                   (⟨1024 * ((t.val / 4) % 4) + q.val, by have := q.isLt; omega⟩ : Fin 4096))) :
    (dat1 V c).arrAt 4 cfg1.N = G :=
  (dat1 V c).arrAt_eq_of_cover 4 G (fun t hf => flushed1_4_eq V c G hG t hf) cover1_4

end

end Cert.KernelIdeal.Hand

end
-- ==== Proof.KernelIdeal1Value.lean ====
/-
  Projection 1 of the idealized program, as one function of the arrays the call finds: the output array ends holding,
  at row `r` and column `c'`, the running sum over the four contraction blocks of the three block products
  (`Cert.Lora.blockSum`). A point's three products are, index by index, sums over the block's 1024 positions of entries
  of the four input arrays (the blocks sit at (row block, contraction block) and (contraction block, column block));
  the running sum after a point is the sum before it plus those products, from zero at the first contraction block; and the
  output block written at a last contraction block is that sum.
-/
import proofs.«111175_j26250840113720_2_alg».proof.Proof.KernelIdeal1Chain
import proofs.«111175_j26250840113720_2_alg».proof.Proof.KernelIdeal1Blocks
import proofs.«111175_j26250840113720_2_alg».proof.Proof.Payload
import proofs.«111175_j26250840113720_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lora Cert.KernelIdeal.Payload
open scoped BigOperators

section
variable (V : (c : Dev nD) → (b : Ref sig .tc) → Buf (Elt Ideal) ((c : Thread nD τ).loc b)) (c : Dev nD)

/-- The four input arrays as the call finds them: activations hi and lo, weight hi and lo. -/
abbrev XH1 : Flat := V c (Pipeline.arrRef spec1 0)
abbrev XL1 : Flat := V c (Pipeline.arrRef spec1 1)
abbrev WH1 : Sq := V c (Pipeline.arrRef spec1 2)
abbrev WL1 : Sq := V c (Pipeline.arrRef spec1 3)

/-- The point's four input blocks, as arrays of extended reals. -/
abbrev xh1 (t : Fin cfg1.N) : Vec Ideal S2048x1024 .bf16 := iblk1 V c 0 t
abbrev xl1 (t : Fin cfg1.N) : Vec Ideal S2048x1024 .bf16 := iblk1 V c 1 t
abbrev wh1 (t : Fin cfg1.N) : Vec Ideal S1024x1024 .bf16 := iblk1 V c 2 t
abbrev wl1 (t : Fin cfg1.N) : Vec Ideal S1024x1024 .bf16 := iblk1 V c 3 t

/-- A point's three block products at `(p, q)` of its blocks. -/
def pointSum1 (t : Fin cfg1.N) (p : Fin 2048) (q : Fin 1024) : EReal :=
  ((∑ d : Fin 1024, xh1 V c t (ix2 p d) * wh1 V c t (ix2 d q))
    + ∑ d : Fin 1024, xh1 V c t (ix2 p d) * wl1 V c t (ix2 d q))
    + ∑ d : Fin 1024, xl1 V c t (ix2 p d) * wh1 V c t (ix2 d q)

/-- They are the contraction block's term of the whole arrays, at the block's row and column offsets. -/
theorem pointSum1_eq (n : ℕ) (hn : n < 64) (k : Fin 4) (hk : k.val = n % 4) (r : Fin 8192) (p : Fin 2048) (hr : r.val = 2048 * (n / 16) + p.val)
    (c' : Fin 4096) (q : Fin 1024) (hc : c'.val = 1024 * ((n / 4) % 4) + q.val) :
    pointSum1 V c (pt1 n) p q = term (XH1 V c) (XL1 V c) (WH1 V c) (WL1 V c) k r c' := by
  have hv : (pt1 n).val = n := Nat.mod_eq_of_lt hn
  unfold pointSum1 term xh1 xl1 wh1 wl1
  simp only [iblk1_0_at, iblk1_1_at, iblk1_2_at, iblk1_3_at]
  have e1 : ∀ d : Fin 1024, (⟨1024 * ((pt1 n).val % 4) + d.val, by have := d.isLt; omega⟩ : Fin 4096) = kd k d :=
    fun d => Fin.ext (by show 1024 * ((pt1 n).val % 4) + d.val = 1024 * k.val + d.val; rw [hv, hk])
  have e2 : ∀ p' : Fin 2048, p' = p → (⟨2048 * ((pt1 n).val / 16) + p'.val, by have := p'.isLt; omega⟩ : Fin 8192) = r :=
    fun p' hp => Fin.ext (by show 2048 * ((pt1 n).val / 16) + p'.val = r.val; rw [hv, hr, hp])
  have e3 : ∀ q' : Fin 1024, q' = q → (⟨1024 * (((pt1 n).val / 4) % 4) + q'.val, by have := q'.isLt; omega⟩ : Fin 4096) = c' :=
    fun q' hq => Fin.ext (by show 1024 * (((pt1 n).val / 4) % 4) + q'.val = c'.val; rw [hv, hc, hq])
  simp only [e1, e2 p rfl, e3 q rfl]

/-- The running sum after position `n`, at an index: the sum before it (zero at a first contraction block) plus the point's
    products. -/
theorem acc1_at (n : ℕ) (p : Fin 2048) (q : Fin 1024) :
    (acc1 V c n : S2048x1024.Idx → EReal) (ix2 p q)
      = (if n % 4 = 0 then 0 else (acc1 V c (n - 1) : S2048x1024.Idx → EReal) (ix2 p q)) + pointSum1 V c (pt1 n) p q := by
  cases n with
  | zero =>
    rw [acc1_zero, pay2_at1, pay1_at1]; rfl
  | succ n =>
    rw [acc1_succ, pay2_at1]
    by_cases h : (n + 1) % 4 = 0
    · rw [if_pos h, if_pos h, pay1_at1]; rfl
    · rw [if_neg h, if_neg h, Nat.add_sub_cancel]; rfl

/-- The output block written at a last contraction block is the block of the whole-array running sum. -/
theorem out1_blockSum (t : Fin cfg1.N) (h3 : t.val % 4 = 3) (p : Fin 2048) (q : Fin 1024) :
    ((outsAt1 V c t).1 : S2048x1024.Idx → EReal) (ix2 p q)
      = blockSum (XH1 V c) (XL1 V c) (WH1 V c) (WL1 V c)
          (⟨2048 * (t.val / 16) + p.val, by have hN : t.val < 64 := lt_of_lt_of_eq t.isLt N_1; have := p.isLt; omega⟩ : Fin 8192)
          (⟨1024 * ((t.val / 4) % 4) + q.val, by have := q.isLt; omega⟩ : Fin 4096) := by
  have hN : t.val < 64 := lt_of_lt_of_eq t.isLt N_1
  rw [out1_at V c t h3]
  rw [acc1_at V c t.val p q, if_neg (by omega),
    acc1_at V c (t.val - 1) p q, if_neg (by omega),
    acc1_at V c (t.val - 1 - 1) p q, if_neg (by omega),
    acc1_at V c (t.val - 1 - 1 - 1) p q, if_pos (by omega)]
  have hp := p.isLt
  have hq := q.isLt
  unfold blockSum
  rw [pointSum1_eq V c (t.val - 1 - 1 - 1) (by omega) 0 (by show 0 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum1_eq V c (t.val - 1 - 1) (by omega) 1 (by show 1 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum1_eq V c (t.val - 1) (by omega) 2 (by show 2 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum1_eq V c t.val (by omega) 3 (by show 3 = _; omega) (⟨2048 * (t.val / 16) + p.val, by omega⟩ : Fin 8192) p (by first | rfl | (dsimp only; omega)) (⟨1024 * ((t.val / 4) % 4) + q.val, by omega⟩ : Fin 4096) q (by first | rfl | (dsimp only; omega))]

/-- So the call's output array ends holding the running sum of the whole arrays. -/
theorem final1 : ((dat1 V c).arrAt 4 cfg1.N : S8192x4096.Idx → EReal)
    = fun j => blockSum (XH1 V c) (XL1 V c) (WH1 V c) (WL1 V c) (show Fin 8192 from j 0) (show Fin 4096 from j 1) :=
  arrAt1_eq V c _ fun t h3 p q => out1_blockSum V c t h3 p q

end

end Cert.KernelIdeal.Hand

end
-- ==== Proof.KernelIdeal2Chain.lean ====
/-
  Projection 2 of the program KernelIdeal: the values the body's three cases leave, and the running sum in closed form.

  Each case of the body ends with one store of the whole `[2048, 1024]` block, so what it leaves is that store's payload,
  and every load reads a whole buffer, so the payload's operands are the buffers' contents themselves.  The payload is
  the body's arithmetic on the four input blocks and on a running sum: the zero block at a point of the first
  contraction block, what the scratch buffer held otherwise.  At a point of the last contraction block the output buffer
  receives a copy of what was just stored to the scratch buffer.
  Hence the scratch buffer after position `n` is given by a recursion on `n` alone: the arithmetic applied to the blocks of
  point `n` and to the zero block when `n ≡ 0 (mod 4)`, to the value after position `n - 1` otherwise; and the output
  buffer at a point `t ≡ 3 (mod 4)` holds that value at `t`.
-/
import proofs.«111175_j26250840113720_2_alg».proof.Proof.KernelIdeal2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: the origin. -/
theorem hz2 : (![0, 0] : Fin 2 → Nat) = fun _ => 0 := funext fun a => by fin_cases a <;> rfl

/-! ## What each case leaves -/

/-- First contraction block: the zero block is stored and read back, so the scratch buffer is left with the arithmetic on the zero block. -/
theorem sout2_A_eq (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i) (x0 : Vec F S2048x1024 .bf16) (x1 : Vec F S2048x1024 .bf16) (x2 : Vec F S1024x1024 .bf16) (x3 : Vec F S1024x1024 .bf16) :
    sout2_A c i arg3 harg3 arg4 harg4 arg5 harg5 arg6 harg6 arg7 harg7 arg8 harg8 hc0 hc1 x0 x1 x2 x3 = k2_pay2 x0 x1 x2 x3 (k2_pay1 (F := F)) := by
  unfold sout2_A
  rw [View.read_writes_eq_canon _ _ _ (scover2_A c i arg3 harg3 arg4 harg4 arg5 harg5 arg6 harg6 arg7 harg7 arg8 harg8 hc0 hc1 x0 x1 x2 x3)]
  unfold kernelRun2_A
  dsimp only
  sl_unfold_words
  rw [View.canon_cons_unit_zero (S := S2048x1024) hz2, View.readCov_unit_zero (S := S2048x1024) _ hz2]
  simp only [View.readAt_eq_ld, harg3.read_unread, harg4.read_unread, harg5.read_unread, harg6.read_unread,
    View.ld_unit_zero (S := S2048x1024) hz2, View.ld_unit_zero (S := S1024x1024) hz2]

/-- A middle contraction block: the scratch buffer is left with the arithmetic on what it held. -/
theorem sout2_B_eq (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i) (x0 : Vec F S2048x1024 .bf16) (x1 : Vec F S2048x1024 .bf16) (x2 : Vec F S1024x1024 .bf16) (x3 : Vec F S1024x1024 .bf16) (xs : Vec F S2048x1024 .f32) :
    sout2_B c i arg3 harg3 arg4 harg4 arg5 harg5 arg6 harg6 arg7 harg7 arg8 harg8 hc0 hc1 x0 x1 x2 x3 xs = k2_pay2 x0 x1 x2 x3 xs := by
  unfold sout2_B
  rw [View.read_writes_eq_canon _ _ _ (scover2_B c i arg3 harg3 arg4 harg4 arg5 harg5 arg6 harg6 arg7 harg7 arg8 harg8 hc0 hc1 x0 x1 x2 x3 xs)]
  unfold kernelRun2_B
  dsimp only
  rw [View.canon_unit_zero hz2]
  simp only [View.readAt_eq_ld, harg3.read_unread, harg4.read_unread, harg5.read_unread, harg6.read_unread, harg8.read_unread,
    View.ld_unit_zero (S := S2048x1024) hz2, View.ld_unit_zero (S := S1024x1024) hz2]

/-- The last contraction block: the scratch buffer likewise, -/
theorem sout2_C_eq (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) :
    sout2_C c i arg3 harg3 arg4 harg4 arg5 harg5 arg6 harg6 arg7 harg7 arg8 harg8 hc0 hc1 x0 x1 x2 x3 xs = k2_pay2 x0 x1 x2 x3 xs := by
  unfold sout2_C
  rw [View.read_writes_eq_canon _ _ _ (scover2_C c i arg3 harg3 arg4 harg4 arg5 harg5 arg6 harg6 arg7 harg7 arg8 harg8 hc0 hc1 x0 x1 x2 x3 xs)]
  unfold kernelRun2_C
  dsimp only
  sl_unfold_words
  rw [View.canon_unit_zero hz2]
  simp only [View.readAt_eq_ld, harg3.read_unread, harg4.read_unread, harg5.read_unread, harg6.read_unread, harg8.read_unread,
    View.ld_unit_zero (S := S2048x1024) hz2, View.ld_unit_zero (S := S1024x1024) hz2]

/-- and the output buffer receives the copy of it. -/
theorem out2_C_eq (c : Dev nD) (i : grid2.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i) (x0 : Vec F S2048x1024 .bf16) (x1 : Vec F S2048x1024 .bf16) (x2 : Vec F S1024x1024 .bf16) (x3 : Vec F S1024x1024 .bf16) (xs : Vec F S2048x1024 .f32) :
    out2_C c i arg3 harg3 arg4 harg4 arg5 harg5 arg6 harg6 arg7 harg7 arg8 harg8 hc0 hc1 x0 x1 x2 x3 xs = k2_pay2 x0 x1 x2 x3 xs := by
  unfold out2_C
  rw [View.read_writes_eq_canon _ _ _ (cover2_C c i arg3 harg3 arg4 harg4 arg5 harg5 arg6 harg6 arg7 harg7 arg8 harg8 hc0 hc1 x0 x1 x2 x3 xs)]
  unfold kernelRun2_C
  dsimp only
  sl_unfold_words
  rw [View.canon_unit_zero hz2, View.readCov_unit_zero (S := S2048x1024) _ hz2]
  simp only [View.readAt_eq_ld, harg3.read_unread, harg4.read_unread, harg5.read_unread, harg6.read_unread, harg8.read_unread,
    View.ld_unit_zero (S := S2048x1024) hz2, View.ld_unit_zero (S := S1024x1024) hz2]

/-! ## The running sum in closed form -/

section
variable (V : (c : Dev nD) → (b : Ref sig .tc) → Buf (Elt F) ((c : Thread nD τ).loc b))

/-- One point's step, whatever its case: the scratch buffer is left with the arithmetic on the point's blocks and on the
    zero block (first contraction block) or on what it held (any other). -/
theorem step2_snd (c : Dev nD) (t : Fin cfg2.N) (prev : Vec F S2048x1024 .f32) :
    (step2 V c t prev).2
      = k2_pay2 (iblk2 V c 0 t) (iblk2 V c 1 t) (iblk2 V c 2 t) (iblk2 V c 3 t) (if t.val % 4 = 0 then k2_pay1 (F := F) else prev) := by
  unfold step2
  by_cases h0 : t.val % 4 = 0
  · rw [dif_pos h0, if_pos h0]
    dsimp only
    exact sout2_A_eq c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => by have h' := (hcond2_1 t).mp h; omega) (iblk2 V c 0 t) (iblk2 V c 1 t) (iblk2 V c 2 t) (iblk2 V c 3 t)
  · rw [dif_neg h0, if_neg h0]
    by_cases h1 : t.val % 4 = 3
    · rw [dif_pos h1]
      dsimp only
      exact sout2_C_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) prev
    · rw [dif_neg h1]
      dsimp only
      exact sout2_B_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) prev

/-- At a point of the last contraction block the output buffer is left with the same value. -/
theorem step2_fst (c : Dev nD) (t : Fin cfg2.N) (prev : Vec F S2048x1024 .f32) (h1 : t.val % 4 = 3) :
    (step2 V c t prev).1 = k2_pay2 (iblk2 V c 0 t) (iblk2 V c 1 t) (iblk2 V c 2 t) (iblk2 V c 3 t) prev := by
  have h0 : ¬t.val % 4 = 0 := by omega
  unfold step2
  rw [dif_neg h0, dif_pos h1]
  dsimp only
  exact out2_C_eq c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) prev

/-- The running sum after position `n`: the arithmetic on the blocks of point `n` and on the zero block when `n` starts a
    run of four contraction blocks, on the sum after position `n - 1` otherwise. -/
def acc2 (c : Dev nD) : ℕ → Vec F S2048x1024 .f32
  | 0 => k2_pay2 (iblk2 V c 0 (pt2 0)) (iblk2 V c 1 (pt2 0)) (iblk2 V c 2 (pt2 0)) (iblk2 V c 3 (pt2 0)) (k2_pay1 (F := F))
  | n + 1 => k2_pay2 (iblk2 V c 0 (pt2 (n + 1))) (iblk2 V c 1 (pt2 (n + 1))) (iblk2 V c 2 (pt2 (n + 1))) (iblk2 V c 3 (pt2 (n + 1))) (if (n + 1) % 4 = 0 then k2_pay1 (F := F) else acc2 c n)

theorem acc2_zero (c : Dev nD) :
    acc2 V c 0 = k2_pay2 (iblk2 V c 0 (pt2 0)) (iblk2 V c 1 (pt2 0)) (iblk2 V c 2 (pt2 0)) (iblk2 V c 3 (pt2 0)) (k2_pay1 (F := F)) := rfl
theorem acc2_succ (c : Dev nD) (n : ℕ) :
    acc2 V c (n + 1) = k2_pay2 (iblk2 V c 0 (pt2 (n + 1))) (iblk2 V c 1 (pt2 (n + 1))) (iblk2 V c 2 (pt2 (n + 1))) (iblk2 V c 3 (pt2 (n + 1))) (if (n + 1) % 4 = 0 then k2_pay1 (F := F) else acc2 V c n) := rfl

/-- The residue mod 4 of the point at position `n` is that of `n`: 4 divides the number of points. -/
theorem pt2_mod (n : ℕ) : (pt2 n).val % 4 = n % 4 := by
  show n % 64 % 4 = n % 4
  omega

/-- The scratch buffer after position `n` holds the running sum. -/
theorem scr2_eq (c : Dev nD) (n : ℕ) : scr2 V c n = acc2 V c n := by
  induction n with
  | zero =>
    show (step2 V c (pt2 0) (idleOut2 (F := F))).2 = acc2 V c 0
    rw [step2_snd, acc2_zero, if_pos (pt2_mod 0)]
  | succ n ih =>
    show (step2 V c (pt2 (n + 1)) (scr2 V c n)).2 = acc2 V c (n + 1)
    rw [step2_snd, acc2_succ, ih, pt2_mod]

/-- At a point of the last contraction block the output buffer holds the running sum after that point. -/
theorem out2_at (c : Dev nD) (t : Fin cfg2.N) (h1 : t.val % 4 = 3) : (outsAt2 V c t).1 = acc2 V c t.val := by
  obtain ⟨n, hn⟩ := t
  cases n with
  | zero => exact absurd (show (0 : ℕ) % 4 = 3 from h1) (by decide)
  | succ m =>
    show (step2 V c ⟨m + 1, hn⟩ (scr2 V c (m + 1 - 1))).1 = acc2 V c (m + 1)
    have h0 : ¬(m + 1) % 4 = 0 := by
      have : (m + 1) % 4 = 3 := h1
      omega
    rw [step2_fst V c ⟨m + 1, hn⟩ _ h1, Nat.add_sub_cancel, scr2_eq, acc2_succ, if_neg h0,
      show pt2 (m + 1) = (⟨m + 1, hn⟩ : Fin cfg2.N) from pt2_val ⟨m + 1, hn⟩]

end

end Cert.KernelIdeal.Hand

end
-- ==== Proof.KernelIdeal2Blocks.lean ====
/-
  Projection 2 of the program KernelIdeal: where a window's block sits in its array, and the output array from its blocks.
  At grid point `t` the row block is `t / 16`, the column block `(t / 4) % 4` and the contraction block `t % 4`. The two
  activation windows read rows `2048 · (t / 16) + p` and contraction positions `1024 · (t % 4) + d`; the two weight windows read
  contraction positions `1024 · (t % 4) + d` and columns `1024 · ((t / 4) % 4) + q`; the output window writes rows
  `2048 · (t / 16) + p` and columns `1024 · ((t / 4) % 4) + q`, and it is written back at the last contraction block only
  (`t % 4 = 3`). The sixteen blocks written back tile the output array: the point that covers `(r, c')` is
  `16 · (r / 2048) + 4 · (c' / 1024) + 3`.
-/
import proofs.«111175_j26250840113720_2_alg».proof.Proof.KernelIdeal2Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The index maps, decided over the grid -/

/-- Window 0's block index at point `t`: (row block, contraction block). -/
theorem idx2_0 : ∀ t : Fin cfg2.N, win2_0.index t (0 : Fin 2) = t.val / 16 ∧ win2_0.index t (1 : Fin 2) = t.val % 4 :=
  (by decide +kernel : ∀ t : Fin grid2.N, _)
/-- Window 1's: the same. -/
theorem idx2_1 : ∀ t : Fin cfg2.N, win2_1.index t (0 : Fin 2) = t.val / 16 ∧ win2_1.index t (1 : Fin 2) = t.val % 4 :=
  (by decide +kernel : ∀ t : Fin grid2.N, _)
/-- Window 2's: (contraction block, column block). -/
theorem idx2_2 : ∀ t : Fin cfg2.N, win2_2.index t (0 : Fin 2) = t.val % 4 ∧ win2_2.index t (1 : Fin 2) = (t.val / 4) % 4 :=
  (by decide +kernel : ∀ t : Fin grid2.N, _)
/-- Window 3's: the same. -/
theorem idx2_3 : ∀ t : Fin cfg2.N, win2_3.index t (0 : Fin 2) = t.val % 4 ∧ win2_3.index t (1 : Fin 2) = (t.val / 4) % 4 :=
  (by decide +kernel : ∀ t : Fin grid2.N, _)
/-- The output window's: (row block, column block). -/
theorem idx2_4 : ∀ t : Fin cfg2.N, win2_4.index t (0 : Fin 2) = t.val / 16 ∧ win2_4.index t (1 : Fin 2) = (t.val / 4) % 4 :=
  (by decide +kernel : ∀ t : Fin grid2.N, _)

section
variable (V : (c : Dev nD) → (b : Ref sig .tc) → Buf (Elt F) ((c : Thread nD τ).loc b))

/-! ## An input block's element, in its array -/

/-- Element `(p, d)` of window 0's block at point `t` is the array's element at row `2048 · (t / 16) + p`, contraction position
    `1024 · (t % 4) + d`. -/
theorem iblk2_0_at (c : Dev nD) (t : Fin cfg2.N) (p : Fin 2048) (d : Fin 1024) :
    (iblk2 V c 0 t : S2048x1024.Idx → Elt F .bf16) (ix2 p d)
      = (V c (Pipeline.arrRef spec2 0) : S8192x4096.Idx → Elt F .bf16)
          (ix2 (⟨2048 * (t.val / 16) + p.val, by have hN : t.val < 64 := lt_of_lt_of_eq t.isLt N_2; have := p.isLt; omega⟩ : Fin 8192)
               (⟨1024 * (t.val % 4) + d.val, by have := d.isLt; omega⟩ : Fin 4096)) := by
  obtain ⟨e0, e1⟩ := idx2_0 t
  unfold iblk2
  rw [View.read_apply]
  show (V c (Pipeline.arrRef spec2 0) : S8192x4096.Idx → Elt F .bf16) (((cfg2.win 0).blk t).view.emb (ix2 p d)) = _
  refine congrArg _ ?_
  funext a
  apply Fin.ext
  match a with
  | ⟨0, _⟩ => show win2_0.index t (0 : Fin 2) * 2048 + 1 * p.val = 2048 * (t.val / 16) + p.val; rw [e0]; omega
  | ⟨1, _⟩ => show win2_0.index t (1 : Fin 2) * 1024 + 1 * d.val = 1024 * (t.val % 4) + d.val; rw [e1]; omega

/-- Element `(p, d)` of window 1's block at point `t` is the array's element at row `2048 · (t / 16) + p`, contraction position
    `1024 · (t % 4) + d`. -/
theorem iblk2_1_at (c : Dev nD) (t : Fin cfg2.N) (p : Fin 2048) (d : Fin 1024) :
    (iblk2 V c 1 t : S2048x1024.Idx → Elt F .bf16) (ix2 p d)
      = (V c (Pipeline.arrRef spec2 1) : S8192x4096.Idx → Elt F .bf16)
          (ix2 (⟨2048 * (t.val / 16) + p.val, by have hN : t.val < 64 := lt_of_lt_of_eq t.isLt N_2; have := p.isLt; omega⟩ : Fin 8192)
               (⟨1024 * (t.val % 4) + d.val, by have := d.isLt; omega⟩ : Fin 4096)) := by
  obtain ⟨e0, e1⟩ := idx2_1 t
  unfold iblk2
  rw [View.read_apply]
  show (V c (Pipeline.arrRef spec2 1) : S8192x4096.Idx → Elt F .bf16) (((cfg2.win 1).blk t).view.emb (ix2 p d)) = _
  refine congrArg _ ?_
  funext a
  apply Fin.ext
  match a with
  | ⟨0, _⟩ => show win2_1.index t (0 : Fin 2) * 2048 + 1 * p.val = 2048 * (t.val / 16) + p.val; rw [e0]; omega
  | ⟨1, _⟩ => show win2_1.index t (1 : Fin 2) * 1024 + 1 * d.val = 1024 * (t.val % 4) + d.val; rw [e1]; omega

/-- Element `(d, q)` of window 2's block at point `t` is the array's element at contraction position `1024 · (t % 4) + d`, column
    `1024 · ((t / 4) % 4) + q`. -/
theorem iblk2_2_at (c : Dev nD) (t : Fin cfg2.N) (d : Fin 1024) (q : Fin 1024) :
    (iblk2 V c 2 t : S1024x1024.Idx → Elt F .bf16) (ix2 d q)
      = (V c (Pipeline.arrRef spec2 2) : S4096x4096.Idx → Elt F .bf16)
          (ix2 (⟨1024 * (t.val % 4) + d.val, by have := d.isLt; omega⟩ : Fin 4096)
               (⟨1024 * ((t.val / 4) % 4) + q.val, by have := q.isLt; omega⟩ : Fin 4096)) := by
  obtain ⟨e0, e1⟩ := idx2_2 t
  unfold iblk2
  rw [View.read_apply]
  show (V c (Pipeline.arrRef spec2 2) : S4096x4096.Idx → Elt F .bf16) (((cfg2.win 2).blk t).view.emb (ix2 d q)) = _
  refine congrArg _ ?_
  funext a
  apply Fin.ext
  match a with
  | ⟨0, _⟩ => show win2_2.index t (0 : Fin 2) * 1024 + 1 * d.val = 1024 * (t.val % 4) + d.val; rw [e0]; omega
  | ⟨1, _⟩ => show win2_2.index t (1 : Fin 2) * 1024 + 1 * q.val = 1024 * ((t.val / 4) % 4) + q.val; rw [e1]; omega

/-- Element `(d, q)` of window 3's block at point `t` is the array's element at contraction position `1024 · (t % 4) + d`, column
    `1024 · ((t / 4) % 4) + q`. -/
theorem iblk2_3_at (c : Dev nD) (t : Fin cfg2.N) (d : Fin 1024) (q : Fin 1024) :
    (iblk2 V c 3 t : S1024x1024.Idx → Elt F .bf16) (ix2 d q)
      = (V c (Pipeline.arrRef spec2 3) : S4096x4096.Idx → Elt F .bf16)
          (ix2 (⟨1024 * (t.val % 4) + d.val, by have := d.isLt; omega⟩ : Fin 4096)
               (⟨1024 * ((t.val / 4) % 4) + q.val, by have := q.isLt; omega⟩ : Fin 4096)) := by
  obtain ⟨e0, e1⟩ := idx2_3 t
  unfold iblk2
  rw [View.read_apply]
  show (V c (Pipeline.arrRef spec2 3) : S4096x4096.Idx → Elt F .bf16) (((cfg2.win 3).blk t).view.emb (ix2 d q)) = _
  refine congrArg _ ?_
  funext a
  apply Fin.ext
  match a with
  | ⟨0, _⟩ => show win2_3.index t (0 : Fin 2) * 1024 + 1 * d.val = 1024 * (t.val % 4) + d.val; rw [e0]; omega
  | ⟨1, _⟩ => show win2_3.index t (1 : Fin 2) * 1024 + 1 * q.val = 1024 * ((t.val / 4) % 4) + q.val; rw [e1]; omega

/-! ## The output array from its blocks -/

/-- An index of the output array is in point `t`'s block iff each coordinate is in the block's range on its axis. -/
theorem mem_blk2_4 (t : Fin cfg2.N) (i : S8192x4096.Idx) :
    i ∈ ((cfg2.win 4).blk t).view.set ↔ ∀ a : Fin 2, win2_4.index t a * S2048x1024.size a ≤ (i a).val
      ∧ (i a).val < win2_4.index t a * S2048x1024.size a + S2048x1024.size a := by
  show i ∈ ((View.whole (Pipeline.arrRef spec2 4)).slice (win2_4.rect t)).set ↔ _
  rw [View.set_slice_whole, Rect.mem_set_unit]
  exact Iff.rfl

/-- What a point of the last contraction block writes back is its block of `G`, when the output buffer there holds `G` at the
    block's rows and columns. -/
theorem flushed2_4_eq (c : Dev nD) (G : S8192x4096.Idx → Elt F .f32)
    (hG : ∀ (t : Fin cfg2.N), t.val % 4 = 3 → ∀ (p : Fin 2048) (q : Fin 1024),
        ((outsAt2 V c t).1 : S2048x1024.Idx → Elt F .f32) (ix2 p q)
          = G (ix2 (⟨2048 * (t.val / 16) + p.val, by have hN : t.val < 64 := lt_of_lt_of_eq t.isLt N_2; have := p.isLt; omega⟩ : Fin 8192)
                   (⟨1024 * ((t.val / 4) % 4) + q.val, by have := q.isLt; omega⟩ : Fin 4096)))
    (t : Fin cfg2.N) (hf : (cfg2.win 4).flush t = true) :
    (dat2 V c).flushed 4 t = ((cfg2.win 4).blk t).view.read (Elt F) G := by
  have h3 : t.val % 4 = 3 := (flush2_4 t).mp hf
  obtain ⟨e0, e1⟩ := idx2_4 t
  show (cfg2.win 4).cut (grid2.coords t) ((dat2 V c).after 4 t) = _
  rw [after2_4]
  funext j
  rw [View.read_apply]
  have hj : (cfg2.win 4).xinj (grid2.coords t) j = ix2 (show Fin 2048 from j 0) (show Fin 1024 from j 1) := by
    funext a; match a with | ⟨0, _⟩ => rfl | ⟨1, _⟩ => rfl
  show ((outsAt2 V c t).1 : S2048x1024.Idx → Elt F .f32) ((cfg2.win 4).xinj (grid2.coords t) j) = G (((cfg2.win 4).blk t).view.emb j)
  rw [hj, hG t h3]
  refine congrArg G ?_
  funext a
  apply Fin.ext
  match a with
  | ⟨0, _⟩ => show 2048 * (t.val / 16) + (j 0).val = win2_4.index t (0 : Fin 2) * 2048 + 1 * (j 0).val; rw [e0]; omega
  | ⟨1, _⟩ => show 1024 * ((t.val / 4) % 4) + (j 1).val = win2_4.index t (1 : Fin 2) * 1024 + 1 * (j 1).val; rw [e1]; omega

/-- Every index of the output array is in the block some point of the last contraction block writes back. -/
theorem cover2_4 (i : S8192x4096.Idx) :
    ∃ t : Fin cfg2.N, (cfg2.win 4).flush t = true ∧ i ∈ ((cfg2.win 4).blk t).view.set := by
  have h0 : (i 0).val < 8192 := (i 0).isLt
  have h1 : (i 1).val < 4096 := (i 1).isLt
  have hlt : 16 * ((i 0).val / 2048) + 4 * ((i 1).val / 1024) + 3 < cfg2.N := by
    rw [show cfg2.N = 64 from N_2]; omega
  obtain ⟨t, ht⟩ : ∃ t : Fin cfg2.N, t.val = 16 * ((i 0).val / 2048) + 4 * ((i 1).val / 1024) + 3 := ⟨⟨_, hlt⟩, rfl⟩
  obtain ⟨e0, e1⟩ := idx2_4 t
  refine ⟨t, (flush2_4 t).mpr (by omega), ?_⟩
  rw [mem_blk2_4]
  intro a
  match a with
  | ⟨0, _⟩ => show win2_4.index t (0 : Fin 2) * 2048 ≤ (i 0).val ∧ (i 0).val < win2_4.index t (0 : Fin 2) * 2048 + 2048; rw [e0]; omega
  | ⟨1, _⟩ => show win2_4.index t (1 : Fin 2) * 1024 ≤ (i 1).val ∧ (i 1).val < win2_4.index t (1 : Fin 2) * 1024 + 1024; rw [e1]; omega

/-- The output array after the call: `G`, when at every point of the last contraction block the output buffer holds `G` at the
    block's rows and columns. -/
theorem arrAt2_eq (c : Dev nD) (G : S8192x4096.Idx → Elt F .f32)
    (hG : ∀ (t : Fin cfg2.N), t.val % 4 = 3 → ∀ (p : Fin 2048) (q : Fin 1024),
        ((outsAt2 V c t).1 : S2048x1024.Idx → Elt F .f32) (ix2 p q)
          = G (ix2 (⟨2048 * (t.val / 16) + p.val, by have hN : t.val < 64 := lt_of_lt_of_eq t.isLt N_2; have := p.isLt; omega⟩ : Fin 8192)
                   (⟨1024 * ((t.val / 4) % 4) + q.val, by have := q.isLt; omega⟩ : Fin 4096))) :
    (dat2 V c).arrAt 4 cfg2.N = G :=
  (dat2 V c).arrAt_eq_of_cover 4 G (fun t hf => flushed2_4_eq V c G hG t hf) cover2_4

end

end Cert.KernelIdeal.Hand

end
-- ==== Proof.KernelIdeal2Value.lean ====
/-
  Projection 2 of the idealized program, as one function of the arrays the call finds: the output array ends holding,
  at row `r` and column `c'`, the running sum over the four contraction blocks of the three block products
  (`Cert.Lora.blockSum`). A point's three products are, index by index, sums over the block's 1024 positions of entries
  of the four input arrays (the blocks sit at (row block, contraction block) and (contraction block, column block));
  the running sum after a point is the sum before it plus those products, from zero at the first contraction block; and the
  output block written at a last contraction block is that sum.
-/
import proofs.«111175_j26250840113720_2_alg».proof.Proof.KernelIdeal2Chain
import proofs.«111175_j26250840113720_2_alg».proof.Proof.KernelIdeal2Blocks
import proofs.«111175_j26250840113720_2_alg».proof.Proof.Payload
import proofs.«111175_j26250840113720_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lora Cert.KernelIdeal.Payload
open scoped BigOperators

section
variable (V : (c : Dev nD) → (b : Ref sig .tc) → Buf (Elt Ideal) ((c : Thread nD τ).loc b)) (c : Dev nD)

/-- The four input arrays as the call finds them: activations hi and lo, weight hi and lo. -/
abbrev XH2 : Flat := V c (Pipeline.arrRef spec2 0)
abbrev XL2 : Flat := V c (Pipeline.arrRef spec2 1)
abbrev WH2 : Sq := V c (Pipeline.arrRef spec2 2)
abbrev WL2 : Sq := V c (Pipeline.arrRef spec2 3)

/-- The point's four input blocks, as arrays of extended reals. -/
abbrev xh2 (t : Fin cfg2.N) : Vec Ideal S2048x1024 .bf16 := iblk2 V c 0 t
abbrev xl2 (t : Fin cfg2.N) : Vec Ideal S2048x1024 .bf16 := iblk2 V c 1 t
abbrev wh2 (t : Fin cfg2.N) : Vec Ideal S1024x1024 .bf16 := iblk2 V c 2 t
abbrev wl2 (t : Fin cfg2.N) : Vec Ideal S1024x1024 .bf16 := iblk2 V c 3 t

/-- A point's three block products at `(p, q)` of its blocks. -/
def pointSum2 (t : Fin cfg2.N) (p : Fin 2048) (q : Fin 1024) : EReal :=
  ((∑ d : Fin 1024, xh2 V c t (ix2 p d) * wh2 V c t (ix2 d q))
    + ∑ d : Fin 1024, xh2 V c t (ix2 p d) * wl2 V c t (ix2 d q))
    + ∑ d : Fin 1024, xl2 V c t (ix2 p d) * wh2 V c t (ix2 d q)

/-- They are the contraction block's term of the whole arrays, at the block's row and column offsets. -/
theorem pointSum2_eq (n : ℕ) (hn : n < 64) (k : Fin 4) (hk : k.val = n % 4) (r : Fin 8192) (p : Fin 2048) (hr : r.val = 2048 * (n / 16) + p.val)
    (c' : Fin 4096) (q : Fin 1024) (hc : c'.val = 1024 * ((n / 4) % 4) + q.val) :
    pointSum2 V c (pt2 n) p q = term (XH2 V c) (XL2 V c) (WH2 V c) (WL2 V c) k r c' := by
  have hv : (pt2 n).val = n := Nat.mod_eq_of_lt hn
  unfold pointSum2 term xh2 xl2 wh2 wl2
  simp only [iblk2_0_at, iblk2_1_at, iblk2_2_at, iblk2_3_at]
  have e1 : ∀ d : Fin 1024, (⟨1024 * ((pt2 n).val % 4) + d.val, by have := d.isLt; omega⟩ : Fin 4096) = kd k d :=
    fun d => Fin.ext (by show 1024 * ((pt2 n).val % 4) + d.val = 1024 * k.val + d.val; rw [hv, hk])
  have e2 : ∀ p' : Fin 2048, p' = p → (⟨2048 * ((pt2 n).val / 16) + p'.val, by have := p'.isLt; omega⟩ : Fin 8192) = r :=
    fun p' hp => Fin.ext (by show 2048 * ((pt2 n).val / 16) + p'.val = r.val; rw [hv, hr, hp])
  have e3 : ∀ q' : Fin 1024, q' = q → (⟨1024 * (((pt2 n).val / 4) % 4) + q'.val, by have := q'.isLt; omega⟩ : Fin 4096) = c' :=
    fun q' hq => Fin.ext (by show 1024 * (((pt2 n).val / 4) % 4) + q'.val = c'.val; rw [hv, hc, hq])
  simp only [e1, e2 p rfl, e3 q rfl]

/-- The running sum after position `n`, at an index: the sum before it (zero at a first contraction block) plus the point's
    products. -/
theorem acc2_at (n : ℕ) (p : Fin 2048) (q : Fin 1024) :
    (acc2 V c n : S2048x1024.Idx → EReal) (ix2 p q)
      = (if n % 4 = 0 then 0 else (acc2 V c (n - 1) : S2048x1024.Idx → EReal) (ix2 p q)) + pointSum2 V c (pt2 n) p q := by
  cases n with
  | zero =>
    rw [acc2_zero, pay2_at2, pay1_at2]; rfl
  | succ n =>
    rw [acc2_succ, pay2_at2]
    by_cases h : (n + 1) % 4 = 0
    · rw [if_pos h, if_pos h, pay1_at2]; rfl
    · rw [if_neg h, if_neg h, Nat.add_sub_cancel]; rfl

/-- The output block written at a last contraction block is the block of the whole-array running sum. -/
theorem out2_blockSum (t : Fin cfg2.N) (h3 : t.val % 4 = 3) (p : Fin 2048) (q : Fin 1024) :
    ((outsAt2 V c t).1 : S2048x1024.Idx → EReal) (ix2 p q)
      = blockSum (XH2 V c) (XL2 V c) (WH2 V c) (WL2 V c)
          (⟨2048 * (t.val / 16) + p.val, by have hN : t.val < 64 := lt_of_lt_of_eq t.isLt N_2; have := p.isLt; omega⟩ : Fin 8192)
          (⟨1024 * ((t.val / 4) % 4) + q.val, by have := q.isLt; omega⟩ : Fin 4096) := by
  have hN : t.val < 64 := lt_of_lt_of_eq t.isLt N_2
  rw [out2_at V c t h3]
  rw [acc2_at V c t.val p q, if_neg (by omega),
    acc2_at V c (t.val - 1) p q, if_neg (by omega),
    acc2_at V c (t.val - 1 - 1) p q, if_neg (by omega),
    acc2_at V c (t.val - 1 - 1 - 1) p q, if_pos (by omega)]
  have hp := p.isLt
  have hq := q.isLt
  unfold blockSum
  rw [pointSum2_eq V c (t.val - 1 - 1 - 1) (by omega) 0 (by show 0 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum2_eq V c (t.val - 1 - 1) (by omega) 1 (by show 1 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum2_eq V c (t.val - 1) (by omega) 2 (by show 2 = _; omega) (⟨2048 * (t.val / 16) + p.val, by omega⟩ : Fin 8192) p (by first | rfl | (dsimp only; omega)) (⟨1024 * ((t.val / 4) % 4) + q.val, by omega⟩ : Fin 4096) q (by first | rfl | (dsimp only; omega)),
    pointSum2_eq V c t.val (by omega) 3 (by show 3 = _; omega) (⟨2048 * (t.val / 16) + p.val, by omega⟩ : Fin 8192) p (by first | rfl | (dsimp only; omega)) (⟨1024 * ((t.val / 4) % 4) + q.val, by omega⟩ : Fin 4096) q (by first | rfl | (dsimp only; omega))]

/-- So the call's output array ends holding the running sum of the whole arrays. -/
theorem final2 : ((dat2 V c).arrAt 4 cfg2.N : S8192x4096.Idx → EReal)
    = fun j => blockSum (XH2 V c) (XL2 V c) (WH2 V c) (WL2 V c) (show Fin 8192 from j 0) (show Fin 4096 from j 1) :=
  arrAt2_eq V c _ fun t h3 p q => out2_blockSum V c t h3 p q

end

end Cert.KernelIdeal.Hand

end
-- ==== Proof.HostPrefix.lean ====
/-
  What the host operations of the kernel program leave in the buffers its three kernels read, at the ideal values.

  Before its three kernels the program computes, on the host, for each projection the folded weight
  `W' (d, h) = W (h, d) + 1 · ∑ r, A (r, d) · B (h, r)` (a low-rank product, a transpose, a broadcast scale, a product and a sum),
  flattens the activations `x` from 4 × 2048 × 4096 to 8192 × 4096, and splits each of these into a "hi" part (the value
  narrowed to the 16-bit format) and a "lo" part (the value less the widened "hi" part, narrowed again). At the ideal
  values narrowing and widening are the identity, so a "hi" part is the value itself and a "lo" part is the value less
  itself. This module reads each of those eight buffers at an index:
  the "hi" activations at `(r, d)` are `x (r / 2048, r % 2048, d)`; a "hi" weight at `(d, h)` is the specification's
  `fold W A B d h`; every "lo" entry is the corresponding "hi" entry less itself.
-/
import proofs.«111175_j26250840113720_2_alg».proof.Proof.Gen.KernelIdeal.Regions
import proofs.«111175_j26250840113720_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (c : Dev nD)

/-! ## The low-rank product read at an index

The host product contracts axis 0 of the down-projection `A` (shape 16 × 4096) with axis 1 of the up-projection `B`
(shape 4096 × 16): entry `(d, h)` of the result is `∑ r, A (r, d) · B (h, r)`. -/

theorem lhsIdx_0 (i : S4096x4096.Idx) (q : dot_S16x4096_S4096x16_S4096x4096_0_1_1_0_n_n.contr.Idx) :
    (dot_S16x4096_S4096x16_S4096x4096_0_1_1_0_n_n.lhsIdx i q 0).val = (q ⟨0, by decide⟩).val :=
  dot_S16x4096_S4096x16_S4096x4096_0_1_1_0_n_n.lhsIdx_val_of_single rfl i q
theorem lhsIdx_1 (i : S4096x4096.Idx) (q : dot_S16x4096_S4096x16_S4096x4096_0_1_1_0_n_n.contr.Idx) :
    (dot_S16x4096_S4096x16_S4096x4096_0_1_1_0_n_n.lhsIdx i q 1).val = (i 0).val := by
  unfold DotDims.lhsIdx
  rw [dif_neg (show ¬(1 : Fin S16x4096.rank) ∈ dot_S16x4096_S4096x16_S4096x4096_0_1_1_0_n_n.lhsBatch by decide), dif_pos (show (1 : Fin S16x4096.rank) ∈ dot_S16x4096_S4096x16_S4096x4096_0_1_1_0_n_n.lhsNonContracting by decide)]
  rfl
theorem rhsIdx_0 (i : S4096x4096.Idx) (q : dot_S16x4096_S4096x16_S4096x4096_0_1_1_0_n_n.contr.Idx) :
    (dot_S16x4096_S4096x16_S4096x4096_0_1_1_0_n_n.rhsIdx i q 0).val = (i 1).val := by
  unfold DotDims.rhsIdx
  rw [dif_neg (show ¬(0 : Fin S4096x16.rank) ∈ dot_S16x4096_S4096x16_S4096x4096_0_1_1_0_n_n.rhsBatch by decide), dif_pos (show (0 : Fin S4096x16.rank) ∈ dot_S16x4096_S4096x16_S4096x4096_0_1_1_0_n_n.rhsNonContracting by decide)]
  rfl
theorem rhsIdx_1 (i : S4096x4096.Idx) (q : dot_S16x4096_S4096x16_S4096x4096_0_1_1_0_n_n.contr.Idx) :
    (dot_S16x4096_S4096x16_S4096x4096_0_1_1_0_n_n.rhsIdx i q 1).val = (q ⟨0, by decide⟩).val :=
  dot_S16x4096_S4096x16_S4096x4096_0_1_1_0_n_n.rhsIdx_val_of_single rfl i q

/-- Entry `(d, h)` of the host product of `A` and `B`. -/
theorem lowRank_apply (A : FVec Ideal S16x4096 .f32) (B : FVec Ideal S4096x16 .f32) (d h : Fin 4096) :
    Host.dotGeneral (F := Ideal) dot_S16x4096_S4096x16_S4096x4096_0_1_1_0_n_n (some .fp32) A B (ix2 d h)
      = ∑ r : Fin 16, A (ix2 r d) * B (ix2 h r) := by
  simp only [Host.dotGeneral]
  rw [Ideal.dotGeneral_apply, ← Equiv.sum_comp (contrEquiv1 dot_S16x4096_S4096x16_S4096x4096_0_1_1_0_n_n 16 rfl rfl).symm]
  refine Finset.sum_congr rfl fun k _ => ?_
  have hk := contrEquiv1_symm_val dot_S16x4096_S4096x16_S4096x4096_0_1_1_0_n_n 16 rfl rfl k
  have el : dot_S16x4096_S4096x16_S4096x4096_0_1_1_0_n_n.lhsIdx (ix2 d h) ((contrEquiv1 dot_S16x4096_S4096x16_S4096x4096_0_1_1_0_n_n 16 rfl rfl).symm k) = ix2 k d := funext fun a => Fin.ext (by
    match a with
    | ⟨0, _⟩ => exact (lhsIdx_0 _ _).trans hk
    | ⟨1, _⟩ => exact lhsIdx_1 _ _)
  have er : dot_S16x4096_S4096x16_S4096x4096_0_1_1_0_n_n.rhsIdx (ix2 d h) ((contrEquiv1 dot_S16x4096_S4096x16_S4096x4096_0_1_1_0_n_n 16 rfl rfl).symm k) = ix2 h k := funext fun a => Fin.ext (by
    match a with
    | ⟨0, _⟩ => exact rhsIdx_0 _ _
    | ⟨1, _⟩ => exact (rhsIdx_1 _ _).trans hk)
  rw [el, er]

/-! ## The folded weight as the host computes it -/

/-- The host's term for a folded weight: the transposed base weight plus the scale (broadcast) times the low-rank product. -/
def foldTerm (W : FVec Ideal S4096x4096 .f32) (A : FVec Ideal S16x4096 .f32) (B : FVec Ideal S4096x16 .f32) : FVec Ideal S4096x4096 .f32 :=
  addf (transpose S4096x4096 [1, 0] W transposes_S4096x4096_S4096x4096_1_0)
    (mulf (broadcastInDim S4096x4096 ![] bcast_S_S4096x4096 (constant (F := Ideal) S_ .f32 0x3F800000#32))
      (Host.dotGeneral (F := Ideal) dot_S16x4096_S4096x16_S4096x4096_0_1_1_0_n_n (some .fp32) A B))

/-- Entry `(d, h)` of the host's folded weight is the specification's `fold`. -/
theorem foldTerm_apply (W : FVec Ideal S4096x4096 .f32) (A : FVec Ideal S16x4096 .f32) (B : FVec Ideal S4096x16 .f32) (d h : Fin 4096) :
    foldTerm W A B (ix2 d h) = Cert.Lora.fold W A B d h := by
  unfold foldTerm Cert.Lora.fold Cert.Lora.one
  rw [addf_apply, mulf_apply, lowRank_apply]
  refine congrArg₂ (· + ·) ?_ (congrArg₂ (· * ·) ?_ rfl)
  · exact transpose_apply [1, 0] W transposes_S4096x4096_S4096x4096_1_0 (ix2 d h) (ix2 h d) (fun b => by
      match b with
      | ⟨0, _⟩ => rfl
      | ⟨1, _⟩ => rfl)
  · exact (broadcastInDim_apply ![] bcast_S_S4096x4096 _ (ix2 d h) ix0 (fun a => a.elim0)).trans rfl

/-! ## The flattened activations read at an index -/

/-- Row `r` of the activations flattened to 8192 × 4096 is position `r % 2048` of batch `r / 2048`. -/
theorem flat_apply (x : FVec Ideal S4x2048x4096 .f32) (r : Fin 8192) (d : Fin 4096) :
    shapeCast S8192x4096 x shapeCasts_S4x2048x4096_S8192x4096 (ix2 r d)
      = x (ix3 (⟨r.val / 2048, by omega⟩ : Fin 4) (⟨r.val % 2048, by omega⟩ : Fin 2048) d) := by
  refine shapeCast_apply x shapeCasts_S4x2048x4096_S8192x4096 (ix2 r d) _ ?_
  rw [Shape.rowMajor_val_two, Shape.rowMajor_val_three]
  show ((r.val / 2048) * 2048 + r.val % 2048) * 4096 + d.val = r.val * 4096 + d.val
  omega

/-- The "lo" part of a value split at bf16: at the ideal values the difference of the value with itself. -/
theorem lo_apply {s : Shape} (a : FVec Ideal s .f32) (i : s.Idx) :
    (truncf .bf16 (subf a (extf .f32 (truncf .bf16 a bitsLt_bf16_f32 : FVec Ideal s .bf16) bitsLt_bf16_f32)) bitsLt_bf16_f32 : FVec Ideal s .bf16) i
      = (truncf .bf16 a bitsLt_bf16_f32 : FVec Ideal s .bf16) i - (truncf .bf16 a bitsLt_bf16_f32 : FVec Ideal s .bf16) i := rfl

/-! ## The arguments of the program, as the launch memory holds them on core `c` -/

/-- The activations `x`. -/
abbrev X : Cert.Lora.Act := m ((c : Thread nD τ).loc main_arg0)
/-- The base weights of the three projections. -/
abbrev Wq : Cert.Lora.Sq := m ((c : Thread nD τ).loc main_arg1)
abbrev Wk : Cert.Lora.Sq := m ((c : Thread nD τ).loc main_arg2)
abbrev Wv : Cert.Lora.Sq := m ((c : Thread nD τ).loc main_arg3)
/-- The down- and up-projections of the three low-rank paths. -/
abbrev Aq : Cert.Lora.Dn := m ((c : Thread nD τ).loc main_arg4)
abbrev Bq : Cert.Lora.Up := m ((c : Thread nD τ).loc main_arg5)
abbrev Ak : Cert.Lora.Dn := m ((c : Thread nD τ).loc main_arg6)
abbrev Bk : Cert.Lora.Up := m ((c : Thread nD τ).loc main_arg7)
abbrev Av : Cert.Lora.Dn := m ((c : Thread nD τ).loc main_arg8)
abbrev Bv : Cert.Lora.Up := m ((c : Thread nD τ).loc main_arg9)

/-! ## The host results the three kernels read

Each is the fold of the host operations at its buffer, read off as the operations' composed term of the arguments,
then read at an index. -/

/-- The buffer the kernels read as the "hi" part of the activations is `x` flattened to 8192 × 4096. -/
theorem v16_eq : (V1 m c (Proc.devRef .tc main_v16) : S8192x4096.Idx → EReal)
    = (truncf .bf16 (shapeCast S8192x4096 (X m c) shapeCasts_S4x2048x4096_S8192x4096 : FVec Ideal S8192x4096 .f32) bitsLt_bf16_f32 : FVec Ideal S8192x4096 .bf16) := by
  show StableHlo.after hostOps0 (fun b => m (c, b)) (Proc.devRef .tc main_v16) = _
  after_results_simp
  rfl

/-- The buffer they read as the "lo" part is the flattened `x` less its round trip through the narrow format. -/
theorem v19_eq : (V1 m c (Proc.devRef .tc main_v19) : S8192x4096.Idx → EReal)
    = (truncf .bf16 (subf (shapeCast S8192x4096 (X m c) shapeCasts_S4x2048x4096_S8192x4096 : FVec Ideal S8192x4096 .f32)
        (extf .f32 (truncf .bf16 (shapeCast S8192x4096 (X m c) shapeCasts_S4x2048x4096_S8192x4096 : FVec Ideal S8192x4096 .f32) bitsLt_bf16_f32 : FVec Ideal S8192x4096 .bf16) bitsLt_bf16_f32)) bitsLt_bf16_f32 : FVec Ideal S8192x4096 .bf16) := by
  show StableHlo.after hostOps0 (fun b => m (c, b)) (Proc.devRef .tc main_v19) = _
  after_results_simp
  rfl

/-- Row `r`, column `d` of the "hi" activations is `x` at batch `r / 2048`, position `r % 2048`, feature `d`. -/
theorem v16_at (r : Fin 8192) (d : Fin 4096) :
    (V1 m c (Proc.devRef .tc main_v16) : S8192x4096.Idx → EReal) (ix2 r d)
      = X m c (ix3 (⟨r.val / 2048, by omega⟩ : Fin 4) (⟨r.val % 2048, by omega⟩ : Fin 2048) d) :=
  (congrFun (v16_eq m c) (ix2 r d)).trans (flat_apply (X m c) r d)

/-- Every entry of the "lo" activations is the "hi" entry less itself. -/
theorem v19_at (i : S8192x4096.Idx) :
    (V1 m c (Proc.devRef .tc main_v19) : S8192x4096.Idx → EReal) i
      = @HSub.hSub EReal EReal EReal _ ((V1 m c (Proc.devRef .tc main_v16) : S8192x4096.Idx → EReal) i)
          ((V1 m c (Proc.devRef .tc main_v16) : S8192x4096.Idx → EReal) i) := by
  rw [congrFun (v19_eq m c) i, congrFun (v16_eq m c) i]
  exact lo_apply _ i

/-- The buffer the first projection's kernel reads as the "hi" part of its weight is the host's folded weight. -/
theorem v20_eq : (V1 m c (Proc.devRef .tc main_v20) : S4096x4096.Idx → EReal)
    = (truncf .bf16 (foldTerm (Wq m c) (Aq m c) (Bq m c)) bitsLt_bf16_f32 : FVec Ideal S4096x4096 .bf16) := by
  show StableHlo.after hostOps0 (fun b => m (c, b)) (Proc.devRef .tc main_v20) = _
  after_results_simp
  rfl

/-- The buffer it reads as the "lo" part is the folded weight less its round trip through the narrow format. -/
theorem v23_eq : (V1 m c (Proc.devRef .tc main_v23) : S4096x4096.Idx → EReal)
    = (truncf .bf16 (subf (foldTerm (Wq m c) (Aq m c) (Bq m c))
        (extf .f32 (truncf .bf16 (foldTerm (Wq m c) (Aq m c) (Bq m c)) bitsLt_bf16_f32 : FVec Ideal S4096x4096 .bf16) bitsLt_bf16_f32)) bitsLt_bf16_f32 : FVec Ideal S4096x4096 .bf16) := by
  show StableHlo.after hostOps0 (fun b => m (c, b)) (Proc.devRef .tc main_v23) = _
  after_results_simp
  rfl

/-- Entry `(d, h)` of the first projection's "hi" weight is the specification's folded weight. -/
theorem v20_at (d h : Fin 4096) :
    (V1 m c (Proc.devRef .tc main_v20) : S4096x4096.Idx → EReal) (ix2 d h) = Cert.Lora.fold (Wq m c) (Aq m c) (Bq m c) d h :=
  (congrFun (v20_eq m c) (ix2 d h)).trans (foldTerm_apply (Wq m c) (Aq m c) (Bq m c) d h)

/-- Every entry of its "lo" weight is the "hi" entry less itself. -/
theorem v23_at (i : S4096x4096.Idx) :
    (V1 m c (Proc.devRef .tc main_v23) : S4096x4096.Idx → EReal) i
      = @HSub.hSub EReal EReal EReal _ ((V1 m c (Proc.devRef .tc main_v20) : S4096x4096.Idx → EReal) i)
          ((V1 m c (Proc.devRef .tc main_v20) : S4096x4096.Idx → EReal) i) := by
  rw [congrFun (v23_eq m c) i, congrFun (v20_eq m c) i]
  exact lo_apply _ i

/-- The buffer the second projection's kernel reads as the "hi" part of its weight is the host's folded weight. -/
theorem v24_eq : (V1 m c (Proc.devRef .tc main_v24) : S4096x4096.Idx → EReal)
    = (truncf .bf16 (foldTerm (Wk m c) (Ak m c) (Bk m c)) bitsLt_bf16_f32 : FVec Ideal S4096x4096 .bf16) := by
  show StableHlo.after hostOps0 (fun b => m (c, b)) (Proc.devRef .tc main_v24) = _
  after_results_simp
  rfl

/-- The buffer it reads as the "lo" part is the folded weight less its round trip through the narrow format. -/
theorem v27_eq : (V1 m c (Proc.devRef .tc main_v27) : S4096x4096.Idx → EReal)
    = (truncf .bf16 (subf (foldTerm (Wk m c) (Ak m c) (Bk m c))
        (extf .f32 (truncf .bf16 (foldTerm (Wk m c) (Ak m c) (Bk m c)) bitsLt_bf16_f32 : FVec Ideal S4096x4096 .bf16) bitsLt_bf16_f32)) bitsLt_bf16_f32 : FVec Ideal S4096x4096 .bf16) := by
  show StableHlo.after hostOps0 (fun b => m (c, b)) (Proc.devRef .tc main_v27) = _
  after_results_simp
  rfl

/-- Entry `(d, h)` of the second projection's "hi" weight is the specification's folded weight. -/
theorem v24_at (d h : Fin 4096) :
    (V1 m c (Proc.devRef .tc main_v24) : S4096x4096.Idx → EReal) (ix2 d h) = Cert.Lora.fold (Wk m c) (Ak m c) (Bk m c) d h :=
  (congrFun (v24_eq m c) (ix2 d h)).trans (foldTerm_apply (Wk m c) (Ak m c) (Bk m c) d h)

/-- Every entry of its "lo" weight is the "hi" entry less itself. -/
theorem v27_at (i : S4096x4096.Idx) :
    (V1 m c (Proc.devRef .tc main_v27) : S4096x4096.Idx → EReal) i
      = @HSub.hSub EReal EReal EReal _ ((V1 m c (Proc.devRef .tc main_v24) : S4096x4096.Idx → EReal) i)
          ((V1 m c (Proc.devRef .tc main_v24) : S4096x4096.Idx → EReal) i) := by
  rw [congrFun (v27_eq m c) i, congrFun (v24_eq m c) i]
  exact lo_apply _ i

/-- The buffer the third projection's kernel reads as the "hi" part of its weight is the host's folded weight. -/
theorem v28_eq : (V1 m c (Proc.devRef .tc main_v28) : S4096x4096.Idx → EReal)
    = (truncf .bf16 (foldTerm (Wv m c) (Av m c) (Bv m c)) bitsLt_bf16_f32 : FVec Ideal S4096x4096 .bf16) := by
  show StableHlo.after hostOps0 (fun b => m (c, b)) (Proc.devRef .tc main_v28) = _
  after_results_simp
  rfl

/-- The buffer it reads as the "lo" part is the folded weight less its round trip through the narrow format. -/
theorem v31_eq : (V1 m c (Proc.devRef .tc main_v31) : S4096x4096.Idx → EReal)
    = (truncf .bf16 (subf (foldTerm (Wv m c) (Av m c) (Bv m c))
        (extf .f32 (truncf .bf16 (foldTerm (Wv m c) (Av m c) (Bv m c)) bitsLt_bf16_f32 : FVec Ideal S4096x4096 .bf16) bitsLt_bf16_f32)) bitsLt_bf16_f32 : FVec Ideal S4096x4096 .bf16) := by
  show StableHlo.after hostOps0 (fun b => m (c, b)) (Proc.devRef .tc main_v31) = _
  after_results_simp
  rfl

/-- Entry `(d, h)` of the third projection's "hi" weight is the specification's folded weight. -/
theorem v28_at (d h : Fin 4096) :
    (V1 m c (Proc.devRef .tc main_v28) : S4096x4096.Idx → EReal) (ix2 d h) = Cert.Lora.fold (Wv m c) (Av m c) (Bv m c) d h :=
  (congrFun (v28_eq m c) (ix2 d h)).trans (foldTerm_apply (Wv m c) (Av m c) (Bv m c) d h)

/-- Every entry of its "lo" weight is the "hi" entry less itself. -/
theorem v31_at (i : S4096x4096.Idx) :
    (V1 m c (Proc.devRef .tc main_v31) : S4096x4096.Idx → EReal) i
      = @HSub.hSub EReal EReal EReal _ ((V1 m c (Proc.devRef .tc main_v28) : S4096x4096.Idx → EReal) i)
          ((V1 m c (Proc.devRef .tc main_v28) : S4096x4096.Idx → EReal) i) := by
  rw [congrFun (v31_eq m c) i, congrFun (v28_eq m c) i]
  exact lo_apply _ i

end Cert.KernelIdeal.HostPrefix

end
-- ==== Proof.Algebra.lean ====
/-
  The pure algebra of the LoRA-folded projection over the extended reals.

  * The scale word denotes the real number one.
  * A finite extended real minus itself is zero (the "lo" part of a split value at exact arithmetic).
  * The folded weight of finite inputs is finite.
  * With vanishing "lo" arrays the blockwise running sum is the plain product over the whole contraction axis:
    every mixed product has a zero factor, and the four blocks of 1024 positions tile the 4096 positions.
  * On finite inputs the reference's value (base product plus low-rank path) is the product with the folded weight:
    distributivity and an exchange of the two finite sums, carried out in the reals.
-/
import proofs.«111175_j26250840113720_2_alg».proof.Proof.Spec

noncomputable section

open scoped BigOperators

namespace Cert.Lora

open Idealize.ShloMosaic Idealize.ShloMosaic.ValueIdx

/-- The scale word `0x3F800000` denotes the real number one. -/
theorem one_eq : one = ((1 : ℝ) : EReal) := by
  unfold one
  simp [Ideal.ofBits, Ideal.ieee, -EReal.coe_mul]
  norm_num

/-- A finite value minus itself is zero. -/
theorem sub_self_fin {x : EReal} (h : ∃ r : ℝ, x = (r : EReal)) : x - x = 0 := by
  obtain ⟨r, rfl⟩ := h
  rw [← EReal.coe_sub, sub_self, EReal.coe_zero]

/-- The coercion from the reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The folded weight of finite inputs is finite. -/
theorem isFin_fold (W : Sq) (A : Dn) (B : Up) (hW : IsFin W) (hA : IsFin A) (hB : IsFin B) (d h : Fin 4096) :
    ∃ r : ℝ, fold W A B d h = (r : EReal) := by
  have hW' : ∀ i, ∃ r : ℝ, W i = (r : EReal) := hW
  have hA' : ∀ i, ∃ r : ℝ, A i = (r : EReal) := hA
  have hB' : ∀ i, ∃ r : ℝ, B i = (r : EReal) := hB
  choose w hw using hW'
  choose a ha using hA'
  choose b hb using hB'
  refine ⟨w (ix2 h d) + 1 * ∑ r : Fin 16, a (ix2 r d) * b (ix2 h r), ?_⟩
  unfold fold
  simp only [hw, ha, hb, one_eq, coe_sum, EReal.coe_add, EReal.coe_mul]

/-- The four blocks of 1024 positions tile the 4096 positions of the contraction axis. -/
private def kdEquiv : Fin 4 × Fin 1024 ≃ Fin 4096 where
  toFun p := kd p.1 p.2
  invFun j := (⟨j.val / 1024, by omega⟩, ⟨j.val % 1024, by omega⟩)
  left_inv p := by
    rcases p with ⟨k, d⟩
    refine Prod.ext (Fin.ext ?_) (Fin.ext ?_)
    · show (1024 * k.val + d.val) / 1024 = k.val
      omega
    · show (1024 * k.val + d.val) % 1024 = d.val
      omega
  right_inv j := by
    refine Fin.ext ?_
    show 1024 * (j.val / 1024) + j.val % 1024 = j.val
    omega

/-- A sum over the blocks and the positions inside a block is the sum over the whole axis. -/
private theorem sum_kd (f : Fin 4096 → EReal) :
    ∑ k : Fin 4, ∑ d : Fin 1024, f (kd k d) = ∑ j : Fin 4096, f j :=
  calc ∑ k : Fin 4, ∑ d : Fin 1024, f (kd k d)
      = ∑ p : Fin 4 × Fin 1024, f (kdEquiv p) := (Fintype.sum_prod_type (fun p => f (kdEquiv p))).symm
    _ = ∑ j : Fin 4096, f j := Equiv.sum_comp kdEquiv f

/-- With vanishing "lo" arrays the blockwise running sum is the plain product. -/
theorem blockSum_eq (XH XL : Flat) (WH WL : Sq) (hXL : ∀ i, XL i = 0) (hWL : ∀ i, WL i = 0) (r : Fin 8192) (c : Fin 4096) :
    blockSum XH XL WH WL r c = ∑ d : Fin 4096, XH (ix2 r d) * WH (ix2 d c) := by
  unfold blockSum term
  simp only [hXL, hWL, mul_zero, zero_mul, Finset.sum_const_zero, add_zero, zero_add]
  rw [← sum_kd (fun j => XH (ix2 r j) * WH (ix2 j c)), Fin.sum_univ_four]

/-- Distributivity and the exchange of the two sums, in the reals. -/
private theorem real_law {ι κ : Type} [Fintype ι] [Fintype κ] (x w : ι → ℝ) (a : κ → ι → ℝ) (b : κ → ℝ) :
    (∑ d, x d * w d) + ∑ r, (∑ d, x d * a r d) * (1 * b r)
      = ∑ d, x d * (w d + 1 * ∑ r, a r d * b r) := by
  simp only [one_mul, mul_add, Finset.sum_add_distrib, Finset.mul_sum, Finset.sum_mul]
  congr 1
  rw [Finset.sum_comm]
  refine Finset.sum_congr rfl fun d _ => Finset.sum_congr rfl fun r _ => ?_
  ring

/-- On finite inputs the reference's value is the product with the folded weight. -/
theorem refAt_eq_projAt (x : Act) (W : Sq) (A : Dn) (B : Up) (hx : IsFin x) (hW : IsFin W) (hA : IsFin A) (hB : IsFin B)
    (b : Fin 4) (s : Fin 2048) (h : Fin 4096) :
    refAt x W A B b s h = projAt x W A B b s h := by
  have hx' : ∀ i, ∃ r : ℝ, x i = (r : EReal) := hx
  have hW' : ∀ i, ∃ r : ℝ, W i = (r : EReal) := hW
  have hA' : ∀ i, ∃ r : ℝ, A i = (r : EReal) := hA
  have hB' : ∀ i, ∃ r : ℝ, B i = (r : EReal) := hB
  choose xr hxr using hx'
  choose wr hwr using hW'
  choose ar har using hA'
  choose br hbr using hB'
  have key := congrArg (fun t : ℝ => (t : EReal))
    (real_law (fun d : Fin 4096 => xr (ix3 b s d)) (fun d : Fin 4096 => wr (ix2 h d))
      (fun (r : Fin 16) (d : Fin 4096) => ar (ix2 r d)) (fun r : Fin 16 => br (ix2 h r)))
  simp only [coe_sum, EReal.coe_add, EReal.coe_mul] at key
  unfold refAt projAt fold
  simp only [hxr, hwr, har, hbr, one_eq]
  exact key

end Cert.Lora

end
-- ==== Proof.Bridge.lean ====
/-
  The three results of the idealized program are the three projections.

  Each call's output array ends holding the blockwise running sum of its four input arrays. The host operations leave in
  those arrays the flattened activations and the folded weight ("hi" parts) and each of them less itself ("lo" parts).
  On finite inputs a value less itself is zero, so the running sum is the plain product over the whole contraction axis,
  `∑ d, x (b, s, d) · fold W A B (d, h)` at row `2048 · b + s` and column `h`; the final reshape puts that row back
  at batch `b`, position `s`.
-/
import proofs.«111175_j26250840113720_2_alg».proof.Proof.KernelIdealTail
import proofs.«111175_j26250840113720_2_alg».proof.Proof.KernelIdeal0Value
import proofs.«111175_j26250840113720_2_alg».proof.Proof.KernelIdeal1Value
import proofs.«111175_j26250840113720_2_alg».proof.Proof.KernelIdeal2Value
import proofs.«111175_j26250840113720_2_alg».proof.Proof.HostPrefix
import proofs.«111175_j26250840113720_2_alg».proof.Proof.Algebra
import proofs.«111175_j26250840113720_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lora Cert.KernelIdeal.HostPrefix Idealize.ShloMosaic.ValueIdx
open scoped BigOperators

/-! ## The running sum of the host results is the projection -/

/-- Four arrays holding the flattened activations, the folded weight, and each of them less itself: on finite inputs their
    blockwise running sum at row `2048 · b + s` and column `h` is the projection at `(b, s, h)`. -/
theorem blockSum_proj (XH XL : Flat) (WH WL : Sq) (x : Act) (W : Sq) (A : Dn) (B : Up)
    (hXH : ∀ (r : Fin 8192) (d : Fin 4096),
      XH (ix2 r d) = x (ix3 (⟨r.val / 2048, by omega⟩ : Fin 4) (⟨r.val % 2048, by omega⟩ : Fin 2048) d))
    (hXL : ∀ i, XL i = XH i - XH i)
    (hWH : ∀ d h : Fin 4096, WH (ix2 d h) = fold W A B d h)
    (hWL : ∀ i, WL i = WH i - WH i)
    (hx : IsFin x) (hW : IsFin W) (hA : IsFin A) (hB : IsFin B)
    (b : Fin 4) (s : Fin 2048) (h : Fin 4096) :
    blockSum XH XL WH WL (⟨2048 * b.val + s.val, by omega⟩ : Fin 8192) h = projAt x W A B b s h := by
  have hXL0 : ∀ i, XL i = 0 := fun i => by
    obtain ⟨r, d, rfl⟩ : ∃ (r : Fin 8192) (d : Fin 4096), i = ix2 r d := ⟨i 0, i 1, eq_ix2 i⟩
    rw [hXL]
    refine sub_self_fin ?_
    rw [hXH r d]
    exact hx _
  have hWL0 : ∀ i, WL i = 0 := fun i => by
    obtain ⟨d, h', rfl⟩ : ∃ (d h' : Fin 4096), i = ix2 d h' := ⟨i 0, i 1, eq_ix2 i⟩
    rw [hWL]
    refine sub_self_fin ?_
    rw [hWH d h']
    exact isFin_fold W A B hW hA hB d h'
  rw [blockSum_eq XH XL WH WL hXL0 hWL0]
  unfold projAt
  refine Finset.sum_congr rfl fun d _ => ?_
  rw [hXH, hWH]
  refine congrArg (fun j => x j * fold W A B d h) (funext fun a => ?_)
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-! ## The three results -/

variable (m : (ℓ : Loc nD τ sig) → Buf (Elt Ideal) ℓ) (c : Dev nD)

/-- The first result is the first projection. -/
theorem v35_eq (hX : IsFin (X m c)) (hW : IsFin (Wq m c)) (hA : IsFin (Aq m c)) (hB : IsFin (Bq m c)) :
    (W5 m c (Proc.devRef .tc main_v35) : Cert.Lora.Act) = proj (X m c) (Wq m c) (Aq m c) (Bq m c) := by
  funext i
  obtain ⟨b, s, h, rfl⟩ : ∃ (b : Fin 4) (s : Fin 2048) (h : Fin 4096), i = ix3 b s h := ⟨i 0, i 1, i 2, eq_ix3 i⟩
  refine (W5_v35_at m c b s h).trans ?_
  refine (congrFun (final0 (Vr1 m) c) (ix2 (⟨2048 * b.val + s.val, by omega⟩ : Fin 8192) h)).trans ?_
  rw [proj_ix3]
  show blockSum (XH0 (Vr1 m) c) (XL0 (Vr1 m) c) (WH0 (Vr1 m) c) (WL0 (Vr1 m) c) (⟨2048 * b.val + s.val, by omega⟩ : Fin 8192) h = _
  exact blockSum_proj _ _ _ _ (X m c) (Wq m c) (Aq m c) (Bq m c)
    (v16_at m c) (v19_at m c) (v20_at m c) (v23_at m c) hX hW hA hB b s h

/-- The second result is the second projection. -/
theorem v36_eq (hX : IsFin (X m c)) (hW : IsFin (Wk m c)) (hA : IsFin (Ak m c)) (hB : IsFin (Bk m c)) :
    (W5 m c (Proc.devRef .tc main_v36) : Cert.Lora.Act) = proj (X m c) (Wk m c) (Ak m c) (Bk m c) := by
  funext i
  obtain ⟨b, s, h, rfl⟩ : ∃ (b : Fin 4) (s : Fin 2048) (h : Fin 4096), i = ix3 b s h := ⟨i 0, i 1, i 2, eq_ix3 i⟩
  refine (W5_v36_at m c b s h).trans ?_
  refine (congrFun (final1 (Vr2 m) c) (ix2 (⟨2048 * b.val + s.val, by omega⟩ : Fin 8192) h)).trans ?_
  rw [proj_ix3]
  show blockSum (XH1 (Vr2 m) c) (XL1 (Vr2 m) c) (WH1 (Vr2 m) c) (WL1 (Vr2 m) c) (⟨2048 * b.val + s.val, by omega⟩ : Fin 8192) h = _
  have e0 : XH1 (Vr2 m) c = V1 m c (Proc.devRef .tc main_v16) := Vr2_in m c 0 (by decide)
  have e1 : XL1 (Vr2 m) c = V1 m c (Proc.devRef .tc main_v19) := Vr2_in m c 1 (by decide)
  have e2 : WH1 (Vr2 m) c = V1 m c (Proc.devRef .tc main_v24) := Vr2_in m c 2 (by decide)
  have e3 : WL1 (Vr2 m) c = V1 m c (Proc.devRef .tc main_v27) := Vr2_in m c 3 (by decide)
  rw [e0, e1, e2, e3]
  exact blockSum_proj _ _ _ _ (X m c) (Wk m c) (Ak m c) (Bk m c)
    (v16_at m c) (v19_at m c) (v24_at m c) (v27_at m c) hX hW hA hB b s h

/-- The third result is the third projection. -/
theorem v37_eq (hX : IsFin (X m c)) (hW : IsFin (Wv m c)) (hA : IsFin (Av m c)) (hB : IsFin (Bv m c)) :
    (W5 m c (Proc.devRef .tc main_v37) : Cert.Lora.Act) = proj (X m c) (Wv m c) (Av m c) (Bv m c) := by
  funext i
  obtain ⟨b, s, h, rfl⟩ : ∃ (b : Fin 4) (s : Fin 2048) (h : Fin 4096), i = ix3 b s h := ⟨i 0, i 1, i 2, eq_ix3 i⟩
  refine (W5_v37_at m c b s h).trans ?_
  refine (congrFun (final2 (Vr3 m) c) (ix2 (⟨2048 * b.val + s.val, by omega⟩ : Fin 8192) h)).trans ?_
  rw [proj_ix3]
  show blockSum (XH2 (Vr3 m) c) (XL2 (Vr3 m) c) (WH2 (Vr3 m) c) (WL2 (Vr3 m) c) (⟨2048 * b.val + s.val, by omega⟩ : Fin 8192) h = _
  have e0 : XH2 (Vr3 m) c = V1 m c (Proc.devRef .tc main_v16) := Vr3_in m c 0 (by decide)
  have e1 : XL2 (Vr3 m) c = V1 m c (Proc.devRef .tc main_v19) := Vr3_in m c 1 (by decide)
  have e2 : WH2 (Vr3 m) c = V1 m c (Proc.devRef .tc main_v28) := Vr3_in m c 2 (by decide)
  have e3 : WL2 (Vr3 m) c = V1 m c (Proc.devRef .tc main_v31) := Vr3_in m c 3 (by decide)
  rw [e0, e1, e2, e3]
  exact blockSum_proj _ _ _ _ (X m c) (Wv m c) (Av m c) (Bv m c)
    (v16_at m c) (v19_at m c) (v28_at m c) (v31_at m c) hX hW hA hB b s h

end Cert.KernelIdeal.Hand

end
-- ==== Proof.Finite.lean ====
/-
  Finiteness of the inputs, from the precondition. The precondition is the conjunction, over the ten float inputs, of
  "every entry's absolute value lies strictly below `+∞`". On the extended reals the absolute value `max x (-x)` of `⊥` and
  of `⊤` is `⊤`, so an entry that passes the test is a real number.
-/
import proofs.«111175_j26250840113720_2_alg».proof.Pre_finite_inputs
import proofs.«111175_j26250840113720_2_alg».proof.Proof.Spec
import Idealize.ShloMosaic.Lib.ReduceAll
import Idealize.ShloMosaic.Lib.ValueIdx
import Idealize.ShloMosaic.Lib.IdealHost

noncomputable section

namespace Cert.Lora

open Idealize.ShloMosaic Idealize.ShloMosaic.ValueIdx

/-- An extended real whose absolute value `max x (-x)` lies strictly below `+∞` is a real number:
    at `⊥` and at `⊤` the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The ordered comparison `<` of two extended reals came out true only if the first lies strictly below the second. -/
theorem lt_of_cmp_olt (x y : EReal) (h : Ideal.cmp .olt x y = 1#1) : x < y := by
  have e : Ideal.cmp .olt x y = BitVec.ofBool (decide (x < y)) := rfl
  rw [e] at h
  by_contra hn
  rw [decide_eq_false hn] at h
  exact absurd h (by decide)

/-- One flag of the precondition: if the conjunction over all indices of `|a i| < +∞` is true, every entry of `a` is a real. -/
theorem isFin_of_flag {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (a : FVec Ideal S .f32)
    (h : Host.reduce IntOp.andi
          (cmpf .olt (Host.absf a)
            (broadcastInDim S ![] hb (constant (F := Ideal) Cert.Pre_finite_inputs.S_ .f32 0x7F800000#32)))
          (constantI Cert.Pre_finite_inputs.S_ 1 1#1) hr hu ix0 = 1#1) : IsFin a := by
  intro i
  -- the rank-0 shape has one index
  haveI : Subsingleton Cert.Pre_finite_inputs.S_.Idx := ⟨fun a b => funext fun d => d.elim0⟩
  have e := Host.reduce_andi_all _ _ hr hu ix0 h i
  have htop : Ideal.ofBits .f32 0x7F800000#32 = ⊤ := by simp [Ideal.ofBits, Ideal.ieee]
  have e' : Ideal.cmp .olt (max (a i) (-(a i))) (Ideal.ofBits .f32 0x7F800000#32) = 1#1 := by
    rw [← e]; rw [cmpf_apply, broadcastInDim_scalar_apply]; rfl
  rw [htop] at e'
  exact real_of_abs_lt_top (a i) (lt_of_cmp_olt _ _ e')

/-- The precondition (the conjunction of ten flags, one per input: every entry's absolute value lies below `+∞`)
    gives that every entry of every input is a real number. -/
theorem isFin_of_pre [Cert.Pre_finite_inputs.Facts]
    (a0 : FVec Ideal Cert.Pre_finite_inputs.S4x2048x4096 .f32) (a1 a2 a3 : FVec Ideal Cert.Pre_finite_inputs.S4096x4096 .f32)
    (a4 : FVec Ideal Cert.Pre_finite_inputs.S16x4096 .f32) (a5 : FVec Ideal Cert.Pre_finite_inputs.S4096x16 .f32)
    (a6 : FVec Ideal Cert.Pre_finite_inputs.S16x4096 .f32) (a7 : FVec Ideal Cert.Pre_finite_inputs.S4096x16 .f32)
    (a8 : FVec Ideal Cert.Pre_finite_inputs.S16x4096 .f32) (a9 : FVec Ideal Cert.Pre_finite_inputs.S4096x16 .f32)
    (h : Cert.Pre_finite_inputs.fn (F := Ideal) a0 a1 a2 a3 a4 a5 a6 a7 a8 a9 = fun _ => 1#1) :
    IsFin a0 ∧ IsFin a1 ∧ IsFin a2 ∧ IsFin a3 ∧ IsFin a4 ∧ IsFin a5 ∧ IsFin a6 ∧ IsFin a7 ∧ IsFin a8 ∧ IsFin a9 := by
  have h0 := congrFun h ix0
  dsimp only [Cert.Pre_finite_inputs.fn, Cert.Pre_finite_inputs.fn_part1, Cert.Pre_finite_inputs.fn_part2, andi] at h0
  obtain ⟨h0, f9⟩ := IntOp.andi_eq_one.1 h0
  obtain ⟨h0, f8⟩ := IntOp.andi_eq_one.1 h0
  obtain ⟨h0, f7⟩ := IntOp.andi_eq_one.1 h0
  obtain ⟨h0, f6⟩ := IntOp.andi_eq_one.1 h0
  obtain ⟨h0, f5⟩ := IntOp.andi_eq_one.1 h0
  obtain ⟨h0, f4⟩ := IntOp.andi_eq_one.1 h0
  obtain ⟨h0, f3⟩ := IntOp.andi_eq_one.1 h0
  obtain ⟨h0, f2⟩ := IntOp.andi_eq_one.1 h0
  obtain ⟨f0, f1⟩ := IntOp.andi_eq_one.1 h0
  exact ⟨isFin_of_flag _ _ _ a0 f0, isFin_of_flag _ _ _ a1 f1, isFin_of_flag _ _ _ a2 f2, isFin_of_flag _ _ _ a3 f3,
    isFin_of_flag _ _ _ a4 f4, isFin_of_flag _ _ _ a5 f5, isFin_of_flag _ _ _ a6 f6, isFin_of_flag _ _ _ a7 f7,
    isFin_of_flag _ _ _ a8 f8, isFin_of_flag _ _ _ a9 f9⟩

end Cert.Lora

end
-- ==== Proof.RefValue.lean ====
/-
  The reference's three results, read at an index, are the reference's own spelling of the LoRA projection:
  the base product `∑ d, x (b, s, d) · W (h, d)` plus the low-rank path
  `∑ r, (∑ d, x (b, s, d) · A (r, d)) · (1 · B (h, r))`.
  Each result is an addition of two contractions; the second contracts a contraction with a product by the
  broadcast scale. Reading every stage at an index and naming the operand indices by their coordinates gives the formula.
-/
import proofs.«111175_j26250840113720_2_alg».proof.Proof.Gen.ReferenceIdeal.Read
import proofs.«111175_j26250840113720_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The operand indices of the contractions, by coordinates -/

/-- Left operand of the base product: the activations at `(b, s, k)`. -/
theorem lidx_v0 (b : Fin 4) (s : Fin 2048) (h : Fin 4096) (k : Fin 4096) :
    lidx_main_v0 (ix3 b s h) k = ix3 b s k :=
  funext fun a => Fin.ext (by match a with | ⟨0, _⟩ => rfl | ⟨1, _⟩ => rfl | ⟨2, _⟩ => rfl)

/-- Right operand of the base product: the weight at `(h, k)`. -/
theorem ridx_v0 (b : Fin 4) (s : Fin 2048) (h : Fin 4096) (k : Fin 4096) :
    ridx_main_v0 (ix3 b s h) k = ix2 h k :=
  funext fun a => Fin.ext (by match a with | ⟨0, _⟩ => rfl | ⟨1, _⟩ => rfl)

/-- Left operand of the down-projection: the activations at `(b, s, k)`. -/
theorem lidx_v1 (b : Fin 4) (s : Fin 2048) (r : Fin 16) (k : Fin 4096) :
    lidx_main_v1 (ix3 b s r) k = ix3 b s k :=
  funext fun a => Fin.ext (by match a with | ⟨0, _⟩ => rfl | ⟨1, _⟩ => rfl | ⟨2, _⟩ => rfl)

/-- Right operand of the down-projection: `A` at `(r, k)`. -/
theorem ridx_v1 (b : Fin 4) (s : Fin 2048) (r : Fin 16) (k : Fin 4096) :
    ridx_main_v1 (ix3 b s r) k = ix2 r k :=
  funext fun a => Fin.ext (by match a with | ⟨0, _⟩ => rfl | ⟨1, _⟩ => rfl)

/-- Left operand of the up-projection: the down-projected activations at `(b, s, r)`. -/
theorem lidx_v4 (b : Fin 4) (s : Fin 2048) (h : Fin 4096) (r : Fin 16) :
    lidx_main_v4 (ix3 b s h) r = ix3 b s r :=
  funext fun a => Fin.ext (by match a with | ⟨0, _⟩ => rfl | ⟨1, _⟩ => rfl | ⟨2, _⟩ => rfl)

/-- Right operand of the up-projection: the scaled `B` at `(h, r)`. -/
theorem ridx_v4 (b : Fin 4) (s : Fin 2048) (h : Fin 4096) (r : Fin 16) :
    ridx_main_v4 (ix3 b s h) r = ix2 h r :=
  funext fun a => Fin.ext (by match a with | ⟨0, _⟩ => rfl | ⟨1, _⟩ => rfl)

/-! ## The three results -/

/-- The first result at `(b, s, h)`. -/
theorem val_v5_at (x0 : Cert.Lora.Act) (x1 : Cert.Lora.Sq) (x4 : Cert.Lora.Dn) (x5 : Cert.Lora.Up)
    (b : Fin 4) (s : Fin 2048) (h : Fin 4096) :
    Cert.ReferenceIdeal.Read.val_main_v5 (F := Ideal) x0 x1 x4 x5 (ix3 b s h) = Cert.Lora.refAt x0 x1 x4 x5 b s h := by
  rw [val_main_v5_apply, val_main_v0_apply, val_main_v4_apply]
  simp only [val_main_v1_apply, val_main_v3_apply, val_main_v2_apply, val_main_cst_apply,
    lidx_v0, ridx_v0, lidx_v1, ridx_v1, lidx_v4, ridx_v4,
    Ideal.addf_def, Ideal.mulf_def, Ideal.ofBits_def]
  rfl

/-- The second result is the same program as the first, applied to the second projection's arguments. -/
theorem val_v11_eq_v5 (x0 : Cert.Lora.Act) (x2 : Cert.Lora.Sq) (x6 : Cert.Lora.Dn) (x7 : Cert.Lora.Up) :
    Cert.ReferenceIdeal.Read.val_main_v11 (F := Ideal) x0 x2 x6 x7
      = Cert.ReferenceIdeal.Read.val_main_v5 (F := Ideal) x0 x2 x6 x7 := rfl

/-- The third result is the same program as the first, applied to the third projection's arguments. -/
theorem val_v17_eq_v5 (x0 : Cert.Lora.Act) (x3 : Cert.Lora.Sq) (x8 : Cert.Lora.Dn) (x9 : Cert.Lora.Up) :
    Cert.ReferenceIdeal.Read.val_main_v17 (F := Ideal) x0 x3 x8 x9
      = Cert.ReferenceIdeal.Read.val_main_v5 (F := Ideal) x0 x3 x8 x9 := rfl

/-- The second result at `(b, s, h)`. -/
theorem val_v11_at (x0 : Cert.Lora.Act) (x2 : Cert.Lora.Sq) (x6 : Cert.Lora.Dn) (x7 : Cert.Lora.Up)
    (b : Fin 4) (s : Fin 2048) (h : Fin 4096) :
    Cert.ReferenceIdeal.Read.val_main_v11 (F := Ideal) x0 x2 x6 x7 (ix3 b s h) = Cert.Lora.refAt x0 x2 x6 x7 b s h :=
  (congrFun (val_v11_eq_v5 x0 x2 x6 x7) (ix3 b s h)).trans (val_v5_at x0 x2 x6 x7 b s h)

/-- The third result at `(b, s, h)`. -/
theorem val_v17_at (x0 : Cert.Lora.Act) (x3 : Cert.Lora.Sq) (x8 : Cert.Lora.Dn) (x9 : Cert.Lora.Up)
    (b : Fin 4) (s : Fin 2048) (h : Fin 4096) :
    Cert.ReferenceIdeal.Read.val_main_v17 (F := Ideal) x0 x3 x8 x9 (ix3 b s h) = Cert.Lora.refAt x0 x3 x8 x9 b s h :=
  (congrFun (val_v17_eq_v5 x0 x3 x8 x9) (ix3 b s h)).trans (val_v5_at x0 x3 x8 x9 b s h)

end Cert.ReferenceIdeal.RefValue

end
-- ==== Proof.lean ====
/-
  The certificate of the LoRA-fused Q/K/V projection kernel against its plain reference, at the extended reals.

  The kernel's program folds each projection's low-rank adapter into its weight on the host,
  `W' (d, h) = W (h, d) + 1 · ∑ r, A (r, d) · B (h, r)`, splits the activations and the folded weight into a
  "hi" part (the value, a change of float format being the identity here) and a "lo" part (the value minus itself,
  zero for a finite value), and runs three calls of one blocked matrix-product kernel: a 4 × 4 × 4 grid over
  (row block, column block, contraction block), a scratch accumulator cleared at the first contraction block, added to at
  every block with hi·hi + hi·lo + lo·hi, and copied to the output block at the last.
  The reference computes `∑ d, x (b, s, d) · W (h, d) + ∑ r, (∑ d, x (b, s, d) · A (r, d)) · (1 · B (h, r))`.
  On finite inputs both are `∑ d, x (b, s, d) · W' (d, h)`: the kernel's because the lo parts vanish and a sum over
  four blocks of 1024 is the sum over 4096; the reference's by distributivity.

  The three frames: each program's run as segments (host operations, the three calls, the final reshapes), the calls by the
  pipeline's launch rule with the body run once per case of its two branches and the scratch buffer's contents named
  between points. The values: the running sum in closed form, the output array from its blocks, the host operations read
  at an index, finiteness decoded from the precondition, and the two sides joined by the algebra.
-/
import proofs.«111175_j26250840113720_2_alg».proof.Defs
import proofs.«111175_j26250840113720_2_alg».proof.Proof.Gen.Kernel
import proofs.«111175_j26250840113720_2_alg».proof.Proof.Gen.KernelIdeal
import proofs.«111175_j26250840113720_2_alg».proof.Proof.Gen.ReferenceIdeal
import proofs.«111175_j26250840113720_2_alg».proof.Proof.Gen.Pre_finite_inputs
import proofs.«111175_j26250840113720_2_alg».proof.Proof.Gen.ReferenceIdeal.Run
import proofs.«111175_j26250840113720_2_alg».proof.Proof.Gen.ReferenceIdeal.Read
import proofs.«111175_j26250840113720_2_alg».proof.Proof.KernelTail
import proofs.«111175_j26250840113720_2_alg».proof.Proof.KernelIdealTail
import proofs.«111175_j26250840113720_2_alg».proof.Proof.Bridge
import proofs.«111175_j26250840113720_2_alg».proof.Proof.Finite
import proofs.«111175_j26250840113720_2_alg».proof.Proof.Algebra
import proofs.«111175_j26250840113720_2_alg».proof.Proof.RefValue
import proofs.«111175_j26250840113720_2_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx
open Cert.Lora Cert.KernelIdeal.HostPrefix

/-- The word-level program runs to the end and leaves its arguments as launched. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)
/-- The idealization rewrote nothing. -/
theorem preserves : Cert.preserves_Kernel_KernelIdeal := trivial

/-- The reference's stage at an index is the projection, on finite inputs: distributivity. -/
theorem ref_proj (x : Act) (W : Sq) (A : Dn) (B : Up) (hx : IsFin x) (hW : IsFin W) (hA : IsFin A) (hB : IsFin B)
    (f : Act) (hf : ∀ b s h, f (ix3 b s h) = refAt x W A B b s h) : f = proj x W A B := by
  funext i
  obtain ⟨b, s, h, rfl⟩ : ∃ (b : Fin 4) (s : Fin 2048) (h : Fin 4096), i = ix3 b s h := ⟨i 0, i 1, i 2, eq_ix3 i⟩
  rw [hf, refAt_eq_projAt x W A B hx hW hA hB, proj_ix3]

/-- Both idealized programs end with the three projections of their (agreeing, finite) arguments. -/
theorem algebraic : Cert.algebraic_KernelIdeal_ReferenceIdeal := by
  intro m ρ m' ρ' hpre hagree
  have hfin := fun c : Dev Cert.KernelIdeal.nD => Cert.Lora.isFin_of_pre _ _ _ _ _ _ _ _ _ _ (hpre c)
  refine ⟨fun c => proj (X m c) (Wq m c) (Aq m c) (Bq m c), fun c => proj (X m c) (Wk m c) (Ak m c) (Bk m c),
    fun c => proj (X m c) (Wv m c) (Av m c) (Bv m c), ?_, ?_⟩
  · exact Cert.KernelIdeal.Hand.run_main m ρ (hQ := fun s h c => by
      obtain ⟨h0, h1, h2, h3, h4, h5, h6, h7, h8, h9⟩ := hfin c
      exact ⟨(h c _ (Cert.KernelIdeal.Hand.mem_uc Cert.KernelIdeal.main_v35 (by decide))).trans (Cert.KernelIdeal.Hand.v35_eq m c h0 h1 h4 h5),
        (h c _ (Cert.KernelIdeal.Hand.mem_uc Cert.KernelIdeal.main_v36 (by decide))).trans (Cert.KernelIdeal.Hand.v36_eq m c h0 h2 h6 h7),
        (h c _ (Cert.KernelIdeal.Hand.mem_uc Cert.KernelIdeal.main_v37 (by decide))).trans (Cert.KernelIdeal.Hand.v37_eq m c h0 h3 h8 h9),
        (h c _ (Cert.KernelIdeal.Hand.mem_uc Cert.KernelIdeal.main_arg0 (by decide))).trans (Cert.KernelIdeal.Hand.W5_keep m c Cert.KernelIdeal.main_arg0 (by decide) (by decide) (by decide) (by decide) (by decide)),
        (h c _ (Cert.KernelIdeal.Hand.mem_uc Cert.KernelIdeal.main_arg1 (by decide))).trans (Cert.KernelIdeal.Hand.W5_keep m c Cert.KernelIdeal.main_arg1 (by decide) (by decide) (by decide) (by decide) (by decide)),
        (h c _ (Cert.KernelIdeal.Hand.mem_uc Cert.KernelIdeal.main_arg2 (by decide))).trans (Cert.KernelIdeal.Hand.W5_keep m c Cert.KernelIdeal.main_arg2 (by decide) (by decide) (by decide) (by decide) (by decide)),
        (h c _ (Cert.KernelIdeal.Hand.mem_uc Cert.KernelIdeal.main_arg3 (by decide))).trans (Cert.KernelIdeal.Hand.W5_keep m c Cert.KernelIdeal.main_arg3 (by decide) (by decide) (by decide) (by decide) (by decide)),
        (h c _ (Cert.KernelIdeal.Hand.mem_uc Cert.KernelIdeal.main_arg4 (by decide))).trans (Cert.KernelIdeal.Hand.W5_keep m c Cert.KernelIdeal.main_arg4 (by decide) (by decide) (by decide) (by decide) (by decide)),
        (h c _ (Cert.KernelIdeal.Hand.mem_uc Cert.KernelIdeal.main_arg5 (by decide))).trans (Cert.KernelIdeal.Hand.W5_keep m c Cert.KernelIdeal.main_arg5 (by decide) (by decide) (by decide) (by decide) (by decide)),
        (h c _ (Cert.KernelIdeal.Hand.mem_uc Cert.KernelIdeal.main_arg6 (by decide))).trans (Cert.KernelIdeal.Hand.W5_keep m c Cert.KernelIdeal.main_arg6 (by decide) (by decide) (by decide) (by decide) (by decide)),
        (h c _ (Cert.KernelIdeal.Hand.mem_uc Cert.KernelIdeal.main_arg7 (by decide))).trans (Cert.KernelIdeal.Hand.W5_keep m c Cert.KernelIdeal.main_arg7 (by decide) (by decide) (by decide) (by decide) (by decide)),
        (h c _ (Cert.KernelIdeal.Hand.mem_uc Cert.KernelIdeal.main_arg8 (by decide))).trans (Cert.KernelIdeal.Hand.W5_keep m c Cert.KernelIdeal.main_arg8 (by decide) (by decide) (by decide) (by decide) (by decide)),
        (h c _ (Cert.KernelIdeal.Hand.mem_uc Cert.KernelIdeal.main_arg9 (by decide))).trans (Cert.KernelIdeal.Hand.W5_keep m c Cert.KernelIdeal.main_arg9 (by decide) (by decide) (by decide) (by decide) (by decide))⟩)
  · refine (θ_run Cert.ReferenceIdeal.defs _ _).mono (fun _ h c => ?_) (Cert.ReferenceIdeal.Value.run (F := Ideal) m' ρ')
    obtain ⟨h0, h1, h2, h3, h4, h5, h6, h7, h8, h9⟩ := hfin c
    obtain ⟨a0, a1, a2, a3, a4, a5, a6, a7, a8, a9⟩ := hagree c
    refine ⟨(h c).1.trans ?_, (h c).2.1.trans ?_, (h c).2.2.1.trans ?_, (h c).2.2.2⟩
    · rw [a0, a1, a4, a5]
      exact ref_proj (X m c) (Wq m c) (Aq m c) (Bq m c) h0 h1 h4 h5 _ (Cert.ReferenceIdeal.RefValue.val_v5_at _ _ _ _)
    · rw [a0, a2, a6, a7]
      exact ref_proj (X m c) (Wk m c) (Ak m c) (Bk m c) h0 h2 h6 h7 _ (Cert.ReferenceIdeal.RefValue.val_v11_at _ _ _ _)
    · rw [a0, a3, a8, a9]
      exact ref_proj (X m c) (Wv m c) (Av m c) (Bv m c) h0 h3 h8 h9 _ (Cert.ReferenceIdeal.RefValue.val_v17_at _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
